-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S512x1024 : Shape := ⟨2, ![512, 1024]⟩
abbrev S1x512x1024 : Shape := ⟨3, ![1, 512, 1024]⟩
abbrev S1x512x1 : Shape := ⟨3, ![1, 512, 1]⟩
abbrev S1x1024 : Shape := ⟨2, ![1, 1024]⟩
abbrev S1x1x1024 : Shape := ⟨3, ![1, 1, 1024]⟩
abbrev S1x512x512 : Shape := ⟨3, ![1, 512, 512]⟩
abbrev S1x512 : Shape := ⟨2, ![1, 512]⟩

abbrev nBuf : Space → Nat
  | .hbm => 12
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S4x2048x1024, .bf16⟩
  | .hbm, ⟨9, _⟩ => ⟨S4x2048x1024, .bf16⟩
  | .hbm, ⟨10, _⟩ => ⟨S4x2048x1024, .bf16⟩
  | .hbm, ⟨11, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1, .f32⟩
  | .local _ .vmem, ⟨20, _⟩ => ⟨S1x512x1, .f32⟩
  | .local _ .vmem, ⟨21, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond4 (i : grid1.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_13 : BitVec 32 := 0#32
  let v21 : BitVec 1 := Scalar.cmpi .ne v20 c0_i32_13
  v21

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x512x1024_S1x1024 : S1x512x1024.Reduces [1] S1x1024
  shapeCasts_S1x1024_S1x1x1024 : S1x1024.ShapeCasts S1x1x1024
  broadcasts_S1x512x1_S1x512x1024 : S1x512x1.Broadcasts S1x512x1024
  broadcasts_S1x1x1024_S1x512x1024 : S1x1x1024.Broadcasts S1x512x1024
  iota_S1x512x512_d1_w32 : S1x512x512.Iotas .tc 32 [1]
  iota_S1x512x512_d2_w32 : S1x512x512.Iotas .tc 32 [2]
  reduces_S1x512x512_S1x512 : S1x512x512.Reduces [2] S1x512
  shapeCasts_S1x512_S1x512x1 : S1x512.ShapeCasts S1x512x1
  broadcasts_S1x512x1_S1x512x512 : S1x512x1.Broadcasts S1x512x512
  dot_S512x1024_S1024x1024_S512x1024_1_0_0_1_n_n_wf : DotDims.WF S512x1024 S1024x1024 S512x1024 [1] [0] [0] [1] [] []
  dot_S1x512x1024_S1x512x1024_S1x512x512_2_2_1_1_0_0_wf : DotDims.WF S1x512x1024 S1x512x1024 S1x512x512 [2] [2] [1] [1] [0] [0]
  dot_S1x512x512_S1x512x1024_S1x512x1024_2_1_1_2_0_0_wf : DotDims.WF S1x512x512 S1x512x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512x1024_S1x512x1024_S1x512x512_2_2_1_1_0_0 : DotDims S1x512x1024 S1x512x1024 S1x512x512 where
  lhsContracting := [2]
  rhsContracting := [2]
  lhsNonContracting := [1]
  rhsNonContracting := [1]
  lhsBatch := [0]
  rhsBatch := [0]
  wf := dot_S1x512x1024_S1x512x1024_S1x512x512_2_2_1_1_0_0_wf
def dot_S1x512x512_S1x512x1024_S1x512x1024_2_1_1_2_0_0 : DotDims S1x512x512 S1x512x1024 S1x512x1024 where
  lhsContracting := [2]
  rhsContracting := [1]
  lhsNonContracting := [1]
  rhsNonContracting := [2]
  lhsBatch := [0]
  rhsBatch := [0]
  wf := dot_S1x512x512_S1x512x1024_S1x512x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S2048x2048 : Shape := ⟨2, ![2048, 2048]⟩
abbrev S4x2048x2048 : Shape := ⟨3, ![4, 2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x2048, .f32⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S1x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S4x2048x2048 : S_.BroadcastsInDim S4x2048x2048 (![] : Fin 0 → Fin S4x2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.WordQkvBody.lean ====
/-
  The first kernel region, a fused projection: at each of its 16 grid points it reads one block of 512 rows of the
  flattened input [8192, 1024] and the three whole weight matrices [1024, 1024], and writes the block's three
  products (rows times each weight matrix, accumulated from zero) into the same 512 rows of three result arrays.
  Stated at any float interpretation: what each result block holds after the body, as one pure term of the input
  block and a weight matrix; the body's run from the staged blocks to those terms; and the per-point obligation
  of the pipeline around it, at a parameter V, the buffers' contents when the region is entered.
-/
import proofs.«140165_j15401752723638_2_alg».proof.Proof.Gen.Kernel.Launch
import proofs.«140165_j15401752723638_2_alg».proof.Proof.Gen.Kernel.Skeleton
import proofs.«140165_j15401752723638_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: for the input, rows 512 t to 512 t + 511; for a weight matrix, all of it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 x 1024 block and the whole 1024 x 1024 matrix, as rectangles: every access of the body is one of them. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-! ## What the body leaves in each result block -/

/-- The query block: the input block times the first weight matrix. -/
def outQ (x : Vec F S512x1024 .f32) (w : Vec F S1024x1024 .f32) : Vec F S512x1024 .bf16 :=
  View.canon [⟨rX, k0_pay2 (View.ld x rX) (View.ld w rW)⟩]
/-- The key block: the input block times the second weight matrix. -/
def outK (x : Vec F S512x1024 .f32) (w : Vec F S1024x1024 .f32) : Vec F S512x1024 .bf16 :=
  View.canon [⟨rX, k0_pay3 (View.ld x rX) (View.ld w rW)⟩]
/-- The value block: the input block times the third weight matrix. -/
def outV (x : Vec F S512x1024 .f32) (w : Vec F S1024x1024 .f32) : Vec F S512x1024 .bf16 :=
  View.canon [⟨rX, k0_pay4 (View.ld x rX) (View.ld w rW)⟩]

/-- One store of the whole block covers the block. -/
theorem coverX (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

/-! ## The body's run -/

set_option maxHeartbeats 4000000 in
/-- From the four input blocks staged at `x`, `wq`, `wk`, `wv` and the three result blocks at anything, the body runs to
    its return leaving the inputs as they were and the results at the three products. -/
theorem sound_kernel (c : Dev nD) (E : Set ℕ) (i : grid0.Coords)
    (a1 : Memref sig .tc .vmem S512x1024 .f32) (h1 : a1.IsWhole) (a2 : Memref sig .tc .vmem S1024x1024 .f32) (h2 : a2.IsWhole)
    (a3 : Memref sig .tc .vmem S1024x1024 .f32) (h3 : a3.IsWhole) (a4 : Memref sig .tc .vmem S1024x1024 .f32) (h4 : a4.IsWhole)
    (a5 : Memref sig .tc .vmem S512x1024 .bf16) (h5 : a5.IsWhole) (a6 : Memref sig .tc .vmem S512x1024 .bf16) (h6 : a6.IsWhole)
    (a7 : Memref sig .tc .vmem S512x1024 .bf16) (h7 : a7.IsWhole)
    (x : Vec F S512x1024 .f32) (wq wk wv : Vec F S1024x1024 .f32) (K : PUnit → sProp 𝕄) :
    iprop(owns (c : Thread nD τ) a1 fullShare x ∗ owns (c : Thread nD τ) a2 fullShare wq ∗ owns (c : Thread nD τ) a3 fullShare wk
        ∗ owns (c : Thread nD τ) a4 fullShare wv
        ∗ (∃ d, owns (c : Thread nD τ) a5 fullShare d) ∗ (∃ d, owns (c : Thread nD τ) a6 fullShare d) ∗ (∃ d, owns (c : Thread nD τ) a7 fullShare d)
        ∗ (iprop(owns (c : Thread nD τ) a1 fullShare x ∗ owns (c : Thread nD τ) a2 fullShare wq ∗ owns (c : Thread nD τ) a3 fullShare wk
            ∗ owns (c : Thread nD τ) a4 fullShare wv
            ∗ owns (c : Thread nD τ) a5 fullShare (outQ x wq) ∗ owns (c : Thread nD τ) a6 fullShare (outK x wk)
            ∗ owns (c : Thread nD τ) a7 fullShare (outV x wv)) -∗ K ⟨⟩))
      ⊢ wp frame (wpE (defs₀ (F := F)) Variants.none c none) E (cc0__qkv_kernel i a1 h1 a2 h2 a3 h3 a4 h4 a5 h5 a6 h6 a7 h7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverX _)
  isplitl [H6]
  · iexists _; isplitr
    swap; · iexact H6
    ipureintro
    exact View.read_writes_eq_canon _ _ _ (coverX _)
  iexists _; isplitr
  swap; · iexact H7
  ipureintro
  exact View.read_writes_eq_canon _ _ _ (coverX _)

end Cert.Kernel.Qkv

end
-- ==== Proof.WordQkvRegion.lean ====
/-
  The projection region's proof data at the entry contents V: after the body at grid point t the input windows hold
  their blocks (rows 512 t .. 512 t + 511 of the flattened input; each weight matrix whole) and the three result
  windows hold the block's products with the three weight matrices. Each input window's staging buffer holds its
  block whenever the body runs, fetched at that point or kept from an earlier one (a weight matrix is fetched once).
-/
import proofs.«140165_j15401752723638_2_alg».proof.Proof.WordQkvBody

set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the projection pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outQ (iblk V c 0 t) (iblk V c 1 t)
    | ⟨5, _⟩ => outK (iblk V c 0 t) (iblk V c 2 t)
    | ⟨6, _⟩ => outV (iblk V c 0 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outQ (iblk V c 0 t) (iblk V c 1 t) := by dsimp only [dat]
theorem after_5 (c : Dev nD) (t : Fin cfg0.N) : (dat V c).after 5 t = outK (iblk V c 0 t) (iblk V c 2 t) := by dsimp only [dat]
theorem after_6 (c : Dev nD) (t : Fin cfg0.N) : (dat V c).after 6 t = outV (iblk V c 0 t) (iblk V c 3 t) := by dsimp only [dat]

/-- Input window 0's staging buffer holds its block whenever the body runs. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's staging buffer holds its block whenever the body runs. -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's staging buffer holds its block whenever the body runs. -/
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's staging buffer holds its block whenever the body runs. -/
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's run applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation for the body, at every point. -/
theorem body_obligation (c : Dev nD) : BodyObligation (dat (F := F) V c) (defs₀ (F := F)) Variants.none () Set.univ := fun t => by
  rw [bigSep_W0, bigSep_W0]
  exact sound_body V c t

end Cert.Kernel.Qkv

end
-- ==== Proof.WordAttnCases.lean ====
/-
  The attention region: a grid of 4 x 4 x 4 points (batch, query tile, key tile), each point one step of a streaming
  softmax over key tiles of 512 columns. Three scratch buffers carry, per query row, the running maximum, the running
  sum of exponentials and the running weighted sum of value rows from one key tile to the next; they are reset at
  key tile 0 and the quotient of the last two is stored into the result block at key tile 3. A key tile lying
  wholly above the diagonal (every column index exceeds every row index: 512 ki > 512 qi + 511) takes a closed
  form, every score there being zero. This module: the windows' blocks, the four branch conditions and where they
  hold over the 64 points, where the result window is left untouched, and the buffers the body runs on.
-/
import proofs.«140165_j15401752723638_2_alg».proof.Proof.Gen.Kernel.Launch
import proofs.«140165_j15401752723638_2_alg».proof.Proof.Gen.Kernel.Skeleton
import proofs.«140165_j15401752723638_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t = 16 b + 4 qi + ki`: rows 512 qi .. of batch b for the queries and the result,
    rows 512 ki .. for the keys and the values. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions -/

/-- Key tile 0: the scratch is reset. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The key tile lies wholly above the diagonal: 512 ki > 512 qi + 512 - 1. -/
abbrev above (i : grid1.Coords) : BitVec 1 :=
  Scalar.cmpi .sgt (Scalar.muli (BitVec.ofNat 32 (i 2).val) 512#32) (Scalar.subi (Scalar.addi (Scalar.muli (BitVec.ofNat 32 (i 1).val) 512#32) 512#32) 1#32)
abbrev cond1 (i : grid1.Coords) : Prop := (Scalar.cmpi .ne (Scalar.extui (above i)) 0#32) = 1#1
/-- It does exactly when the key tile's number exceeds the query tile's. -/
theorem hcond1 : ∀ t : Fin cfg1.N, cond1 (grid1.coords t) ↔ (t.val / 4) % 4 < t.val % 4 :=
  (by decide +kernel : ∀ t : Fin grid1.N, cond1 (grid1.coords t) ↔ (t.val / 4) % 4 < t.val % 4)

/-- The key tile meets or lies below the diagonal: the negation, as the body computes it. -/
abbrev cond2 (i : grid1.Coords) : Prop := (Scalar.cmpi .ne (Scalar.extui (Scalar.xori (above i) 1#1)) 0#32) = 1#1
theorem hcond2 : ∀ t : Fin cfg1.N, cond2 (grid1.coords t) ↔ ¬ ((t.val / 4) % 4 < t.val % 4) :=
  (by decide +kernel : ∀ t : Fin grid1.N, cond2 (grid1.coords t) ↔ ¬ ((t.val / 4) % 4 < t.val % 4))

/-- Key tile 3, the last: the result block is stored. -/
abbrev cond3 (i : grid1.Coords) : Prop := k1_cond4 i = 1#1
theorem hcond3 : ∀ t : Fin cfg1.N, cond3 (grid1.coords t) ↔ t.val % 4 = 3 :=
  (by decide +kernel : ∀ t : Fin grid1.N, cond3 (grid1.coords t) ↔ t.val % 4 = 3)

/-! ## Where the windows are left untouched -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Before the last key tile nothing is stored into the result window, -/
theorem idleAt_3 : ∀ t : Fin cfg1.N, ¬cond3 (grid1.coords t) → cfg1.idle 3 (grid1.coords t) = true := by decide +kernel
/-- and its block is not written back there; -/
theorem noFlush_3 : ∀ t : Fin cfg1.N, ¬cond3 (grid1.coords t) → (cfg1.win 3).flush t = false := by decide +kernel
/-- at the last key tile it is stored. -/
theorem liveAt_3 : ∀ t : Fin cfg1.N, cond3 (grid1.coords t) → cfg1.idle 3 (grid1.coords t) = false := by decide +kernel

/-! ## The buffers the body runs on -/

abbrev ms_0 (t : Fin cfg1.N) : Memref sig .tc .vmem S1x512x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x512x1024 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x512x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x512x1024 .f32 := win1_3.stage (cfg1.slots t 3)
abbrev hs_3 (t : Fin cfg1.N) : (ms_3 t).IsWhole := hstage1_3 ((cfg1.slots t 3).cast nbuf1_3)
/-- The running maximum, the running sum and the running weighted sum. -/
abbrev scM0 : Memref sig .tc .vmem S1x512x1 .f32 := Memref.whole cc1_scratch0
abbrev scM1 : Memref sig .tc .vmem S1x512x1 .f32 := Memref.whole cc1_scratch1
abbrev scM2 : Memref sig .tc .vmem S1x512x1024 .f32 := Memref.whole cc1_scratch2
abbrev VS0 : View sig .tc .vmem S1x512x1 .f32 := scM0.view
abbrev VS1 : View sig .tc .vmem S1x512x1 .f32 := scM1.view
abbrev VS2 : View sig .tc .vmem S1x512x1024 .f32 := scM2.view
/-- One staging buffer of the result window, through which its contents are stated. -/
abbrev VO3 : View sig .tc .vmem S1x512x1024 .f32 := (Memref.whole cc1_stg3_0 : Memref sig .tc .vmem S1x512x1024 .f32).view

/-- The region's class invariant with the three scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

end Cert.Kernel.Attn

end
-- ==== Proof.WordAttnRunA.lean ====
/-
  The attention body's run at key tile 0 (the scratch is reset, then the tile, which meets the diagonal or lies below it, is accumulated): from the three input blocks staged at their contents, the result block and
  the three scratch buffers as the case finds them, to its return; what each buffer it stores into ends with is
  the list of pieces the run itself determines.
-/
import proofs.«140165_j15401752723638_2_alg».proof.Proof.WordAttnCases

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: key tile 0 (the scratch is reset, then the tile, which meets the diagonal or lies below it, is accumulated). -/
noncomputable def runA (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.Kernel.Attn

end
-- ==== Proof.WordAttnRunB.lean ====
/-
  The attention body's run at a key tile 1 or 2 wholly above the diagonal (the closed form): from the three input blocks staged at their contents, the result block and
  the three scratch buffers as the case finds them, to its return; what each buffer it stores into ends with is
  the list of pieces the run itself determines.
-/
import proofs.«140165_j15401752723638_2_alg».proof.Proof.WordAttnRunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: a key tile 1 or 2 wholly above the diagonal (the closed form). -/
noncomputable def runB (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.Kernel.Attn

end
-- ==== Proof.WordAttnRunC.lean ====
/-
  The attention body's run at a key tile 1 or 2 meeting the diagonal or below it (the tile is accumulated): from the three input blocks staged at their contents, the result block and
  the three scratch buffers as the case finds them, to its return; what each buffer it stores into ends with is
  the list of pieces the run itself determines.
-/
import proofs.«140165_j15401752723638_2_alg».proof.Proof.WordAttnRunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: a key tile 1 or 2 meeting the diagonal or below it (the tile is accumulated). -/
noncomputable def runC (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.Kernel.Attn

end
-- ==== Proof.WordAttnRunD.lean ====
/-
  The attention body's run at key tile 3 wholly above the diagonal (the closed form, then the quotient is stored): from the three input blocks staged at their contents, the result block and
  the three scratch buffers as the case finds them, to its return; what each buffer it stores into ends with is
  the list of pieces the run itself determines.
-/
import proofs.«140165_j15401752723638_2_alg».proof.Proof.WordAttnRunC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case D: key tile 3 wholly above the diagonal (the closed form, then the quotient is stored). -/
noncomputable def runD (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg7.eq_unread hf7; obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.Kernel.Attn

end
-- ==== Proof.WordAttnRunE.lean ====
/-
  The attention body's run at key tile 3 on the diagonal (the tile is accumulated, then the quotient is stored): from the three input blocks staged at their contents, the result block and
  the three scratch buffers as the case finds them, to its return; what each buffer it stores into ends with is
  the list of pieces the run itself determines.
-/
import proofs.«140165_j15401752723638_2_alg».proof.Proof.WordAttnRunD

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case E: key tile 3 on the diagonal (the tile is accumulated, then the quotient is stored). -/
noncomputable def runE (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg7.eq_unread hf7; obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.Kernel.Attn

end
-- ==== Proof.WordAttnRegion.lean ====
/-
  The attention region's proof data at the entry contents V. After each grid point the three scratch buffers hold
  that point's running maximum, sum and weighted sum, computed from the point's query, key and value blocks and,
  past key tile 0, from what the point before left; at key tile 3 the result block holds the quotient. The invariant
  between points carries the scratch at those contents; the result window is left as found before the last key tile.
-/
import proofs.«140165_j15401752723638_2_alg».proof.Proof.WordAttnRunE

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The cases' hypotheses from a point's position -/

theorem cA0 (t : Fin cfg1.N) (h0 : t.val % 4 = 0) : cond0 (grid1.coords t) := (hcond0 t).mpr h0
theorem cA1 (t : Fin cfg1.N) (h0 : t.val % 4 = 0) : ¬cond1 (grid1.coords t) := fun h => by have := (hcond1 t).mp h; omega
theorem cA2 (t : Fin cfg1.N) (h0 : t.val % 4 = 0) : cond2 (grid1.coords t) := (hcond2 t).mpr (by omega)
theorem cA3 (t : Fin cfg1.N) (h0 : t.val % 4 = 0) : ¬cond3 (grid1.coords t) := fun h => by have := (hcond3 t).mp h; omega
theorem n0 (t : Fin cfg1.N) (h0 : ¬t.val % 4 = 0) : ¬cond0 (grid1.coords t) := fun h => h0 ((hcond0 t).mp h)
theorem y1 (t : Fin cfg1.N) (h1 : (t.val / 4) % 4 < t.val % 4) : cond1 (grid1.coords t) := (hcond1 t).mpr h1
theorem n1 (t : Fin cfg1.N) (h1 : ¬(t.val / 4) % 4 < t.val % 4) : ¬cond1 (grid1.coords t) := fun h => h1 ((hcond1 t).mp h)
theorem y2 (t : Fin cfg1.N) (h1 : ¬(t.val / 4) % 4 < t.val % 4) : cond2 (grid1.coords t) := (hcond2 t).mpr h1
theorem n2 (t : Fin cfg1.N) (h1 : (t.val / 4) % 4 < t.val % 4) : ¬cond2 (grid1.coords t) := fun h => ((hcond2 t).mp h) h1
theorem y3 (t : Fin cfg1.N) (h3 : t.val % 4 = 3) : cond3 (grid1.coords t) := (hcond3 t).mpr h3
theorem n3 (t : Fin cfg1.N) (h3 : ¬t.val % 4 = 3) : ¬cond3 (grid1.coords t) := fun h => h3 ((hcond3 t).mp h)

/-! ## What each case leaves: its pieces cover each buffer it stores into -/

/-- A placeholder for the result window where a case stores nothing into it: nothing reads it. -/
def outIdle : Vec F S1x512x1024 .f32 := VO3.read (Elt F) (VO3.writes (Elt F) VO3.junk [])

theorem scover_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) (y : S1x512x1.Idx) :
    ∃ pc ∈ (runA c i arg3 harg3 arg4 harg4 arg5 harg5 arg6 harg6 arg7 harg7 arg8 harg8 arg9 harg9 hc0 hc1 hc2 hc3 x0 x1 x2).2.1, y ∈ pc.1.set :=
  View.cover_of_tiledL (runA c i arg3 harg3 arg4 harg4 arg5 harg5 arg6 harg6 arg7 harg7 arg8 harg8 arg9 harg9 hc0 hc1 hc2 hc3 x0 x1 x2).2.1 S1x512x1.size (by sl_kernel_rfl) y
/-- What case A leaves in scratch 0. -/
def sout_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) : Vec F S1x512x1 .f32 :=
  VS0.read (Elt F) (VS0.writes (Elt F) VS0.junk (runA c i arg3 harg3 arg4 harg4 arg5 harg5 arg6 harg6 arg7 harg7 arg8 harg8 arg9 harg9 hc0 hc1 hc2 hc3 x0 x1 x2).2.1)
theorem scover_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) (y : S1x512x1.Idx) :
    ∃ pc ∈ (runA c i arg3 harg3 arg4 harg4 arg5 harg5 arg6 harg6 arg7 harg7 arg8 harg8 arg9 harg9 hc0 hc1 hc2 hc3 x0 x1 x2).2.2.1, y ∈ pc.1.set :=
  View.cover_of_tiledL (runA c i arg3 harg3 arg4 harg4 arg5 harg5 arg6 harg6 arg7 harg7 arg8 harg8 arg9 harg9 hc0 hc1 hc2 hc3 x0 x1 x2).2.2.1 S1x512x1.size (by sl_kernel_rfl) y
/-- What case A leaves in scratch 1. -/
def sout_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) : Vec F S1x512x1 .f32 :=
  VS1.read (Elt F) (VS1.writes (Elt F) VS1.junk (runA c i arg3 harg3 arg4 harg4 arg5 harg5 arg6 harg6 arg7 harg7 arg8 harg8 arg9 harg9 hc0 hc1 hc2 hc3 x0 x1 x2).2.2.1)
theorem scover_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) (y : S1x512x1024.Idx) :
    ∃ pc ∈ (runA c i arg3 harg3 arg4 harg4 arg5 harg5 arg6 harg6 arg7 harg7 arg8 harg8 arg9 harg9 hc0 hc1 hc2 hc3 x0 x1 x2).2.2.2.1, y ∈ pc.1.set :=
  View.cover_of_tiledL (runA c i arg3 harg3 arg4 harg4 arg5 harg5 arg6 harg6 arg7 harg7 arg8 harg8 arg9 harg9 hc0 hc1 hc2 hc3 x0 x1 x2).2.2.2.1 S1x512x1024.size (by sl_kernel_rfl) y
/-- What case A leaves in scratch 2. -/
def sout_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) : Vec F S1x512x1024 .f32 :=
  VS2.read (Elt F) (VS2.writes (Elt F) VS2.junk (runA c i arg3 harg3 arg4 harg4 arg5 harg5 arg6 harg6 arg7 harg7 arg8 harg8 arg9 harg9 hc0 hc1 hc2 hc3 x0 x1 x2).2.2.2.1)

theorem scover_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runB c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (runB c i arg3 harg3 arg4 harg4 arg5 harg5 arg6 harg6 arg7 harg7 arg8 harg8 arg9 harg9 hc0 hc1 hc2 hc3 x0 x1 x2 xs0 xs1 xs2).2.1 S1x512x1.size (by sl_kernel_rfl) y
/-- What case B leaves in scratch 0. -/
def sout_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1 .f32 :=
  VS0.read (Elt F) (VS0.writes (Elt F) VS0.junk (runB c i arg3 harg3 arg4 harg4 arg5 harg5 arg6 harg6 arg7 harg7 arg8 harg8 arg9 harg9 hc0 hc1 hc2 hc3 x0 x1 x2 xs0 xs1 xs2).2.1)
theorem scover_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runB c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (runB c i arg3 harg3 arg4 harg4 arg5 harg5 arg6 harg6 arg7 harg7 arg8 harg8 arg9 harg9 hc0 hc1 hc2 hc3 x0 x1 x2 xs0 xs1 xs2).2.2.1 S1x512x1.size (by sl_kernel_rfl) y
/-- What case B leaves in scratch 1. -/
def sout_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1 .f32 :=
  VS1.read (Elt F) (VS1.writes (Elt F) VS1.junk (runB c i arg3 harg3 arg4 harg4 arg5 harg5 arg6 harg6 arg7 harg7 arg8 harg8 arg9 harg9 hc0 hc1 hc2 hc3 x0 x1 x2 xs0 xs1 xs2).2.2.1)
theorem scover_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runB c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (runB c i arg3 harg3 arg4 harg4 arg5 harg5 arg6 harg6 arg7 harg7 arg8 harg8 arg9 harg9 hc0 hc1 hc2 hc3 x0 x1 x2 xs0 xs1 xs2).2.2.2.1 S1x512x1024.size (by sl_kernel_rfl) y
/-- What case B leaves in scratch 2. -/
def sout_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1024 .f32 :=
  VS2.read (Elt F) (VS2.writes (Elt F) VS2.junk (runB c i arg3 harg3 arg4 harg4 arg5 harg5 arg6 harg6 arg7 harg7 arg8 harg8 arg9 harg9 hc0 hc1 hc2 hc3 x0 x1 x2 xs0 xs1 xs2).2.2.2.1)

theorem scover_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runC c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (runC c i arg3 harg3 arg4 harg4 arg5 harg5 arg6 harg6 arg7 harg7 arg8 harg8 arg9 harg9 hc0 hc1 hc2 hc3 x0 x1 x2 xs0 xs1 xs2).2.1 S1x512x1.size (by sl_kernel_rfl) y
/-- What case C leaves in scratch 0. -/
def sout_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1 .f32 :=
  VS0.read (Elt F) (VS0.writes (Elt F) VS0.junk (runC c i arg3 harg3 arg4 harg4 arg5 harg5 arg6 harg6 arg7 harg7 arg8 harg8 arg9 harg9 hc0 hc1 hc2 hc3 x0 x1 x2 xs0 xs1 xs2).2.1)
theorem scover_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runC c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (runC c i arg3 harg3 arg4 harg4 arg5 harg5 arg6 harg6 arg7 harg7 arg8 harg8 arg9 harg9 hc0 hc1 hc2 hc3 x0 x1 x2 xs0 xs1 xs2).2.2.1 S1x512x1.size (by sl_kernel_rfl) y
/-- What case C leaves in scratch 1. -/
def sout_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1 .f32 :=
  VS1.read (Elt F) (VS1.writes (Elt F) VS1.junk (runC c i arg3 harg3 arg4 harg4 arg5 harg5 arg6 harg6 arg7 harg7 arg8 harg8 arg9 harg9 hc0 hc1 hc2 hc3 x0 x1 x2 xs0 xs1 xs2).2.2.1)
theorem scover_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runC c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (runC c i arg3 harg3 arg4 harg4 arg5 harg5 arg6 harg6 arg7 harg7 arg8 harg8 arg9 harg9 hc0 hc1 hc2 hc3 x0 x1 x2 xs0 xs1 xs2).2.2.2.1 S1x512x1024.size (by sl_kernel_rfl) y
/-- What case C leaves in scratch 2. -/
def sout_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1024 .f32 :=
  VS2.read (Elt F) (VS2.writes (Elt F) VS2.junk (runC c i arg3 harg3 arg4 harg4 arg5 harg5 arg6 harg6 arg7 harg7 arg8 harg8 arg9 harg9 hc0 hc1 hc2 hc3 x0 x1 x2 xs0 xs1 xs2).2.2.2.1)

theorem scover_D_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runD c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (runD c i arg3 harg3 arg4 harg4 arg5 harg5 arg6 harg6 arg7 harg7 arg8 harg8 arg9 harg9 hc0 hc1 hc2 hc3 x0 x1 x2 xs0 xs1 xs2).2.1 S1x512x1.size (by sl_kernel_rfl) y
/-- What case D leaves in scratch 0. -/
def sout_D_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) : Vec F S1x512x1 .f32 :=
  VS0.read (Elt F) (VS0.writes (Elt F) VS0.junk (runD c i arg3 harg3 arg4 harg4 arg5 harg5 arg6 harg6 arg7 harg7 arg8 harg8 arg9 harg9 hc0 hc1 hc2 hc3 x0 x1 x2 xs0 xs1 xs2).2.1)
theorem scover_D_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runD c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (runD c i arg3 harg3 arg4 harg4 arg5 harg5 arg6 harg6 arg7 harg7 arg8 harg8 arg9 harg9 hc0 hc1 hc2 hc3 x0 x1 x2 xs0 xs1 xs2).2.2.1 S1x512x1.size (by sl_kernel_rfl) y
/-- What case D leaves in scratch 1. -/
def sout_D_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) : Vec F S1x512x1 .f32 :=
  VS1.read (Elt F) (VS1.writes (Elt F) VS1.junk (runD c i arg3 harg3 arg4 harg4 arg5 harg5 arg6 harg6 arg7 harg7 arg8 harg8 arg9 harg9 hc0 hc1 hc2 hc3 x0 x1 x2 xs0 xs1 xs2).2.2.1)
theorem scover_D_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runD c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (runD c i arg3 harg3 arg4 harg4 arg5 harg5 arg6 harg6 arg7 harg7 arg8 harg8 arg9 harg9 hc0 hc1 hc2 hc3 x0 x1 x2 xs0 xs1 xs2).2.2.2.1 S1x512x1024.size (by sl_kernel_rfl) y
/-- What case D leaves in scratch 2. -/
def sout_D_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) : Vec F S1x512x1024 .f32 :=
  VS2.read (Elt F) (VS2.writes (Elt F) VS2.junk (runD c i arg3 harg3 arg4 harg4 arg5 harg5 arg6 harg6 arg7 harg7 arg8 harg8 arg9 harg9 hc0 hc1 hc2 hc3 x0 x1 x2 xs0 xs1 xs2).2.2.2.1)
theorem cover_D_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runD c i arg3 harg3 arg4 harg4 arg5 harg5 arg6 harg6 arg7 harg7 arg8 harg8 arg9 harg9 hc0 hc1 hc2 hc3 x0 x1 x2 xs0 xs1 xs2).1, y ∈ pc.1.set :=
  View.cover_of_tiledL (runD c i arg3 harg3 arg4 harg4 arg5 harg5 arg6 harg6 arg7 harg7 arg8 harg8 arg9 harg9 hc0 hc1 hc2 hc3 x0 x1 x2 xs0 xs1 xs2).1 S1x512x1024.size (by sl_kernel_rfl) y
/-- What case D leaves in the result block: the quotient. -/
def out_D_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) : Vec F S1x512x1024 .f32 :=
  VO3.read (Elt F) (VO3.writes (Elt F) VO3.junk (runD c i arg3 harg3 arg4 harg4 arg5 harg5 arg6 harg6 arg7 harg7 arg8 harg8 arg9 harg9 hc0 hc1 hc2 hc3 x0 x1 x2 xs0 xs1 xs2).1)

theorem scover_E_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runE c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (runE c i arg3 harg3 arg4 harg4 arg5 harg5 arg6 harg6 arg7 harg7 arg8 harg8 arg9 harg9 hc0 hc1 hc2 hc3 x0 x1 x2 xs0 xs1 xs2).2.1 S1x512x1.size (by sl_kernel_rfl) y
/-- What case E leaves in scratch 0. -/
def sout_E_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) : Vec F S1x512x1 .f32 :=
  VS0.read (Elt F) (VS0.writes (Elt F) VS0.junk (runE c i arg3 harg3 arg4 harg4 arg5 harg5 arg6 harg6 arg7 harg7 arg8 harg8 arg9 harg9 hc0 hc1 hc2 hc3 x0 x1 x2 xs0 xs1 xs2).2.1)
theorem scover_E_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runE c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (runE c i arg3 harg3 arg4 harg4 arg5 harg5 arg6 harg6 arg7 harg7 arg8 harg8 arg9 harg9 hc0 hc1 hc2 hc3 x0 x1 x2 xs0 xs1 xs2).2.2.1 S1x512x1.size (by sl_kernel_rfl) y
/-- What case E leaves in scratch 1. -/
def sout_E_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) : Vec F S1x512x1 .f32 :=
  VS1.read (Elt F) (VS1.writes (Elt F) VS1.junk (runE c i arg3 harg3 arg4 harg4 arg5 harg5 arg6 harg6 arg7 harg7 arg8 harg8 arg9 harg9 hc0 hc1 hc2 hc3 x0 x1 x2 xs0 xs1 xs2).2.2.1)
theorem scover_E_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runE c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (runE c i arg3 harg3 arg4 harg4 arg5 harg5 arg6 harg6 arg7 harg7 arg8 harg8 arg9 harg9 hc0 hc1 hc2 hc3 x0 x1 x2 xs0 xs1 xs2).2.2.2.1 S1x512x1024.size (by sl_kernel_rfl) y
/-- What case E leaves in scratch 2. -/
def sout_E_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) : Vec F S1x512x1024 .f32 :=
  VS2.read (Elt F) (VS2.writes (Elt F) VS2.junk (runE c i arg3 harg3 arg4 harg4 arg5 harg5 arg6 harg6 arg7 harg7 arg8 harg8 arg9 harg9 hc0 hc1 hc2 hc3 x0 x1 x2 xs0 xs1 xs2).2.2.2.1)
theorem cover_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runE c i arg3 harg3 arg4 harg4 arg5 harg5 arg6 harg6 arg7 harg7 arg8 harg8 arg9 harg9 hc0 hc1 hc2 hc3 x0 x1 x2 xs0 xs1 xs2).1, y ∈ pc.1.set :=
  View.cover_of_tiledL (runE c i arg3 harg3 arg4 harg4 arg5 harg5 arg6 harg6 arg7 harg7 arg8 harg8 arg9 harg9 hc0 hc1 hc2 hc3 x0 x1 x2 xs0 xs1 xs2).1 S1x512x1024.size (by sl_kernel_rfl) y
/-- What case E leaves in the result block: the quotient. -/
def out_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) : Vec F S1x512x1024 .f32 :=
  VO3.read (Elt F) (VO3.writes (Elt F) VO3.junk (runE c i arg3 harg3 arg4 harg4 arg5 harg5 arg6 harg6 arg7 harg7 arg8 harg8 arg9 harg9 hc0 hc1 hc2 hc3 x0 x1 x2 xs0 xs1 xs2).1)

/-! ## The state after a point: the result block, then the three scratch buffers -/

def atA (c : Dev nD) (t : Fin cfg1.N) (h0 : t.val % 4 = 0) : Vec F S1x512x1024 .f32 × Vec F S1x512x1 .f32 × Vec F S1x512x1 .f32 × Vec F S1x512x1024 .f32 :=
  (outIdle, sout_A_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (cA0 t h0) (cA1 t h0) (cA2 t h0) (cA3 t h0) (iblk V c 0 t) (iblk V c 1 t) (iblk V c 2 t), sout_A_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (cA0 t h0) (cA1 t h0) (cA2 t h0) (cA3 t h0) (iblk V c 0 t) (iblk V c 1 t) (iblk V c 2 t), sout_A_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (cA0 t h0) (cA1 t h0) (cA2 t h0) (cA3 t h0) (iblk V c 0 t) (iblk V c 1 t) (iblk V c 2 t))
def atB (c : Dev nD) (t : Fin cfg1.N) (h0 : ¬t.val % 4 = 0) (h3 : ¬t.val % 4 = 3) (h1 : (t.val / 4) % 4 < t.val % 4) (xs : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (outIdle, sout_B_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (n3 t h3) (iblk V c 0 t) (iblk V c 1 t) (iblk V c 2 t) xs.2.1 xs.2.2.1 xs.2.2.2, sout_B_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (n3 t h3) (iblk V c 0 t) (iblk V c 1 t) (iblk V c 2 t) xs.2.1 xs.2.2.1 xs.2.2.2, sout_B_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (n3 t h3) (iblk V c 0 t) (iblk V c 1 t) (iblk V c 2 t) xs.2.1 xs.2.2.1 xs.2.2.2)
def atC (c : Dev nD) (t : Fin cfg1.N) (h0 : ¬t.val % 4 = 0) (h3 : ¬t.val % 4 = 3) (h1 : ¬(t.val / 4) % 4 < t.val % 4) (xs : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (outIdle, sout_C_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (n3 t h3) (iblk V c 0 t) (iblk V c 1 t) (iblk V c 2 t) xs.2.1 xs.2.2.1 xs.2.2.2, sout_C_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (n3 t h3) (iblk V c 0 t) (iblk V c 1 t) (iblk V c 2 t) xs.2.1 xs.2.2.1 xs.2.2.2, sout_C_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (n3 t h3) (iblk V c 0 t) (iblk V c 1 t) (iblk V c 2 t) xs.2.1 xs.2.2.1 xs.2.2.2)
def atD (c : Dev nD) (t : Fin cfg1.N) (h0 : ¬t.val % 4 = 0) (h3 : t.val % 4 = 3) (h1 : (t.val / 4) % 4 < t.val % 4) (xs : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (out_D_3 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (y3 t h3) (iblk V c 0 t) (iblk V c 1 t) (iblk V c 2 t) xs.2.1 xs.2.2.1 xs.2.2.2, sout_D_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (y3 t h3) (iblk V c 0 t) (iblk V c 1 t) (iblk V c 2 t) xs.2.1 xs.2.2.1 xs.2.2.2, sout_D_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (y3 t h3) (iblk V c 0 t) (iblk V c 1 t) (iblk V c 2 t) xs.2.1 xs.2.2.1 xs.2.2.2, sout_D_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (y3 t h3) (iblk V c 0 t) (iblk V c 1 t) (iblk V c 2 t) xs.2.1 xs.2.2.1 xs.2.2.2)
def atE (c : Dev nD) (t : Fin cfg1.N) (h0 : ¬t.val % 4 = 0) (h3 : t.val % 4 = 3) (h1 : ¬(t.val / 4) % 4 < t.val % 4) (xs : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (out_E_3 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (y3 t h3) (iblk V c 0 t) (iblk V c 1 t) (iblk V c 2 t) xs.2.1 xs.2.2.1 xs.2.2.2, sout_E_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (y3 t h3) (iblk V c 0 t) (iblk V c 1 t) (iblk V c 2 t) xs.2.1 xs.2.2.1 xs.2.2.2, sout_E_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (y3 t h3) (iblk V c 0 t) (iblk V c 1 t) (iblk V c 2 t) xs.2.1 xs.2.2.1 xs.2.2.2, sout_E_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (y3 t h3) (iblk V c 0 t) (iblk V c 1 t) (iblk V c 2 t) xs.2.1 xs.2.2.1 xs.2.2.2)

/-- What the result window's buffer and the scratch hold after the body at position `n`: the case the position selects,
    run on the point's blocks and, past key tile 0, on what the point before left in the scratch. -/
def outsAt (c : Dev nD) : (n : ℕ) → n < cfg1.N → Vec F S1x512x1024 .f32 × Vec F S1x512x1 .f32 × Vec F S1x512x1 .f32 × Vec F S1x512x1024 .f32
  | 0, hn => atA V c ⟨0, hn⟩ (Nat.zero_mod _)
  | n + 1, hn =>
    if h0 : (n + 1) % 4 = 0 then atA V c ⟨n + 1, hn⟩ h0
    else if h3 : (n + 1) % 4 = 3 then
      if h1 : ((n + 1) / 4) % 4 < (n + 1) % 4 then atD V c ⟨n + 1, hn⟩ h0 h3 h1 (outsAt c n (Nat.lt_of_succ_lt hn))
      else atE V c ⟨n + 1, hn⟩ h0 h3 h1 (outsAt c n (Nat.lt_of_succ_lt hn))
    else
      if h1 : ((n + 1) / 4) % 4 < (n + 1) % 4 then atB V c ⟨n + 1, hn⟩ h0 h3 h1 (outsAt c n (Nat.lt_of_succ_lt hn))
      else atC V c ⟨n + 1, hn⟩ h0 h3 h1 (outsAt c n (Nat.lt_of_succ_lt hn))

theorem outsAt_A (c : Dev nD) (t : Fin cfg1.N) (h0 : t.val % 4 = 0) : outsAt V c t.val t.isLt = atA V c t h0 := by
  obtain ⟨n, hn⟩ := t
  cases n with
  | zero => exact rfl
  | succ n => exact (dif_pos h0).trans rfl
theorem outsAt_B (c : Dev nD) (t : Fin cfg1.N) (h0 : ¬t.val % 4 = 0) (h3 : ¬t.val % 4 = 3) (h1 : (t.val / 4) % 4 < t.val % 4) :
    outsAt V c t.val t.isLt = atB V c t h0 h3 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans ((dif_pos h1).trans rfl))
theorem outsAt_C (c : Dev nD) (t : Fin cfg1.N) (h0 : ¬t.val % 4 = 0) (h3 : ¬t.val % 4 = 3) (h1 : ¬(t.val / 4) % 4 < t.val % 4) :
    outsAt V c t.val t.isLt = atC V c t h0 h3 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans ((dif_neg h1).trans rfl))
theorem outsAt_D (c : Dev nD) (t : Fin cfg1.N) (h0 : ¬t.val % 4 = 0) (h3 : t.val % 4 = 3) (h1 : (t.val / 4) % 4 < t.val % 4) :
    outsAt V c t.val t.isLt = atD V c t h0 h3 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans ((dif_pos h1).trans rfl))
theorem outsAt_E (c : Dev nD) (t : Fin cfg1.N) (h0 : ¬t.val % 4 = 0) (h3 : t.val % 4 = 3) (h1 : ¬(t.val / 4) % 4 < t.val % 4) :
    outsAt V c t.val t.isLt = atE V c t h0 h3 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans ((dif_neg h1).trans rfl))

/-! ## The invariant between points -/

/-- Before the first point every scratch buffer holds anything; afterwards each holds what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM0 fullShare ((outsAt V c (n - 1) (by omega)).2.1) ∗ owns (c : Thread nD τ) scM1 fullShare ((outsAt V c (n - 1) (by omega)).2.2.1) ∗ owns (c : Thread nD τ) scM2 fullShare ((outsAt V c (n - 1) (by omega)).2.2.2)) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
/-- Input window 0's staging buffer holds its block whenever the body runs (the query block is fetched once per query tile). -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's staging buffer holds its block whenever the body runs (the query block is fetched once per query tile). -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's staging buffer holds its block whenever the body runs (the query block is fetched once per query tile). -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the point's position selects the case; the inputs' buffers hold their blocks, the scratch what
    the point before left (anything at key tile 0), so the case's run applies and leaves the scratch at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 4 = 0
  · by_cases hz : t.val = 0
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3 t (cA3 t h0)) (noFlush_3 t (cA3 t h0))]
      rw [outsAt_A V c t h0]
      unfold atA sout_A_0 sout_A_1 sout_A_2; (try dsimp only)
      rw [PhiS_castSucc V c t, PhiS_zero V c _ _ hz, PhiA_eq]
      iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
      iapply ((runA c (grid1.coords t) _ _ _ _ _ _ _ _ _ _ _ _ _ _ (cA0 t h0) (cA1 t h0) (cA2 t h0) (cA3 t h0) (iblk V c 0 t) (iblk V c 1 t) (iblk V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [B0 B1 B2 B3 B4 B5 B6 B7 B8 B9 B10 HS0 HS1 HS2 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [HS0]
        · unfold owns; iexists _; isplitr
          swap; · iexact HS0
          ipureintro; exact View.read_writes_of_cover _ _ _ _ _ (scover_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover_A_1 c _ _ _ _ _ _ _ _ _ _ _ _ _ _ _ _ _ _ _ _ _ _)
        unfold owns; iexists _; isplitr
        swap; · iexact HS2
        ipureintro; exact View.read_writes_of_cover _ _ _ _ _ (scover_A_2 c _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3 t (cA3 t h0)) (noFlush_3 t (cA3 t h0))]
      rw [outsAt_A V c t h0]
      unfold atA sout_A_0 sout_A_1 sout_A_2; (try dsimp only)
      rw [PhiS_castSucc V c t, PhiS_pos V c _ _ hz]
      iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
      iapply ((runA c (grid1.coords t) _ _ _ _ _ _ _ _ _ _ _ _ _ _ (cA0 t h0) (cA1 t h0) (cA2 t h0) (cA3 t h0) (iblk V c 0 t) (iblk V c 1 t) (iblk V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [B0 B1 B2 B3 B4 B5 B6 B7 B8 B9 B10 HS0 HS1 HS2 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [HS0]
        · unfold owns; iexists _; isplitr
          swap; · iexact HS0
          ipureintro; exact View.read_writes_of_cover _ _ _ _ _ (scover_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover_A_1 c _ _ _ _ _ _ _ _ _ _ _ _ _ _ _ _ _ _ _ _ _ _)
        unfold owns; iexists _; isplitr
        swap; · iexact HS2
        ipureintro; exact View.read_writes_of_cover _ _ _ _ _ (scover_A_2 c _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · by_cases h1 : (t.val / 4) % 4 < t.val % 4
      ·
        rw [show (dat V c).leavesExact 0 t = owns (c : Thread nD τ) (ms_0 t) fullShare ((dat V c).after 0 t) from by
          unfold Dat.leavesExact; rw [liveAt_0 t], after_0]
        rw [show (dat V c).leavesExact 1 t = owns (c : Thread nD τ) (ms_1 t) fullShare ((dat V c).after 1 t) from by
          unfold Dat.leavesExact; rw [liveAt_1 t], after_1]
        rw [show (dat V c).leavesExact 2 t = owns (c : Thread nD τ) (ms_2 t) fullShare ((dat V c).after 2 t) from by
          unfold Dat.leavesExact; rw [liveAt_2 t], after_2]
        rw [show (dat V c).leavesExact 3 t = owns (c : Thread nD τ) (ms_3 t) fullShare ((dat V c).after 3 t) from by
          unfold Dat.leavesExact; rw [liveAt_3 t (y3 t h3)], after_3]
        rw [outsAt_D V c t h0 h3 h1]
        unfold atD out_D_3 sout_D_0 sout_D_1 sout_D_2; (try dsimp only)
        rw [PhiS_castSucc V c t, PhiS_pos V c _ _ hz]
        iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
        iapply ((runD c (grid1.coords t) _ _ _ _ _ _ _ _ _ _ _ _ _ _ (n0 t h0) (y1 t h1) (n2 t h1) (y3 t h3) (iblk V c 0 t) (iblk V c 1 t) (iblk V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [B0 B1 B2 B3 B4 B5 B6 B7 B8 B9 B10 HS0 HS1 HS2 Hg]
        · isplitr [Hg]
          swap; · iexact Hg
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [HS0]
          · unfold owns; iexists _; isplitr
            swap; · iexact HS0
            ipureintro; exact View.read_writes_of_cover _ _ _ _ _ (scover_D_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_D_1 c _ _ _ _ _ _ _ _ _ _ _ _ _ _ _ _ _ _ _ _ _ _ _ _ _)
          unfold owns; iexists _; isplitr
          swap; · iexact HS2
          ipureintro; exact View.read_writes_of_cover _ _ _ _ _ (scover_D_2 c _ _ _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_D_3 c _ _ _ _ _ _ _ _ _ _ _ _ _ _ _ _ _ _ _ _ _ _ _ _ _)
      ·
        rw [show (dat V c).leavesExact 0 t = owns (c : Thread nD τ) (ms_0 t) fullShare ((dat V c).after 0 t) from by
          unfold Dat.leavesExact; rw [liveAt_0 t], after_0]
        rw [show (dat V c).leavesExact 1 t = owns (c : Thread nD τ) (ms_1 t) fullShare ((dat V c).after 1 t) from by
          unfold Dat.leavesExact; rw [liveAt_1 t], after_1]
        rw [show (dat V c).leavesExact 2 t = owns (c : Thread nD τ) (ms_2 t) fullShare ((dat V c).after 2 t) from by
          unfold Dat.leavesExact; rw [liveAt_2 t], after_2]
        rw [show (dat V c).leavesExact 3 t = owns (c : Thread nD τ) (ms_3 t) fullShare ((dat V c).after 3 t) from by
          unfold Dat.leavesExact; rw [liveAt_3 t (y3 t h3)], after_3]
        rw [outsAt_E V c t h0 h3 h1]
        unfold atE out_E_3 sout_E_0 sout_E_1 sout_E_2; (try dsimp only)
        rw [PhiS_castSucc V c t, PhiS_pos V c _ _ hz]
        iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
        iapply ((runE c (grid1.coords t) _ _ _ _ _ _ _ _ _ _ _ _ _ _ (n0 t h0) (n1 t h1) (y2 t h1) (y3 t h3) (iblk V c 0 t) (iblk V c 1 t) (iblk V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [B0 B1 B2 B3 B4 B5 B6 B7 B8 B9 B10 HS0 HS1 HS2 Hg]
        · isplitr [Hg]
          swap; · iexact Hg
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [HS0]
          · unfold owns; iexists _; isplitr
            swap; · iexact HS0
            ipureintro; exact View.read_writes_of_cover _ _ _ _ _ (scover_E_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_E_1 c _ _ _ _ _ _ _ _ _ _ _ _ _ _ _ _ _ _ _ _ _ _ _ _ _)
          unfold owns; iexists _; isplitr
          swap; · iexact HS2
          ipureintro; exact View.read_writes_of_cover _ _ _ _ _ (scover_E_2 c _ _ _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_E_3 c _ _ _ _ _ _ _ _ _ _ _ _ _ _ _ _ _ _ _ _ _ _ _ _ _)
    · by_cases h1 : (t.val / 4) % 4 < t.val % 4
      ·
        rw [show (dat V c).leavesExact 0 t = owns (c : Thread nD τ) (ms_0 t) fullShare ((dat V c).after 0 t) from by
          unfold Dat.leavesExact; rw [liveAt_0 t], after_0]
        rw [show (dat V c).leavesExact 1 t = owns (c : Thread nD τ) (ms_1 t) fullShare ((dat V c).after 1 t) from by
          unfold Dat.leavesExact; rw [liveAt_1 t], after_1]
        rw [show (dat V c).leavesExact 2 t = owns (c : Thread nD τ) (ms_2 t) fullShare ((dat V c).after 2 t) from by
          unfold Dat.leavesExact; rw [liveAt_2 t], after_2]
        rw [Dat.leavesExact_idle (dat V c) 3 t (idleAt_3 t (n3 t h3)) (noFlush_3 t (n3 t h3))]
        rw [outsAt_B V c t h0 h3 h1]
        unfold atB sout_B_0 sout_B_1 sout_B_2; (try dsimp only)
        rw [PhiS_castSucc V c t, PhiS_pos V c _ _ hz]
        iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
        iapply ((runB c (grid1.coords t) _ _ _ _ _ _ _ _ _ _ _ _ _ _ (n0 t h0) (y1 t h1) (n2 t h1) (n3 t h3) (iblk V c 0 t) (iblk V c 1 t) (iblk V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [B0 B1 B2 B3 B4 B5 B6 B7 B8 B9 B10 HS0 HS1 HS2 Hg]
        · isplitr [Hg]
          swap; · iexact Hg
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [HS0]
          · unfold owns; iexists _; isplitr
            swap; · iexact HS0
            ipureintro; exact View.read_writes_of_cover _ _ _ _ _ (scover_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _ _ _ _ _ _ _)
          unfold owns; iexists _; isplitr
          swap; · iexact HS2
          ipureintro; exact View.read_writes_of_cover _ _ _ _ _ (scover_B_2 c _ _ _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [show (dat V c).leavesExact 0 t = owns (c : Thread nD τ) (ms_0 t) fullShare ((dat V c).after 0 t) from by
          unfold Dat.leavesExact; rw [liveAt_0 t], after_0]
        rw [show (dat V c).leavesExact 1 t = owns (c : Thread nD τ) (ms_1 t) fullShare ((dat V c).after 1 t) from by
          unfold Dat.leavesExact; rw [liveAt_1 t], after_1]
        rw [show (dat V c).leavesExact 2 t = owns (c : Thread nD τ) (ms_2 t) fullShare ((dat V c).after 2 t) from by
          unfold Dat.leavesExact; rw [liveAt_2 t], after_2]
        rw [Dat.leavesExact_idle (dat V c) 3 t (idleAt_3 t (n3 t h3)) (noFlush_3 t (n3 t h3))]
        rw [outsAt_C V c t h0 h3 h1]
        unfold atC sout_C_0 sout_C_1 sout_C_2; (try dsimp only)
        rw [PhiS_castSucc V c t, PhiS_pos V c _ _ hz]
        iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
        iapply ((runC c (grid1.coords t) _ _ _ _ _ _ _ _ _ _ _ _ _ _ (n0 t h0) (n1 t h1) (y2 t h1) (n3 t h3) (iblk V c 0 t) (iblk V c 1 t) (iblk V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [B0 B1 B2 B3 B4 B5 B6 B7 B8 B9 B10 HS0 HS1 HS2 Hg]
        · isplitr [Hg]
          swap; · iexact Hg
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [HS0]
          · unfold owns; iexists _; isplitr
            swap; · iexact HS0
            ipureintro; exact View.read_writes_of_cover _ _ _ _ _ (scover_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_C_1 c _ _ _ _ _ _ _ _ _ _ _ _ _ _ _ _ _ _ _ _ _ _ _ _ _)
          unfold owns; iexists _; isplitr
          swap; · iexact HS2
          ipureintro; exact View.read_writes_of_cover _ _ _ _ _ (scover_C_2 c _ _ _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The pipeline's obligation for the body, at every point. -/
theorem body_obligation (c : Dev nD) : BodyObligation (dat (F := F) V c) (defs₀ (F := F)) Variants.none () Set.univ := fun t => by
  rw [bigSep_W1, bigSep_W1]
  exact sound_body V c t

/-- What the region is handed is the invariant before the first point, -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- and after the last point the invariant gives it back, the scratch's contents forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨B0, B1, B2, B3, B4, B5, B6, B7, B8, B9, B10, HS0, HS1, HS2⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [HS0]; · iexists _; iexact HS0
  isplitl [HS1]; · iexists _; iexact HS1
  iexists _; iexact HS2

end Cert.Kernel.Attn

end
-- ==== Proof.WordRun.lean ====
/-
  The whole program: a reshape of the input to [8192, 1024], the projection region, three reshapes of its results
  back to [4, 2048, 1024], the attention region. The buffers' contents at each of the five boundaries are a fold from
  the launch memory: a host stretch applies its operations, a region leaves its arrays at what its write-backs
  leave and every other buffer as it found it. From any memory with zero counters every weakly fair execution
  terminates, and every unscoped buffer ends at the last boundary's contents: the four arguments as launched
  (no operation and no region writes one) and the result array at what the attention region's write-backs leave.
-/
import proofs.«140165_j15401752723638_2_alg».proof.Proof.WordQkvRegion
import proofs.«140165_j15401752723638_2_alg».proof.Proof.WordAttnRegion
import proofs.«140165_j15401752723638_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the input's reshape: the projection region's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the projection region's exit. -/
def W2 (c : Dev nD) : Valuation τ sig (Elt F) :=
  Pipeline.withArrays spec0 c (W1 m c) fun w => (Qkv.dat (U1 m) c).arrAt w cfg0.N
theorem W2_arr (c : Dev nD) (w : Fin cfg0.W) :
    W2 m c (Proc.devRef .tc (Pipeline.arrRef spec0 w)) = (Qkv.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (Qkv.dat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the three reshapes: the attention region's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the attention region's exit: the end. -/
def W4 (c : Dev nD) : Valuation τ sig (Elt F) :=
  Pipeline.withArrays spec1 c (W3 m c) fun w => (Attn.dat (U3 m) c).arrAt w cfg1.N
theorem W4_arr (c : Dev nD) (w : Fin cfg1.W) :
    W4 m c (Proc.devRef .tc (Pipeline.arrRef spec1 w)) = (Attn.dat (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (Attn.dat (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 1).trans (((Qkv.dat (U1 m) c).arrAt_in 1 rfl _).trans (Qkv.A_eq (U1 m) c 1))
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 2).trans (((Qkv.dat (U1 m) c).arrAt_in 2 rfl _).trans (Qkv.A_eq (U1 m) c 2))
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := (W2_arr m c 3).trans (((Qkv.dat (U1 m) c).arrAt_in 3 rfl _).trans (Qkv.A_eq (U1 m) c 3))
    _ = W0 m c (Proc.devRef .tc main_arg3) := StableHlo.after_of_writes_sub hostOps0 _ hostOps0_writes (r := main_arg3) (by decide)
    _ = m ((c : Thread nD τ).loc main_arg3) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Qkv.dat (U1 m) c
  | ⟨1, _⟩ => fun c => Attn.dat (U3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered from every unscoped buffer at its entry contents, left at its exit contents; its
    arrays split out of the unscoped buffers and put back; the generator register into the invariant and out; nothing
    owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at its entry contents, left at its exit contents; its
    arrays split out of the unscoped buffers and put back; the generator register into the invariant and out; nothing
    owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attn.hin (U3 m) c)
    unfold Pipeline.ΦA
    iintro ⟨Hp, -, Hr⟩
    isplitl [Hr]; · iexact Hr
    iexact Hp
  hout c := by
    rw [Pipeline.ownSems0_none]
    refine (Attn.hout (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

/-- The result: the result array ends at what the attention region's write-backs leave, beside the frame. -/
theorem run_result : θ_run defs (onTc (τ := τ) (main (F := F))) ⟨m, fun _ => 0, ρ⟩ (fun r => ∀ c : Dev nD,
      r.2.mem ((c.tc : Thread nD τ).loc main_v5) = (Attn.dat (U3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.Kernel.Run

end
-- ==== Proof.QkvBody.lean ====
/-
  The first kernel region, a fused projection: at each of its 16 grid points it reads one block of 512 rows of the
  flattened input [8192, 1024] and the three whole weight matrices [1024, 1024], and writes the block's three
  products (rows times each weight matrix, accumulated from zero) into the same 512 rows of three result arrays.
  Stated at any float interpretation: what each result block holds after the body, as one pure term of the input
  block and a weight matrix; the body's run from the staged blocks to those terms; and the per-point obligation
  of the pipeline around it, at a parameter V, the buffers' contents when the region is entered.
-/
import proofs.«140165_j15401752723638_2_alg».proof.Proof.Gen.KernelIdeal.Launch
import proofs.«140165_j15401752723638_2_alg».proof.Proof.Gen.KernelIdeal.Skeleton
import proofs.«140165_j15401752723638_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: for the input, rows 512 t to 512 t + 511; for a weight matrix, all of it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 x 1024 block and the whole 1024 x 1024 matrix, as rectangles: every access of the body is one of them. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-! ## What the body leaves in each result block -/

/-- The query block: the input block times the first weight matrix. -/
def outQ (x : Vec F S512x1024 .f32) (w : Vec F S1024x1024 .f32) : Vec F S512x1024 .bf16 :=
  View.canon [⟨rX, k0_pay2 (View.ld x rX) (View.ld w rW)⟩]
/-- The key block: the input block times the second weight matrix. -/
def outK (x : Vec F S512x1024 .f32) (w : Vec F S1024x1024 .f32) : Vec F S512x1024 .bf16 :=
  View.canon [⟨rX, k0_pay3 (View.ld x rX) (View.ld w rW)⟩]
/-- The value block: the input block times the third weight matrix. -/
def outV (x : Vec F S512x1024 .f32) (w : Vec F S1024x1024 .f32) : Vec F S512x1024 .bf16 :=
  View.canon [⟨rX, k0_pay4 (View.ld x rX) (View.ld w rW)⟩]

/-- One store of the whole block covers the block. -/
theorem coverX (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

/-! ## The body's run -/

set_option maxHeartbeats 4000000 in
/-- From the four input blocks staged at `x`, `wq`, `wk`, `wv` and the three result blocks at anything, the body runs to
    its return leaving the inputs as they were and the results at the three products. -/
theorem sound_kernel (c : Dev nD) (E : Set ℕ) (i : grid0.Coords)
    (a1 : Memref sig .tc .vmem S512x1024 .f32) (h1 : a1.IsWhole) (a2 : Memref sig .tc .vmem S1024x1024 .f32) (h2 : a2.IsWhole)
    (a3 : Memref sig .tc .vmem S1024x1024 .f32) (h3 : a3.IsWhole) (a4 : Memref sig .tc .vmem S1024x1024 .f32) (h4 : a4.IsWhole)
    (a5 : Memref sig .tc .vmem S512x1024 .bf16) (h5 : a5.IsWhole) (a6 : Memref sig .tc .vmem S512x1024 .bf16) (h6 : a6.IsWhole)
    (a7 : Memref sig .tc .vmem S512x1024 .bf16) (h7 : a7.IsWhole)
    (x : Vec F S512x1024 .f32) (wq wk wv : Vec F S1024x1024 .f32) (K : PUnit → sProp 𝕄) :
    iprop(owns (c : Thread nD τ) a1 fullShare x ∗ owns (c : Thread nD τ) a2 fullShare wq ∗ owns (c : Thread nD τ) a3 fullShare wk
        ∗ owns (c : Thread nD τ) a4 fullShare wv
        ∗ (∃ d, owns (c : Thread nD τ) a5 fullShare d) ∗ (∃ d, owns (c : Thread nD τ) a6 fullShare d) ∗ (∃ d, owns (c : Thread nD τ) a7 fullShare d)
        ∗ (iprop(owns (c : Thread nD τ) a1 fullShare x ∗ owns (c : Thread nD τ) a2 fullShare wq ∗ owns (c : Thread nD τ) a3 fullShare wk
            ∗ owns (c : Thread nD τ) a4 fullShare wv
            ∗ owns (c : Thread nD τ) a5 fullShare (outQ x wq) ∗ owns (c : Thread nD τ) a6 fullShare (outK x wk)
            ∗ owns (c : Thread nD τ) a7 fullShare (outV x wv)) -∗ K ⟨⟩))
      ⊢ wp frame (wpE (defs₀ (F := F)) Variants.none c none) E (cc0__qkv_kernel i a1 h1 a2 h2 a3 h3 a4 h4 a5 h5 a6 h6 a7 h7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverX _)
  isplitl [H6]
  · iexists _; isplitr
    swap; · iexact H6
    ipureintro
    exact View.read_writes_eq_canon _ _ _ (coverX _)
  iexists _; isplitr
  swap; · iexact H7
  ipureintro
  exact View.read_writes_eq_canon _ _ _ (coverX _)

end Cert.KernelIdeal.Qkv

end
-- ==== Proof.QkvRegion.lean ====
/-
  The projection region's proof data at the entry contents V: after the body at grid point t the input windows hold
  their blocks (rows 512 t .. 512 t + 511 of the flattened input; each weight matrix whole) and the three result
  windows hold the block's products with the three weight matrices. Each input window's staging buffer holds its
  block whenever the body runs, fetched at that point or kept from an earlier one (a weight matrix is fetched once).
-/
import proofs.«140165_j15401752723638_2_alg».proof.Proof.QkvBody

set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of the projection pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outQ (iblk V c 0 t) (iblk V c 1 t)
    | ⟨5, _⟩ => outK (iblk V c 0 t) (iblk V c 2 t)
    | ⟨6, _⟩ => outV (iblk V c 0 t) (iblk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = outQ (iblk V c 0 t) (iblk V c 1 t) := by dsimp only [dat]
theorem after_5 (c : Dev nD) (t : Fin cfg0.N) : (dat V c).after 5 t = outK (iblk V c 0 t) (iblk V c 2 t) := by dsimp only [dat]
theorem after_6 (c : Dev nD) (t : Fin cfg0.N) : (dat V c).after 6 t = outV (iblk V c 0 t) (iblk V c 3 t) := by dsimp only [dat]

/-- Input window 0's staging buffer holds its block whenever the body runs. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's staging buffer holds its block whenever the body runs. -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's staging buffer holds its block whenever the body runs. -/
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's staging buffer holds its block whenever the body runs. -/
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's run applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation for the body, at every point. -/
theorem body_obligation (c : Dev nD) : BodyObligation (dat (F := F) V c) (defs₀ (F := F)) Variants.none () Set.univ := fun t => by
  rw [bigSep_W0, bigSep_W0]
  exact sound_body V c t

end Cert.KernelIdeal.Qkv

end
-- ==== Proof.AttnCases.lean ====
/-
  The attention region: a grid of 4 x 4 x 4 points (batch, query tile, key tile), each point one step of a streaming
  softmax over key tiles of 512 columns. Three scratch buffers carry, per query row, the running maximum, the running
  sum of exponentials and the running weighted sum of value rows from one key tile to the next; they are reset at
  key tile 0 and the quotient of the last two is stored into the result block at key tile 3. A key tile lying
  wholly above the diagonal (every column index exceeds every row index: 512 ki > 512 qi + 511) takes a closed
  form, every score there being zero. This module: the windows' blocks, the four branch conditions and where they
  hold over the 64 points, where the result window is left untouched, and the buffers the body runs on.
-/
import proofs.«140165_j15401752723638_2_alg».proof.Proof.Gen.KernelIdeal.Launch
import proofs.«140165_j15401752723638_2_alg».proof.Proof.Gen.KernelIdeal.Skeleton
import proofs.«140165_j15401752723638_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t = 16 b + 4 qi + ki`: rows 512 qi .. of batch b for the queries and the result,
    rows 512 ki .. for the keys and the values. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The branch conditions -/

/-- Key tile 0: the scratch is reset. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)

/-- The key tile lies wholly above the diagonal: 512 ki > 512 qi + 512 - 1. -/
abbrev above (i : grid1.Coords) : BitVec 1 :=
  Scalar.cmpi .sgt (Scalar.muli (BitVec.ofNat 32 (i 2).val) 512#32) (Scalar.subi (Scalar.addi (Scalar.muli (BitVec.ofNat 32 (i 1).val) 512#32) 512#32) 1#32)
abbrev cond1 (i : grid1.Coords) : Prop := (Scalar.cmpi .ne (Scalar.extui (above i)) 0#32) = 1#1
/-- It does exactly when the key tile's number exceeds the query tile's. -/
theorem hcond1 : ∀ t : Fin cfg1.N, cond1 (grid1.coords t) ↔ (t.val / 4) % 4 < t.val % 4 :=
  (by decide +kernel : ∀ t : Fin grid1.N, cond1 (grid1.coords t) ↔ (t.val / 4) % 4 < t.val % 4)

/-- The key tile meets or lies below the diagonal: the negation, as the body computes it. -/
abbrev cond2 (i : grid1.Coords) : Prop := (Scalar.cmpi .ne (Scalar.extui (Scalar.xori (above i) 1#1)) 0#32) = 1#1
theorem hcond2 : ∀ t : Fin cfg1.N, cond2 (grid1.coords t) ↔ ¬ ((t.val / 4) % 4 < t.val % 4) :=
  (by decide +kernel : ∀ t : Fin grid1.N, cond2 (grid1.coords t) ↔ ¬ ((t.val / 4) % 4 < t.val % 4))

/-- Key tile 3, the last: the result block is stored. -/
abbrev cond3 (i : grid1.Coords) : Prop := k1_cond4 i = 1#1
theorem hcond3 : ∀ t : Fin cfg1.N, cond3 (grid1.coords t) ↔ t.val % 4 = 3 :=
  (by decide +kernel : ∀ t : Fin grid1.N, cond3 (grid1.coords t) ↔ t.val % 4 = 3)

/-! ## Where the windows are left untouched -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Before the last key tile nothing is stored into the result window, -/
theorem idleAt_3 : ∀ t : Fin cfg1.N, ¬cond3 (grid1.coords t) → cfg1.idle 3 (grid1.coords t) = true := by decide +kernel
/-- and its block is not written back there; -/
theorem noFlush_3 : ∀ t : Fin cfg1.N, ¬cond3 (grid1.coords t) → (cfg1.win 3).flush t = false := by decide +kernel
/-- at the last key tile it is stored. -/
theorem liveAt_3 : ∀ t : Fin cfg1.N, cond3 (grid1.coords t) → cfg1.idle 3 (grid1.coords t) = false := by decide +kernel

/-! ## The buffers the body runs on -/

abbrev ms_0 (t : Fin cfg1.N) : Memref sig .tc .vmem S1x512x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x512x1024 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x512x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x512x1024 .f32 := win1_3.stage (cfg1.slots t 3)
abbrev hs_3 (t : Fin cfg1.N) : (ms_3 t).IsWhole := hstage1_3 ((cfg1.slots t 3).cast nbuf1_3)
/-- The running maximum, the running sum and the running weighted sum. -/
abbrev scM0 : Memref sig .tc .vmem S1x512x1 .f32 := Memref.whole cc1_scratch0
abbrev scM1 : Memref sig .tc .vmem S1x512x1 .f32 := Memref.whole cc1_scratch1
abbrev scM2 : Memref sig .tc .vmem S1x512x1024 .f32 := Memref.whole cc1_scratch2
abbrev VS0 : View sig .tc .vmem S1x512x1 .f32 := scM0.view
abbrev VS1 : View sig .tc .vmem S1x512x1 .f32 := scM1.view
abbrev VS2 : View sig .tc .vmem S1x512x1024 .f32 := scM2.view
/-- One staging buffer of the result window, through which its contents are stated. -/
abbrev VO3 : View sig .tc .vmem S1x512x1024 .f32 := (Memref.whole cc1_stg3_0 : Memref sig .tc .vmem S1x512x1024 .f32).view

/-- The region's class invariant with the three scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest1_eq]; simp only [scM0, scM1, scM2, owns_whole]; try rfl

end Cert.KernelIdeal.Attn

end
-- ==== Proof.AttnRunA.lean ====
/-
  The attention body's run at key tile 0 (the scratch is reset, then the tile, which meets the diagonal or lies below it, is accumulated): from the three input blocks staged at their contents, the result block and
  the three scratch buffers as the case finds them, to its return; what each buffer it stores into ends with is
  the list of pieces the run itself determines.
-/
import proofs.«140165_j15401752723638_2_alg».proof.Proof.AttnCases

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: key tile 0 (the scratch is reset, then the tile, which meets the diagonal or lies below it, is accumulated). -/
noncomputable def runA (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.KernelIdeal.Attn

end
-- ==== Proof.AttnRunB.lean ====
/-
  The attention body's run at a key tile 1 or 2 wholly above the diagonal (the closed form): from the three input blocks staged at their contents, the result block and
  the three scratch buffers as the case finds them, to its return; what each buffer it stores into ends with is
  the list of pieces the run itself determines.
-/
import proofs.«140165_j15401752723638_2_alg».proof.Proof.AttnRunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: a key tile 1 or 2 wholly above the diagonal (the closed form). -/
noncomputable def runB (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.KernelIdeal.Attn

end
-- ==== Proof.AttnRunC.lean ====
/-
  The attention body's run at a key tile 1 or 2 meeting the diagonal or below it (the tile is accumulated): from the three input blocks staged at their contents, the result block and
  the three scratch buffers as the case finds them, to its return; what each buffer it stores into ends with is
  the list of pieces the run itself determines.
-/
import proofs.«140165_j15401752723638_2_alg».proof.Proof.AttnRunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: a key tile 1 or 2 meeting the diagonal or below it (the tile is accumulated). -/
noncomputable def runC (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare xi3
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨[], ?_, ?_, ?_, fun xi3 E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.KernelIdeal.Attn

end
-- ==== Proof.AttnRunD.lean ====
/-
  The attention body's run at key tile 3 wholly above the diagonal (the closed form, then the quotient is stored): from the three input blocks staged at their contents, the result block and
  the three scratch buffers as the case finds them, to its return; what each buffer it stores into ends with is
  the list of pieces the run itself determines.
-/
import proofs.«140165_j15401752723638_2_alg».proof.Proof.AttnRunC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case D: key tile 3 wholly above the diagonal (the closed form, then the quotient is stored). -/
noncomputable def runD (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg7.eq_unread hf7; obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.KernelIdeal.Attn

end
-- ==== Proof.AttnRunE.lean ====
/-
  The attention body's run at key tile 3 on the diagonal (the tile is accumulated, then the quotient is stored): from the three input blocks staged at their contents, the result block and
  the three scratch buffers as the case finds them, to its return; what each buffer it stores into ends with is
  the list of pieces the run itself determines.
-/
import proofs.«140165_j15401752723638_2_alg».proof.Proof.AttnRunD

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case E: key tile 3 on the diagonal (the tile is accumulated, then the quotient is stored). -/
noncomputable def runE (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ (∃ d, owns (c : Thread nD τ) arg6 fullShare d)
            ∗ owns (c : Thread nD τ) arg7 fullShare xs0
            ∗ owns (c : Thread nD τ) arg8 fullShare xs1
            ∗ owns (c : Thread nD τ) arg9 fullShare xs2
            ∗ (iprop(owns (c : Thread nD τ) arg3 fullShare x0
                ∗ owns (c : Thread nD τ) arg4 fullShare x1
                ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton, k1_part1_eq_skeleton, k1_part2_eq_skeleton]; unfold cc1_attn_kernel_skel
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg7.eq_unread hf7; obtain rfl := harg8.eq_unread hf8; obtain rfl := harg9.eq_unread hf9
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.KernelIdeal.Attn

end
-- ==== Proof.AttnRegion.lean ====
/-
  The attention region's proof data at the entry contents V. After each grid point the three scratch buffers hold
  that point's running maximum, sum and weighted sum, computed from the point's query, key and value blocks and,
  past key tile 0, from what the point before left; at key tile 3 the result block holds the quotient. The invariant
  between points carries the scratch at those contents; the result window is left as found before the last key tile.
-/
import proofs.«140165_j15401752723638_2_alg».proof.Proof.AttnRunE

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The cases' hypotheses from a point's position -/

theorem cA0 (t : Fin cfg1.N) (h0 : t.val % 4 = 0) : cond0 (grid1.coords t) := (hcond0 t).mpr h0
theorem cA1 (t : Fin cfg1.N) (h0 : t.val % 4 = 0) : ¬cond1 (grid1.coords t) := fun h => by have := (hcond1 t).mp h; omega
theorem cA2 (t : Fin cfg1.N) (h0 : t.val % 4 = 0) : cond2 (grid1.coords t) := (hcond2 t).mpr (by omega)
theorem cA3 (t : Fin cfg1.N) (h0 : t.val % 4 = 0) : ¬cond3 (grid1.coords t) := fun h => by have := (hcond3 t).mp h; omega
theorem n0 (t : Fin cfg1.N) (h0 : ¬t.val % 4 = 0) : ¬cond0 (grid1.coords t) := fun h => h0 ((hcond0 t).mp h)
theorem y1 (t : Fin cfg1.N) (h1 : (t.val / 4) % 4 < t.val % 4) : cond1 (grid1.coords t) := (hcond1 t).mpr h1
theorem n1 (t : Fin cfg1.N) (h1 : ¬(t.val / 4) % 4 < t.val % 4) : ¬cond1 (grid1.coords t) := fun h => h1 ((hcond1 t).mp h)
theorem y2 (t : Fin cfg1.N) (h1 : ¬(t.val / 4) % 4 < t.val % 4) : cond2 (grid1.coords t) := (hcond2 t).mpr h1
theorem n2 (t : Fin cfg1.N) (h1 : (t.val / 4) % 4 < t.val % 4) : ¬cond2 (grid1.coords t) := fun h => ((hcond2 t).mp h) h1
theorem y3 (t : Fin cfg1.N) (h3 : t.val % 4 = 3) : cond3 (grid1.coords t) := (hcond3 t).mpr h3
theorem n3 (t : Fin cfg1.N) (h3 : ¬t.val % 4 = 3) : ¬cond3 (grid1.coords t) := fun h => h3 ((hcond3 t).mp h)

/-! ## What each case leaves: its pieces cover each buffer it stores into -/

/-- A placeholder for the result window where a case stores nothing into it: nothing reads it. -/
def outIdle : Vec F S1x512x1024 .f32 := VO3.read (Elt F) (VO3.writes (Elt F) VO3.junk [])

theorem scover_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) (y : S1x512x1.Idx) :
    ∃ pc ∈ (runA c i arg3 harg3 arg4 harg4 arg5 harg5 arg6 harg6 arg7 harg7 arg8 harg8 arg9 harg9 hc0 hc1 hc2 hc3 x0 x1 x2).2.1, y ∈ pc.1.set :=
  View.cover_of_tiledL (runA c i arg3 harg3 arg4 harg4 arg5 harg5 arg6 harg6 arg7 harg7 arg8 harg8 arg9 harg9 hc0 hc1 hc2 hc3 x0 x1 x2).2.1 S1x512x1.size (by sl_kernel_rfl) y
/-- What case A leaves in scratch 0. -/
def sout_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) : Vec F S1x512x1 .f32 :=
  VS0.read (Elt F) (VS0.writes (Elt F) VS0.junk (runA c i arg3 harg3 arg4 harg4 arg5 harg5 arg6 harg6 arg7 harg7 arg8 harg8 arg9 harg9 hc0 hc1 hc2 hc3 x0 x1 x2).2.1)
theorem scover_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) (y : S1x512x1.Idx) :
    ∃ pc ∈ (runA c i arg3 harg3 arg4 harg4 arg5 harg5 arg6 harg6 arg7 harg7 arg8 harg8 arg9 harg9 hc0 hc1 hc2 hc3 x0 x1 x2).2.2.1, y ∈ pc.1.set :=
  View.cover_of_tiledL (runA c i arg3 harg3 arg4 harg4 arg5 harg5 arg6 harg6 arg7 harg7 arg8 harg8 arg9 harg9 hc0 hc1 hc2 hc3 x0 x1 x2).2.2.1 S1x512x1.size (by sl_kernel_rfl) y
/-- What case A leaves in scratch 1. -/
def sout_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) : Vec F S1x512x1 .f32 :=
  VS1.read (Elt F) (VS1.writes (Elt F) VS1.junk (runA c i arg3 harg3 arg4 harg4 arg5 harg5 arg6 harg6 arg7 harg7 arg8 harg8 arg9 harg9 hc0 hc1 hc2 hc3 x0 x1 x2).2.2.1)
theorem scover_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) (y : S1x512x1024.Idx) :
    ∃ pc ∈ (runA c i arg3 harg3 arg4 harg4 arg5 harg5 arg6 harg6 arg7 harg7 arg8 harg8 arg9 harg9 hc0 hc1 hc2 hc3 x0 x1 x2).2.2.2.1, y ∈ pc.1.set :=
  View.cover_of_tiledL (runA c i arg3 harg3 arg4 harg4 arg5 harg5 arg6 harg6 arg7 harg7 arg8 harg8 arg9 harg9 hc0 hc1 hc2 hc3 x0 x1 x2).2.2.2.1 S1x512x1024.size (by sl_kernel_rfl) y
/-- What case A leaves in scratch 2. -/
def sout_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) : Vec F S1x512x1024 .f32 :=
  VS2.read (Elt F) (VS2.writes (Elt F) VS2.junk (runA c i arg3 harg3 arg4 harg4 arg5 harg5 arg6 harg6 arg7 harg7 arg8 harg8 arg9 harg9 hc0 hc1 hc2 hc3 x0 x1 x2).2.2.2.1)

theorem scover_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runB c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (runB c i arg3 harg3 arg4 harg4 arg5 harg5 arg6 harg6 arg7 harg7 arg8 harg8 arg9 harg9 hc0 hc1 hc2 hc3 x0 x1 x2 xs0 xs1 xs2).2.1 S1x512x1.size (by sl_kernel_rfl) y
/-- What case B leaves in scratch 0. -/
def sout_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1 .f32 :=
  VS0.read (Elt F) (VS0.writes (Elt F) VS0.junk (runB c i arg3 harg3 arg4 harg4 arg5 harg5 arg6 harg6 arg7 harg7 arg8 harg8 arg9 harg9 hc0 hc1 hc2 hc3 x0 x1 x2 xs0 xs1 xs2).2.1)
theorem scover_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runB c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (runB c i arg3 harg3 arg4 harg4 arg5 harg5 arg6 harg6 arg7 harg7 arg8 harg8 arg9 harg9 hc0 hc1 hc2 hc3 x0 x1 x2 xs0 xs1 xs2).2.2.1 S1x512x1.size (by sl_kernel_rfl) y
/-- What case B leaves in scratch 1. -/
def sout_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1 .f32 :=
  VS1.read (Elt F) (VS1.writes (Elt F) VS1.junk (runB c i arg3 harg3 arg4 harg4 arg5 harg5 arg6 harg6 arg7 harg7 arg8 harg8 arg9 harg9 hc0 hc1 hc2 hc3 x0 x1 x2 xs0 xs1 xs2).2.2.1)
theorem scover_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runB c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (runB c i arg3 harg3 arg4 harg4 arg5 harg5 arg6 harg6 arg7 harg7 arg8 harg8 arg9 harg9 hc0 hc1 hc2 hc3 x0 x1 x2 xs0 xs1 xs2).2.2.2.1 S1x512x1024.size (by sl_kernel_rfl) y
/-- What case B leaves in scratch 2. -/
def sout_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1024 .f32 :=
  VS2.read (Elt F) (VS2.writes (Elt F) VS2.junk (runB c i arg3 harg3 arg4 harg4 arg5 harg5 arg6 harg6 arg7 harg7 arg8 harg8 arg9 harg9 hc0 hc1 hc2 hc3 x0 x1 x2 xs0 xs1 xs2).2.2.2.1)

theorem scover_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runC c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (runC c i arg3 harg3 arg4 harg4 arg5 harg5 arg6 harg6 arg7 harg7 arg8 harg8 arg9 harg9 hc0 hc1 hc2 hc3 x0 x1 x2 xs0 xs1 xs2).2.1 S1x512x1.size (by sl_kernel_rfl) y
/-- What case C leaves in scratch 0. -/
def sout_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1 .f32 :=
  VS0.read (Elt F) (VS0.writes (Elt F) VS0.junk (runC c i arg3 harg3 arg4 harg4 arg5 harg5 arg6 harg6 arg7 harg7 arg8 harg8 arg9 harg9 hc0 hc1 hc2 hc3 x0 x1 x2 xs0 xs1 xs2).2.1)
theorem scover_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runC c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (runC c i arg3 harg3 arg4 harg4 arg5 harg5 arg6 harg6 arg7 harg7 arg8 harg8 arg9 harg9 hc0 hc1 hc2 hc3 x0 x1 x2 xs0 xs1 xs2).2.2.1 S1x512x1.size (by sl_kernel_rfl) y
/-- What case C leaves in scratch 1. -/
def sout_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1 .f32 :=
  VS1.read (Elt F) (VS1.writes (Elt F) VS1.junk (runC c i arg3 harg3 arg4 harg4 arg5 harg5 arg6 harg6 arg7 harg7 arg8 harg8 arg9 harg9 hc0 hc1 hc2 hc3 x0 x1 x2 xs0 xs1 xs2).2.2.1)
theorem scover_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runC c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (runC c i arg3 harg3 arg4 harg4 arg5 harg5 arg6 harg6 arg7 harg7 arg8 harg8 arg9 harg9 hc0 hc1 hc2 hc3 x0 x1 x2 xs0 xs1 xs2).2.2.2.1 S1x512x1024.size (by sl_kernel_rfl) y
/-- What case C leaves in scratch 2. -/
def sout_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) : Vec F S1x512x1024 .f32 :=
  VS2.read (Elt F) (VS2.writes (Elt F) VS2.junk (runC c i arg3 harg3 arg4 harg4 arg5 harg5 arg6 harg6 arg7 harg7 arg8 harg8 arg9 harg9 hc0 hc1 hc2 hc3 x0 x1 x2 xs0 xs1 xs2).2.2.2.1)

theorem scover_D_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runD c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (runD c i arg3 harg3 arg4 harg4 arg5 harg5 arg6 harg6 arg7 harg7 arg8 harg8 arg9 harg9 hc0 hc1 hc2 hc3 x0 x1 x2 xs0 xs1 xs2).2.1 S1x512x1.size (by sl_kernel_rfl) y
/-- What case D leaves in scratch 0. -/
def sout_D_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) : Vec F S1x512x1 .f32 :=
  VS0.read (Elt F) (VS0.writes (Elt F) VS0.junk (runD c i arg3 harg3 arg4 harg4 arg5 harg5 arg6 harg6 arg7 harg7 arg8 harg8 arg9 harg9 hc0 hc1 hc2 hc3 x0 x1 x2 xs0 xs1 xs2).2.1)
theorem scover_D_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runD c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (runD c i arg3 harg3 arg4 harg4 arg5 harg5 arg6 harg6 arg7 harg7 arg8 harg8 arg9 harg9 hc0 hc1 hc2 hc3 x0 x1 x2 xs0 xs1 xs2).2.2.1 S1x512x1.size (by sl_kernel_rfl) y
/-- What case D leaves in scratch 1. -/
def sout_D_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) : Vec F S1x512x1 .f32 :=
  VS1.read (Elt F) (VS1.writes (Elt F) VS1.junk (runD c i arg3 harg3 arg4 harg4 arg5 harg5 arg6 harg6 arg7 harg7 arg8 harg8 arg9 harg9 hc0 hc1 hc2 hc3 x0 x1 x2 xs0 xs1 xs2).2.2.1)
theorem scover_D_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runD c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (runD c i arg3 harg3 arg4 harg4 arg5 harg5 arg6 harg6 arg7 harg7 arg8 harg8 arg9 harg9 hc0 hc1 hc2 hc3 x0 x1 x2 xs0 xs1 xs2).2.2.2.1 S1x512x1024.size (by sl_kernel_rfl) y
/-- What case D leaves in scratch 2. -/
def sout_D_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) : Vec F S1x512x1024 .f32 :=
  VS2.read (Elt F) (VS2.writes (Elt F) VS2.junk (runD c i arg3 harg3 arg4 harg4 arg5 harg5 arg6 harg6 arg7 harg7 arg8 harg8 arg9 harg9 hc0 hc1 hc2 hc3 x0 x1 x2 xs0 xs1 xs2).2.2.2.1)
theorem cover_D_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runD c i arg3 harg3 arg4 harg4 arg5 harg5 arg6 harg6 arg7 harg7 arg8 harg8 arg9 harg9 hc0 hc1 hc2 hc3 x0 x1 x2 xs0 xs1 xs2).1, y ∈ pc.1.set :=
  View.cover_of_tiledL (runD c i arg3 harg3 arg4 harg4 arg5 harg5 arg6 harg6 arg7 harg7 arg8 harg8 arg9 harg9 hc0 hc1 hc2 hc3 x0 x1 x2 xs0 xs1 xs2).1 S1x512x1024.size (by sl_kernel_rfl) y
/-- What case D leaves in the result block: the quotient. -/
def out_D_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) : Vec F S1x512x1024 .f32 :=
  VO3.read (Elt F) (VO3.writes (Elt F) VO3.junk (runD c i arg3 harg3 arg4 harg4 arg5 harg5 arg6 harg6 arg7 harg7 arg8 harg8 arg9 harg9 hc0 hc1 hc2 hc3 x0 x1 x2 xs0 xs1 xs2).1)

theorem scover_E_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runE c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (runE c i arg3 harg3 arg4 harg4 arg5 harg5 arg6 harg6 arg7 harg7 arg8 harg8 arg9 harg9 hc0 hc1 hc2 hc3 x0 x1 x2 xs0 xs1 xs2).2.1 S1x512x1.size (by sl_kernel_rfl) y
/-- What case E leaves in scratch 0. -/
def sout_E_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) : Vec F S1x512x1 .f32 :=
  VS0.read (Elt F) (VS0.writes (Elt F) VS0.junk (runE c i arg3 harg3 arg4 harg4 arg5 harg5 arg6 harg6 arg7 harg7 arg8 harg8 arg9 harg9 hc0 hc1 hc2 hc3 x0 x1 x2 xs0 xs1 xs2).2.1)
theorem scover_E_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) (y : S1x512x1.Idx) :
    ∃ pc ∈ (runE c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (runE c i arg3 harg3 arg4 harg4 arg5 harg5 arg6 harg6 arg7 harg7 arg8 harg8 arg9 harg9 hc0 hc1 hc2 hc3 x0 x1 x2 xs0 xs1 xs2).2.2.1 S1x512x1.size (by sl_kernel_rfl) y
/-- What case E leaves in scratch 1. -/
def sout_E_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) : Vec F S1x512x1 .f32 :=
  VS1.read (Elt F) (VS1.writes (Elt F) VS1.junk (runE c i arg3 harg3 arg4 harg4 arg5 harg5 arg6 harg6 arg7 harg7 arg8 harg8 arg9 harg9 hc0 hc1 hc2 hc3 x0 x1 x2 xs0 xs1 xs2).2.2.1)
theorem scover_E_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runE c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (runE c i arg3 harg3 arg4 harg4 arg5 harg5 arg6 harg6 arg7 harg7 arg8 harg8 arg9 harg9 hc0 hc1 hc2 hc3 x0 x1 x2 xs0 xs1 xs2).2.2.2.1 S1x512x1024.size (by sl_kernel_rfl) y
/-- What case E leaves in scratch 2. -/
def sout_E_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) : Vec F S1x512x1024 .f32 :=
  VS2.read (Elt F) (VS2.writes (Elt F) VS2.junk (runE c i arg3 harg3 arg4 harg4 arg5 harg5 arg6 harg6 arg7 harg7 arg8 harg8 arg9 harg9 hc0 hc1 hc2 hc3 x0 x1 x2 xs0 xs1 xs2).2.2.2.1)
theorem cover_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) (y : S1x512x1024.Idx) :
    ∃ pc ∈ (runE c i arg3 harg3 arg4 harg4 arg5 harg5 arg6 harg6 arg7 harg7 arg8 harg8 arg9 harg9 hc0 hc1 hc2 hc3 x0 x1 x2 xs0 xs1 xs2).1, y ∈ pc.1.set :=
  View.cover_of_tiledL (runE c i arg3 harg3 arg4 harg4 arg5 harg5 arg6 harg6 arg7 harg7 arg8 harg8 arg9 harg9 hc0 hc1 hc2 hc3 x0 x1 x2 xs0 xs1 xs2).1 S1x512x1024.size (by sl_kernel_rfl) y
/-- What case E leaves in the result block: the quotient. -/
def out_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) : Vec F S1x512x1024 .f32 :=
  VO3.read (Elt F) (VO3.writes (Elt F) VO3.junk (runE c i arg3 harg3 arg4 harg4 arg5 harg5 arg6 harg6 arg7 harg7 arg8 harg8 arg9 harg9 hc0 hc1 hc2 hc3 x0 x1 x2 xs0 xs1 xs2).1)

/-! ## The state after a point: the result block, then the three scratch buffers -/

def atA (c : Dev nD) (t : Fin cfg1.N) (h0 : t.val % 4 = 0) : Vec F S1x512x1024 .f32 × Vec F S1x512x1 .f32 × Vec F S1x512x1 .f32 × Vec F S1x512x1024 .f32 :=
  (outIdle, sout_A_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (cA0 t h0) (cA1 t h0) (cA2 t h0) (cA3 t h0) (iblk V c 0 t) (iblk V c 1 t) (iblk V c 2 t), sout_A_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (cA0 t h0) (cA1 t h0) (cA2 t h0) (cA3 t h0) (iblk V c 0 t) (iblk V c 1 t) (iblk V c 2 t), sout_A_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (cA0 t h0) (cA1 t h0) (cA2 t h0) (cA3 t h0) (iblk V c 0 t) (iblk V c 1 t) (iblk V c 2 t))
def atB (c : Dev nD) (t : Fin cfg1.N) (h0 : ¬t.val % 4 = 0) (h3 : ¬t.val % 4 = 3) (h1 : (t.val / 4) % 4 < t.val % 4) (xs : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (outIdle, sout_B_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (n3 t h3) (iblk V c 0 t) (iblk V c 1 t) (iblk V c 2 t) xs.2.1 xs.2.2.1 xs.2.2.2, sout_B_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (n3 t h3) (iblk V c 0 t) (iblk V c 1 t) (iblk V c 2 t) xs.2.1 xs.2.2.1 xs.2.2.2, sout_B_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (n3 t h3) (iblk V c 0 t) (iblk V c 1 t) (iblk V c 2 t) xs.2.1 xs.2.2.1 xs.2.2.2)
def atC (c : Dev nD) (t : Fin cfg1.N) (h0 : ¬t.val % 4 = 0) (h3 : ¬t.val % 4 = 3) (h1 : ¬(t.val / 4) % 4 < t.val % 4) (xs : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (outIdle, sout_C_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (n3 t h3) (iblk V c 0 t) (iblk V c 1 t) (iblk V c 2 t) xs.2.1 xs.2.2.1 xs.2.2.2, sout_C_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (n3 t h3) (iblk V c 0 t) (iblk V c 1 t) (iblk V c 2 t) xs.2.1 xs.2.2.1 xs.2.2.2, sout_C_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (n3 t h3) (iblk V c 0 t) (iblk V c 1 t) (iblk V c 2 t) xs.2.1 xs.2.2.1 xs.2.2.2)
def atD (c : Dev nD) (t : Fin cfg1.N) (h0 : ¬t.val % 4 = 0) (h3 : t.val % 4 = 3) (h1 : (t.val / 4) % 4 < t.val % 4) (xs : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (out_D_3 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (y3 t h3) (iblk V c 0 t) (iblk V c 1 t) (iblk V c 2 t) xs.2.1 xs.2.2.1 xs.2.2.2, sout_D_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (y3 t h3) (iblk V c 0 t) (iblk V c 1 t) (iblk V c 2 t) xs.2.1 xs.2.2.1 xs.2.2.2, sout_D_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (y3 t h3) (iblk V c 0 t) (iblk V c 1 t) (iblk V c 2 t) xs.2.1 xs.2.2.1 xs.2.2.2, sout_D_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (y1 t h1) (n2 t h1) (y3 t h3) (iblk V c 0 t) (iblk V c 1 t) (iblk V c 2 t) xs.2.1 xs.2.2.1 xs.2.2.2)
def atE (c : Dev nD) (t : Fin cfg1.N) (h0 : ¬t.val % 4 = 0) (h3 : t.val % 4 = 3) (h1 : ¬(t.val / 4) % 4 < t.val % 4) (xs : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (out_E_3 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (y3 t h3) (iblk V c 0 t) (iblk V c 1 t) (iblk V c 2 t) xs.2.1 xs.2.2.1 xs.2.2.2, sout_E_0 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (y3 t h3) (iblk V c 0 t) (iblk V c 1 t) (iblk V c 2 t) xs.2.1 xs.2.2.1 xs.2.2.2, sout_E_1 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (y3 t h3) (iblk V c 0 t) (iblk V c 1 t) (iblk V c 2 t) xs.2.1 xs.2.2.1 xs.2.2.2, sout_E_2 c (grid1.coords t) (ms_0 t) (hs_0 t) (ms_1 t) (hs_1 t) (ms_2 t) (hs_2 t) (ms_3 t) (hs_3 t) scM0 (Memref.isWhole_whole _) scM1 (Memref.isWhole_whole _) scM2 (Memref.isWhole_whole _) (n0 t h0) (n1 t h1) (y2 t h1) (y3 t h3) (iblk V c 0 t) (iblk V c 1 t) (iblk V c 2 t) xs.2.1 xs.2.2.1 xs.2.2.2)

/-- What the result window's buffer and the scratch hold after the body at position `n`: the case the position selects,
    run on the point's blocks and, past key tile 0, on what the point before left in the scratch. -/
def outsAt (c : Dev nD) : (n : ℕ) → n < cfg1.N → Vec F S1x512x1024 .f32 × Vec F S1x512x1 .f32 × Vec F S1x512x1 .f32 × Vec F S1x512x1024 .f32
  | 0, hn => atA V c ⟨0, hn⟩ (Nat.zero_mod _)
  | n + 1, hn =>
    if h0 : (n + 1) % 4 = 0 then atA V c ⟨n + 1, hn⟩ h0
    else if h3 : (n + 1) % 4 = 3 then
      if h1 : ((n + 1) / 4) % 4 < (n + 1) % 4 then atD V c ⟨n + 1, hn⟩ h0 h3 h1 (outsAt c n (Nat.lt_of_succ_lt hn))
      else atE V c ⟨n + 1, hn⟩ h0 h3 h1 (outsAt c n (Nat.lt_of_succ_lt hn))
    else
      if h1 : ((n + 1) / 4) % 4 < (n + 1) % 4 then atB V c ⟨n + 1, hn⟩ h0 h3 h1 (outsAt c n (Nat.lt_of_succ_lt hn))
      else atC V c ⟨n + 1, hn⟩ h0 h3 h1 (outsAt c n (Nat.lt_of_succ_lt hn))

theorem outsAt_A (c : Dev nD) (t : Fin cfg1.N) (h0 : t.val % 4 = 0) : outsAt V c t.val t.isLt = atA V c t h0 := by
  obtain ⟨n, hn⟩ := t
  cases n with
  | zero => exact rfl
  | succ n => exact (dif_pos h0).trans rfl
theorem outsAt_B (c : Dev nD) (t : Fin cfg1.N) (h0 : ¬t.val % 4 = 0) (h3 : ¬t.val % 4 = 3) (h1 : (t.val / 4) % 4 < t.val % 4) :
    outsAt V c t.val t.isLt = atB V c t h0 h3 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans ((dif_pos h1).trans rfl))
theorem outsAt_C (c : Dev nD) (t : Fin cfg1.N) (h0 : ¬t.val % 4 = 0) (h3 : ¬t.val % 4 = 3) (h1 : ¬(t.val / 4) % 4 < t.val % 4) :
    outsAt V c t.val t.isLt = atC V c t h0 h3 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans ((dif_neg h1).trans rfl))
theorem outsAt_D (c : Dev nD) (t : Fin cfg1.N) (h0 : ¬t.val % 4 = 0) (h3 : t.val % 4 = 3) (h1 : (t.val / 4) % 4 < t.val % 4) :
    outsAt V c t.val t.isLt = atD V c t h0 h3 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans ((dif_pos h1).trans rfl))
theorem outsAt_E (c : Dev nD) (t : Fin cfg1.N) (h0 : ¬t.val % 4 = 0) (h3 : t.val % 4 = 3) (h1 : ¬(t.val / 4) % 4 < t.val % 4) :
    outsAt V c t.val t.isLt = atE V c t h0 h3 h1 (outsAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans ((dif_neg h1).trans rfl))

/-! ## The invariant between points -/

/-- Before the first point every scratch buffer holds anything; afterwards each holds what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ f : Buf (Elt F) ((c : Thread nD τ).loc cc0_stg5_0), ((c : Thread nD τ).loc cc0_stg5_0) ↦{fullShare} f)
        ∗ (∃ f : Buf (Elt F) ((c : Thread nD τ).loc cc0_stg5_1), ((c : Thread nD τ).loc cc0_stg5_1) ↦{fullShare} f)
        ∗ (∃ f : Buf (Elt F) ((c : Thread nD τ).loc cc0_stg6_0), ((c : Thread nD τ).loc cc0_stg6_0) ↦{fullShare} f)
        ∗ (∃ f : Buf (Elt F) ((c : Thread nD τ).loc cc0_stg6_1), ((c : Thread nD τ).loc cc0_stg6_1) ↦{fullShare} f)
        ∗ owns (c : Thread nD τ) scM0 fullShare ((outsAt V c (n - 1) (by omega)).2.1) ∗ owns (c : Thread nD τ) scM1 fullShare ((outsAt V c (n - 1) (by omega)).2.2.1) ∗ owns (c : Thread nD τ) scM2 fullShare ((outsAt V c (n - 1) (by omega)).2.2.2)) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
/-- Input window 0's staging buffer holds its block whenever the body runs (the query block is fetched once per query tile). -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's staging buffer holds its block whenever the body runs (the query block is fetched once per query tile). -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's staging buffer holds its block whenever the body runs (the query block is fetched once per query tile). -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the point's position selects the case; the inputs' buffers hold their blocks, the scratch what
    the point before left (anything at key tile 0), so the case's run applies and leaves the scratch at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 4 = 0
  · by_cases hz : t.val = 0
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3 t (cA3 t h0)) (noFlush_3 t (cA3 t h0))]
      rw [outsAt_A V c t h0]
      unfold atA sout_A_0 sout_A_1 sout_A_2; (try dsimp only)
      rw [PhiS_castSucc V c t, PhiS_zero V c _ _ hz, PhiA_eq]
      iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
      iapply ((runA c (grid1.coords t) _ _ _ _ _ _ _ _ _ _ _ _ _ _ (cA0 t h0) (cA1 t h0) (cA2 t h0) (cA3 t h0) (iblk V c 0 t) (iblk V c 1 t) (iblk V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [B0 B1 B2 B3 B4 B5 B6 B7 B8 B9 B10 HS0 HS1 HS2 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [HS0]
        · unfold owns; iexists _; isplitr
          swap; · iexact HS0
          ipureintro; exact View.read_writes_of_cover _ _ _ _ _ (scover_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover_A_1 c _ _ _ _ _ _ _ _ _ _ _ _ _ _ _ _ _ _ _ _ _ _)
        unfold owns; iexists _; isplitr
        swap; · iexact HS2
        ipureintro; exact View.read_writes_of_cover _ _ _ _ _ (scover_A_2 c _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3 t (cA3 t h0)) (noFlush_3 t (cA3 t h0))]
      rw [outsAt_A V c t h0]
      unfold atA sout_A_0 sout_A_1 sout_A_2; (try dsimp only)
      rw [PhiS_castSucc V c t, PhiS_pos V c _ _ hz]
      iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
      iapply ((runA c (grid1.coords t) _ _ _ _ _ _ _ _ _ _ _ _ _ _ (cA0 t h0) (cA1 t h0) (cA2 t h0) (cA3 t h0) (iblk V c 0 t) (iblk V c 1 t) (iblk V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [B0 B1 B2 B3 B4 B5 B6 B7 B8 B9 B10 HS0 HS1 HS2 Hg]
      · isplitr [Hg]
        swap; · iexact Hg
        isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [HS0]
        · unfold owns; iexists _; isplitr
          swap; · iexact HS0
          ipureintro; exact View.read_writes_of_cover _ _ _ _ _ (scover_A_0 c _ _ _ _ _ _ _ _ _ _ _ _ _ _ _ _ _ _ _ _ _ _)
        isplitl [HS1]
        · unfold owns; iexists _; isplitr
          swap; · iexact HS1
          ipureintro; exact View.read_writes_of_cover _ _ _ _ _ (scover_A_1 c _ _ _ _ _ _ _ _ _ _ _ _ _ _ _ _ _ _ _ _ _ _)
        unfold owns; iexists _; isplitr
        swap; · iexact HS2
        ipureintro; exact View.read_writes_of_cover _ _ _ _ _ (scover_A_2 c _ _ _ _ _ _ _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · by_cases h1 : (t.val / 4) % 4 < t.val % 4
      ·
        rw [show (dat V c).leavesExact 0 t = owns (c : Thread nD τ) (ms_0 t) fullShare ((dat V c).after 0 t) from by
          unfold Dat.leavesExact; rw [liveAt_0 t], after_0]
        rw [show (dat V c).leavesExact 1 t = owns (c : Thread nD τ) (ms_1 t) fullShare ((dat V c).after 1 t) from by
          unfold Dat.leavesExact; rw [liveAt_1 t], after_1]
        rw [show (dat V c).leavesExact 2 t = owns (c : Thread nD τ) (ms_2 t) fullShare ((dat V c).after 2 t) from by
          unfold Dat.leavesExact; rw [liveAt_2 t], after_2]
        rw [show (dat V c).leavesExact 3 t = owns (c : Thread nD τ) (ms_3 t) fullShare ((dat V c).after 3 t) from by
          unfold Dat.leavesExact; rw [liveAt_3 t (y3 t h3)], after_3]
        rw [outsAt_D V c t h0 h3 h1]
        unfold atD out_D_3 sout_D_0 sout_D_1 sout_D_2; (try dsimp only)
        rw [PhiS_castSucc V c t, PhiS_pos V c _ _ hz]
        iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
        iapply ((runD c (grid1.coords t) _ _ _ _ _ _ _ _ _ _ _ _ _ _ (n0 t h0) (y1 t h1) (n2 t h1) (y3 t h3) (iblk V c 0 t) (iblk V c 1 t) (iblk V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [B0 B1 B2 B3 B4 B5 B6 B7 B8 B9 B10 HS0 HS1 HS2 Hg]
        · isplitr [Hg]
          swap; · iexact Hg
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [HS0]
          · unfold owns; iexists _; isplitr
            swap; · iexact HS0
            ipureintro; exact View.read_writes_of_cover _ _ _ _ _ (scover_D_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_D_1 c _ _ _ _ _ _ _ _ _ _ _ _ _ _ _ _ _ _ _ _ _ _ _ _ _)
          unfold owns; iexists _; isplitr
          swap; · iexact HS2
          ipureintro; exact View.read_writes_of_cover _ _ _ _ _ (scover_D_2 c _ _ _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_D_3 c _ _ _ _ _ _ _ _ _ _ _ _ _ _ _ _ _ _ _ _ _ _ _ _ _)
      ·
        rw [show (dat V c).leavesExact 0 t = owns (c : Thread nD τ) (ms_0 t) fullShare ((dat V c).after 0 t) from by
          unfold Dat.leavesExact; rw [liveAt_0 t], after_0]
        rw [show (dat V c).leavesExact 1 t = owns (c : Thread nD τ) (ms_1 t) fullShare ((dat V c).after 1 t) from by
          unfold Dat.leavesExact; rw [liveAt_1 t], after_1]
        rw [show (dat V c).leavesExact 2 t = owns (c : Thread nD τ) (ms_2 t) fullShare ((dat V c).after 2 t) from by
          unfold Dat.leavesExact; rw [liveAt_2 t], after_2]
        rw [show (dat V c).leavesExact 3 t = owns (c : Thread nD τ) (ms_3 t) fullShare ((dat V c).after 3 t) from by
          unfold Dat.leavesExact; rw [liveAt_3 t (y3 t h3)], after_3]
        rw [outsAt_E V c t h0 h3 h1]
        unfold atE out_E_3 sout_E_0 sout_E_1 sout_E_2; (try dsimp only)
        rw [PhiS_castSucc V c t, PhiS_pos V c _ _ hz]
        iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
        iapply ((runE c (grid1.coords t) _ _ _ _ _ _ _ _ _ _ _ _ _ _ (n0 t h0) (n1 t h1) (y2 t h1) (y3 t h3) (iblk V c 0 t) (iblk V c 1 t) (iblk V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [B0 B1 B2 B3 B4 B5 B6 B7 B8 B9 B10 HS0 HS1 HS2 Hg]
        · isplitr [Hg]
          swap; · iexact Hg
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [HS0]
          · unfold owns; iexists _; isplitr
            swap; · iexact HS0
            ipureintro; exact View.read_writes_of_cover _ _ _ _ _ (scover_E_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_E_1 c _ _ _ _ _ _ _ _ _ _ _ _ _ _ _ _ _ _ _ _ _ _ _ _ _)
          unfold owns; iexists _; isplitr
          swap; · iexact HS2
          ipureintro; exact View.read_writes_of_cover _ _ _ _ _ (scover_E_2 c _ _ _ _ _ _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_E_3 c _ _ _ _ _ _ _ _ _ _ _ _ _ _ _ _ _ _ _ _ _ _ _ _ _)
    · by_cases h1 : (t.val / 4) % 4 < t.val % 4
      ·
        rw [show (dat V c).leavesExact 0 t = owns (c : Thread nD τ) (ms_0 t) fullShare ((dat V c).after 0 t) from by
          unfold Dat.leavesExact; rw [liveAt_0 t], after_0]
        rw [show (dat V c).leavesExact 1 t = owns (c : Thread nD τ) (ms_1 t) fullShare ((dat V c).after 1 t) from by
          unfold Dat.leavesExact; rw [liveAt_1 t], after_1]
        rw [show (dat V c).leavesExact 2 t = owns (c : Thread nD τ) (ms_2 t) fullShare ((dat V c).after 2 t) from by
          unfold Dat.leavesExact; rw [liveAt_2 t], after_2]
        rw [Dat.leavesExact_idle (dat V c) 3 t (idleAt_3 t (n3 t h3)) (noFlush_3 t (n3 t h3))]
        rw [outsAt_B V c t h0 h3 h1]
        unfold atB sout_B_0 sout_B_1 sout_B_2; (try dsimp only)
        rw [PhiS_castSucc V c t, PhiS_pos V c _ _ hz]
        iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
        iapply ((runB c (grid1.coords t) _ _ _ _ _ _ _ _ _ _ _ _ _ _ (n0 t h0) (y1 t h1) (n2 t h1) (n3 t h3) (iblk V c 0 t) (iblk V c 1 t) (iblk V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [B0 B1 B2 B3 B4 B5 B6 B7 B8 B9 B10 HS0 HS1 HS2 Hg]
        · isplitr [Hg]
          swap; · iexact Hg
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [HS0]
          · unfold owns; iexists _; isplitr
            swap; · iexact HS0
            ipureintro; exact View.read_writes_of_cover _ _ _ _ _ (scover_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _ _ _ _ _ _ _)
          unfold owns; iexists _; isplitr
          swap; · iexact HS2
          ipureintro; exact View.read_writes_of_cover _ _ _ _ _ (scover_B_2 c _ _ _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3
      ·
        rw [show (dat V c).leavesExact 0 t = owns (c : Thread nD τ) (ms_0 t) fullShare ((dat V c).after 0 t) from by
          unfold Dat.leavesExact; rw [liveAt_0 t], after_0]
        rw [show (dat V c).leavesExact 1 t = owns (c : Thread nD τ) (ms_1 t) fullShare ((dat V c).after 1 t) from by
          unfold Dat.leavesExact; rw [liveAt_1 t], after_1]
        rw [show (dat V c).leavesExact 2 t = owns (c : Thread nD τ) (ms_2 t) fullShare ((dat V c).after 2 t) from by
          unfold Dat.leavesExact; rw [liveAt_2 t], after_2]
        rw [Dat.leavesExact_idle (dat V c) 3 t (idleAt_3 t (n3 t h3)) (noFlush_3 t (n3 t h3))]
        rw [outsAt_C V c t h0 h3 h1]
        unfold atC sout_C_0 sout_C_1 sout_C_2; (try dsimp only)
        rw [PhiS_castSucc V c t, PhiS_pos V c _ _ hz]
        iintro ⟨⟨⟨B0, B1, B2, B3, B4, B5, B6, B7, B8, B9, B10, HS0, HS1, HS2⟩, Hg⟩, Ho, ⟨%d0, H0⟩, ⟨%d1, H1⟩, ⟨%d2, H2⟩, ⟨%d3, H3⟩⟩
        iapply ((runC c (grid1.coords t) _ _ _ _ _ _ _ _ _ _ _ _ _ _ (n0 t h0) (n1 t h1) (y2 t h1) (n3 t h3) (iblk V c 0 t) (iblk V c 1 t) (iblk V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [B0 B1 B2 B3 B4 B5 B6 B7 B8 B9 B10 HS0 HS1 HS2 Hg]
        · isplitr [Hg]
          swap; · iexact Hg
          isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [HS0]
          · unfold owns; iexists _; isplitr
            swap; · iexact HS0
            ipureintro; exact View.read_writes_of_cover _ _ _ _ _ (scover_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_C_1 c _ _ _ _ _ _ _ _ _ _ _ _ _ _ _ _ _ _ _ _ _ _ _ _ _)
          unfold owns; iexists _; isplitr
          swap; · iexact HS2
          ipureintro; exact View.read_writes_of_cover _ _ _ _ _ (scover_C_2 c _ _ _ _ _ _ _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The pipeline's obligation for the body, at every point. -/
theorem body_obligation (c : Dev nD) : BodyObligation (dat (F := F) V c) (defs₀ (F := F)) Variants.none () Set.univ := fun t => by
  rw [bigSep_W1, bigSep_W1]
  exact sound_body V c t

/-- What the region is handed is the invariant before the first point, -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- and after the last point the invariant gives it back, the scratch's contents forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA_eq]
  iintro ⟨⟨B0, B1, B2, B3, B4, B5, B6, B7, B8, B9, B10, HS0, HS1, HS2⟩, Hg⟩
  isplitr [Hg]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [HS0]; · iexists _; iexact HS0
  isplitl [HS1]; · iexists _; iexact HS1
  iexists _; iexact HS2

end Cert.KernelIdeal.Attn

end
-- ==== Proof.IdealRun.lean ====
/-
  The whole program: a reshape of the input to [8192, 1024], the projection region, three reshapes of its results
  back to [4, 2048, 1024], the attention region. The buffers' contents at each of the five boundaries are a fold from
  the launch memory: a host stretch applies its operations, a region leaves its arrays at what its write-backs
  leave and every other buffer as it found it. From any memory with zero counters every weakly fair execution
  terminates, and every unscoped buffer ends at the last boundary's contents: the four arguments as launched
  (no operation and no region writes one) and the result array at what the attention region's write-backs leave.
-/
import proofs.«140165_j15401752723638_2_alg».proof.Proof.QkvRegion
import proofs.«140165_j15401752723638_2_alg».proof.Proof.AttnRegion
import proofs.«140165_j15401752723638_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the input's reshape: the projection region's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the projection region's exit. -/
def W2 (c : Dev nD) : Valuation τ sig (Elt F) :=
  Pipeline.withArrays spec0 c (W1 m c) fun w => (Qkv.dat (U1 m) c).arrAt w cfg0.N
theorem W2_arr (c : Dev nD) (w : Fin cfg0.W) :
    W2 m c (Proc.devRef .tc (Pipeline.arrRef spec0 w)) = (Qkv.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (Qkv.dat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the three reshapes: the attention region's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the attention region's exit: the end. -/
def W4 (c : Dev nD) : Valuation τ sig (Elt F) :=
  Pipeline.withArrays spec1 c (W3 m c) fun w => (Attn.dat (U3 m) c).arrAt w cfg1.N
theorem W4_arr (c : Dev nD) (w : Fin cfg1.W) :
    W4 m c (Proc.devRef .tc (Pipeline.arrRef spec1 w)) = (Attn.dat (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (Attn.dat (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 1).trans (((Qkv.dat (U1 m) c).arrAt_in 1 rfl _).trans (Qkv.A_eq (U1 m) c 1))
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 2).trans (((Qkv.dat (U1 m) c).arrAt_in 2 rfl _).trans (Qkv.A_eq (U1 m) c 2))
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := (W2_arr m c 3).trans (((Qkv.dat (U1 m) c).arrAt_in 3 rfl _).trans (Qkv.A_eq (U1 m) c 3))
    _ = W0 m c (Proc.devRef .tc main_arg3) := StableHlo.after_of_writes_sub hostOps0 _ hostOps0_writes (r := main_arg3) (by decide)
    _ = m ((c : Thread nD τ).loc main_arg3) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Qkv.dat (U1 m) c
  | ⟨1, _⟩ => fun c => Attn.dat (U3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered from every unscoped buffer at its entry contents, left at its exit contents; its
    arrays split out of the unscoped buffers and put back; the generator register into the invariant and out; nothing
    owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at its entry contents, left at its exit contents; its
    arrays split out of the unscoped buffers and put back; the generator register into the invariant and out; nothing
    owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attn.hin (U3 m) c)
    unfold Pipeline.ΦA
    iintro ⟨Hp, -, Hr⟩
    isplitl [Hr]; · iexact Hr
    iexact Hp
  hout c := by
    rw [Pipeline.ownSems0_none]
    refine (Attn.hout (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every unscoped buffer ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

/-- The result: the result array ends at what the attention region's write-backs leave, beside the frame. -/
theorem run_result : θ_run defs (onTc (τ := τ) (main (F := F))) ⟨m, fun _ => 0, ρ⟩ (fun r => ∀ c : Dev nD,
      r.2.mem ((c.tc : Thread nD τ).loc main_v5) = (Attn.dat (U3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_main m ρ)

end Cert.KernelIdeal.Run

end
-- ==== Proof.RefFrame.lean ====
/-
  The reference program — three projections of the input, the scaled and masked scores, a row softmax, and the
  weighted sum of value rows, all on the host — runs to its end with its arguments unchanged: its run read back as
  one pure term per result, with the result dropped.
-/
import proofs.«140165_j15401752723638_2_alg».proof.Defs
import proofs.«140165_j15401752723638_2_alg».proof.Proof.Gen.ReferenceIdeal
import proofs.«140165_j15401752723638_2_alg».proof.Proof.Gen.ReferenceIdeal.Run
import proofs.«140165_j15401752723638_2_alg».proof.Proof.Gen.ReferenceIdeal.Read
import proofs.«140165_j15401752723638_2_alg».proof.Proof.Gen.Pre_finite_inputs

noncomputable section

open Idealize.ShloMosaic Idealize.ShloMosaic.TcCoe Idealize.SL.Sem

namespace Cert.Proof.Reference

theorem frame_ri : Cert.frame_ReferenceIdeal := fun m ρ _ =>
  (θ_run Cert.ReferenceIdeal.defs _ _).mono (fun _ h c => (h c).2) (Cert.ReferenceIdeal.Value.run (F := Ideal) m ρ)

end Cert.Proof.Reference

end
-- ==== Proof.Frames.lean ====
/-
  The three programs run to their ends, fault nowhere and leave their argument arrays as launched: the kernel as
  printed on machine words, the same kernel read on extended reals, and the reference.
-/
import proofs.«140165_j15401752723638_2_alg».proof.Defs
import proofs.«140165_j15401752723638_2_alg».proof.Proof.WordRun
import proofs.«140165_j15401752723638_2_alg».proof.Proof.IdealRun
import proofs.«140165_j15401752723638_2_alg».proof.Proof.RefFrame

noncomputable section

open Idealize.ShloMosaic Idealize.ShloMosaic.TcCoe Idealize.SL.Sem

namespace Cert.Proof.Frames

theorem frame_p : Cert.frame_Kernel := fun m ρ _ => Cert.Kernel.Run.frame (F := Bits) m ρ
theorem frame_pi : Cert.frame_KernelIdeal := fun m ρ _ => Cert.KernelIdeal.Run.frame (F := Ideal) m ρ
theorem frame_ri : Cert.frame_ReferenceIdeal := Cert.Proof.Reference.frame_ri
theorem preserves : Cert.preserves_Kernel_KernelIdeal := trivial

end Cert.Proof.Frames

end
-- ==== Proof.AttnSpec.lean ====
/-
  What both programs compute, on the extended reals. From an input x [4, 2048, 1024] and three weight matrices
  [1024, 1024]: the three projections (x times each matrix, contracted over the last axis of x); the score of query
  row q against key row t of a batch, the dot product of their projections over the width, times 1/32, times the
  causal mask (1 where t <= q, 0 elsewhere: a masked score is ZERO, not minus infinity, and still takes part in the
  softmax); the row's softmax weights, the exponential of the score minus the row's largest score, over their sum;
  and the result, the weighted sum of the value projections over all 2048 key rows.
-/
import Idealize.ShloMosaic.Lib.ValueIdx

noncomputable section

open scoped BigOperators

namespace Cert.Spec

open Idealize.ShloMosaic Idealize.ShloMosaic.ValueIdx

abbrev SX : Shape := ⟨3, ![4, 2048, 1024]⟩
abbrev SW : Shape := ⟨2, ![1024, 1024]⟩

/-- Row t of batch b of the input times column d of a weight matrix. -/
def proj (x : SX.Idx → EReal) (w : SW.Idx → EReal) (b : Fin 4) (t : Fin 2048) (d : Fin 1024) : EReal :=
  ∑ k : Fin 1024, x (ix3 b t k) * w (ix2 k d)

/-- The scale 1 / sqrt 1024. -/
def gamma : EReal := ((1 / 32 : ℝ) : EReal)

/-- The scaled, masked score of query row q against key row t. -/
def score (x : SX.Idx → EReal) (wq wk : SW.Idx → EReal) (b : Fin 4) (q t : Fin 2048) : EReal :=
  ((∑ d : Fin 1024, proj x wq b q d * proj x wk b t d) * gamma) * (if t.val ≤ q.val then (1 : EReal) else 0)

/-- The row's largest score. -/
def rowMax (x : SX.Idx → EReal) (wq wk : SW.Idx → EReal) (b : Fin 4) (q : Fin 2048) : EReal :=
  Finset.univ.sup fun t : Fin 2048 => score x wq wk b q t

/-- The unnormalised softmax weight of key row t. -/
def weight (x : SX.Idx → EReal) (wq wk : SW.Idx → EReal) (b : Fin 4) (q t : Fin 2048) : EReal :=
  Ideal.exp (score x wq wk b q t - rowMax x wq wk b q)

/-- Their sum over the row. -/
def rowSum (x : SX.Idx → EReal) (wq wk : SW.Idx → EReal) (b : Fin 4) (q : Fin 2048) : EReal :=
  ∑ t : Fin 2048, weight x wq wk b q t

/-- The result at batch b, query row q, column d. -/
def attn (x : SX.Idx → EReal) (wq wk wv : SW.Idx → EReal) (b : Fin 4) (q : Fin 2048) (d : Fin 1024) : EReal :=
  ∑ t : Fin 2048, Ideal.div (weight x wq wk b q t) (rowSum x wq wk b q) * proj x wv b t d

/-- The result array. -/
def G (x : SX.Idx → EReal) (wq wk wv : SW.Idx → EReal) : SX.Idx → EReal := fun i =>
  attn x wq wk wv ⟨(i 0).val, (i 0).isLt⟩ ⟨(i 1).val, (i 1).isLt⟩ ⟨(i 2).val, (i 2).isLt⟩

end Cert.Spec

end
-- ==== Proof.QkvValue.lean ====
/-
  The projection region's values. The program flattens the input [4, 2048, 1024] to [8192, 1024]; the projection
  region writes, at each of its 16 grid points t, rows 512 t .. 512 t + 511 of three result arrays, each the block's
  matrix product with one weight matrix accumulated from zero (the format changes are the identity on extended reals);
  three reshapes take the results back to [4, 2048, 1024]. Read index by index: the matrix unit's product at a row and
  a column is the sum over the contracted axis; every block is a block of ONE whole-array product of the flattened
  input with the weight matrix, and the 16 blocks cover the array (row r is written by point r / 512); the reshapes
  keep the row-major position (row r of the flattened input is row r % 2048 of batch r / 2048, and back). So the three
  arrays the attention region is entered with are the three projections of the launch input.
-/
import proofs.«140165_j15401752723638_2_alg».proof.Proof.IdealRun
import proofs.«140165_j15401752723638_2_alg».proof.Proof.AttnSpec
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.QkvValue

open Cert.KernelIdeal Cert.KernelIdeal.Gen
open Idealize.ShloMosaic Idealize.ShloMosaic.TcCoe Idealize.SL.Sem
open Idealize.ShloMosaic.ValueIdx
open Idealize.ShloMosaic.Pipeline (Dat)

/-! ## The body's product at an index -/

theorem hz : (![0, 0] : Fin 2 → Nat) = fun _ => 0 := funext fun a => by fin_cases a <;> rfl

theorem lhs_row (i : S512x1024.Idx) (q : (dot_S512x1024_S1024x1024_S512x1024_1_0_0_1_n_n).contr.Idx) :
    ((dot_S512x1024_S1024x1024_S512x1024_1_0_0_1_n_n).lhsIdx i q 0).val = (i 0).val := by
  unfold DotDims.lhsIdx
  rw [dif_neg (show ¬(0 : Fin S512x1024.rank) ∈ (dot_S512x1024_S1024x1024_S512x1024_1_0_0_1_n_n).lhsBatch by decide),
    dif_pos (show (0 : Fin S512x1024.rank) ∈ (dot_S512x1024_S1024x1024_S512x1024_1_0_0_1_n_n).lhsNonContracting by decide)]
  rfl
theorem lhs_col (i : S512x1024.Idx) (q : (dot_S512x1024_S1024x1024_S512x1024_1_0_0_1_n_n).contr.Idx) :
    ((dot_S512x1024_S1024x1024_S512x1024_1_0_0_1_n_n).lhsIdx i q 1).val = (q ⟨0, by decide⟩).val :=
  (dot_S512x1024_S1024x1024_S512x1024_1_0_0_1_n_n).lhsIdx_val_of_single rfl i q
theorem rhs_row (i : S512x1024.Idx) (q : (dot_S512x1024_S1024x1024_S512x1024_1_0_0_1_n_n).contr.Idx) :
    ((dot_S512x1024_S1024x1024_S512x1024_1_0_0_1_n_n).rhsIdx i q 0).val = (q ⟨0, by decide⟩).val :=
  (dot_S512x1024_S1024x1024_S512x1024_1_0_0_1_n_n).rhsIdx_val_of_single rfl i q
theorem rhs_col (i : S512x1024.Idx) (q : (dot_S512x1024_S1024x1024_S512x1024_1_0_0_1_n_n).contr.Idx) :
    ((dot_S512x1024_S1024x1024_S512x1024_1_0_0_1_n_n).rhsIdx i q 1).val = (i 1).val := by
  unfold DotDims.rhsIdx
  rw [dif_neg (show ¬(1 : Fin S1024x1024.rank) ∈ (dot_S512x1024_S1024x1024_S512x1024_1_0_0_1_n_n).rhsBatch by decide),
    dif_pos (show (1 : Fin S1024x1024.rank) ∈ (dot_S512x1024_S1024x1024_S512x1024_1_0_0_1_n_n).rhsNonContracting by decide)]
  rfl

/-- The matrix unit's product of a block of rows with a matrix, accumulated from zero, at row p and column d: the sum
    over the contracted axis. -/
theorem mm_apply (l : FVec Ideal S512x1024 .bf16) (r : FVec Ideal S1024x1024 .bf16) (p : Fin 512) (d : Fin 1024) :
    matmul dot_S512x1024_S1024x1024_S512x1024_1_0_0_1_n_n none l r (constant (F := Ideal) S512x1024 .f32 0x00000000#32) (ix2 p d)
      = ∑ k : Fin 1024, l (ix2 p k) * r (ix2 k d) := by
  show FloatOps.matmul _ _ _ _ _ _ = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : (dot_S512x1024_S1024x1024_S512x1024_1_0_0_1_n_n).lhsIdx (ix2 p d) ((contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_col _ _).trans hk)
  have er : (dot_S512x1024_S1024x1024_S512x1024_1_0_0_1_n_n).rhsIdx (ix2 p d) ((contrEquiv1 dot_S512x1024_S1024x1024_S512x1024_1_0_0_1_n_n 1024 rfl rfl).symm k) = ix2 k d := funext fun a => Fin.ext (by
    match a with
    | ⟨0, _⟩ => exact (rhs_row _ _).trans hk
    | ⟨1, _⟩ => exact rhs_col _ _)
  rw [el, er]

/-- The three payloads at an index: the format changes are the identity on extended reals. -/
theorem pay2_apply (x : Vec Ideal S512x1024 .f32) (w : Vec Ideal S1024x1024 .f32) (p : Fin 512) (d : Fin 1024) :
    k0_pay2 (F := Ideal) x w (ix2 p d) = ∑ k : Fin 1024, x (ix2 p k) * w (ix2 k d) := by
  unfold k0_pay2 k0_pay1
  rw [truncf_apply]
  refine (mm_apply _ _ p d).trans ?_
  refine Finset.sum_congr rfl fun k _ => ?_
  rw [truncf_apply, truncf_apply, shapeCast_self]
theorem pay3_apply (x : Vec Ideal S512x1024 .f32) (w : Vec Ideal S1024x1024 .f32) (p : Fin 512) (d : Fin 1024) :
    k0_pay3 (F := Ideal) x w (ix2 p d) = ∑ k : Fin 1024, x (ix2 p k) * w (ix2 k d) := by
  unfold k0_pay3 k0_pay1
  rw [truncf_apply]
  refine (mm_apply _ _ p d).trans ?_
  refine Finset.sum_congr rfl fun k _ => ?_
  rw [truncf_apply, truncf_apply, shapeCast_self]
theorem pay4_apply (x : Vec Ideal S512x1024 .f32) (w : Vec Ideal S1024x1024 .f32) (p : Fin 512) (d : Fin 1024) :
    k0_pay4 (F := Ideal) x w (ix2 p d) = ∑ k : Fin 1024, x (ix2 p k) * w (ix2 k d) := by
  unfold k0_pay4 k0_pay1
  rw [truncf_apply]
  refine (mm_apply _ _ p d).trans ?_
  refine Finset.sum_congr rfl fun k _ => ?_
  rw [truncf_apply, truncf_apply, shapeCast_self]

/-- What the body leaves in each result block, at an index. -/
theorem outQ_apply (x : Vec Ideal S512x1024 .f32) (w : Vec Ideal S1024x1024 .f32) (p : Fin 512) (d : Fin 1024) :
    Qkv.outQ (F := Ideal) x w (ix2 p d) = ∑ k : Fin 1024, x (ix2 p k) * w (ix2 k d) := by
  unfold Qkv.outQ
  rw [View.canon_unit_zero hz]
  simp only [View.ld_unit_zero (S := S512x1024) hz, View.ld_unit_zero (S := S1024x1024) hz]
  exact pay2_apply x w p d
theorem outK_apply (x : Vec Ideal S512x1024 .f32) (w : Vec Ideal S1024x1024 .f32) (p : Fin 512) (d : Fin 1024) :
    Qkv.outK (F := Ideal) x w (ix2 p d) = ∑ k : Fin 1024, x (ix2 p k) * w (ix2 k d) := by
  unfold Qkv.outK
  rw [View.canon_unit_zero hz]
  simp only [View.ld_unit_zero (S := S512x1024) hz, View.ld_unit_zero (S := S1024x1024) hz]
  exact pay3_apply x w p d
theorem outV_apply (x : Vec Ideal S512x1024 .f32) (w : Vec Ideal S1024x1024 .f32) (p : Fin 512) (d : Fin 1024) :
    Qkv.outV (F := Ideal) x w (ix2 p d) = ∑ k : Fin 1024, x (ix2 p k) * w (ix2 k d) := by
  unfold Qkv.outV
  rw [View.canon_unit_zero hz]
  simp only [View.ld_unit_zero (S := S512x1024) hz, View.ld_unit_zero (S := S1024x1024) hz]
  exact pay4_apply x w p d

/-! ## From the blocks to the arrays -/

/-- The rows of a flattened input times a matrix: the whole [8192, 1024] product, index by index. -/
def rowsTimes (X : S8192x1024.Idx → EReal) (Wt : S1024x1024.Idx → EReal) : S8192x1024.Idx → EReal :=
  fun i => ∑ k : Fin 1024, X (ix2 ⟨(i 0).val, (i 0).isLt⟩ k) * Wt (ix2 k ⟨(i 1).val, (i 1).isLt⟩)

variable (V : (c : Dev nD) → (b : Ref sig .tc) → Buf (Elt Ideal) ((c : Thread nD τ).loc b))

/-- The index maps, decided over the grid: at point t the input block and the three result blocks are block t of their
    rows and the only block of their columns; a weight matrix's block is the matrix. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem t_lt (t : Fin cfg0.N) : t.val < 16 := lt_of_lt_of_eq t.isLt N_0

/-- The input window's block at point t is rows 512 t .. 512 t + 511 of the flattened input. -/
theorem iblk0_apply (c : Dev nD) (t : Fin cfg0.N) (p : Fin 512) (k : Fin 1024) :
    (Qkv.iblk V c 0 t : Vec Ideal S512x1024 .f32) (ix2 p k)
      = (V c main_v0 : S8192x1024.Idx → EReal) (ix2 ⟨512 * t.val + p.val, by have := t_lt t; omega⟩ k) := by
  obtain ⟨⟨e0, e1⟩, -⟩ := idx_facts t
  unfold Qkv.iblk
  rw [View.read_apply]
  show V c main_v0 _ = V c main_v0 _
  congr 1
  funext a
  apply Fin.ext
  match a with
  | ⟨0, _⟩ => show win0_0.index t 0 * 512 + 1 * p.val = 512 * t.val + p.val; rw [e0]; omega
  | ⟨1, _⟩ => show win0_0.index t 1 * 1024 + 1 * k.val = k.val; rw [e1]; omega

/-- The first weight matrix's block is the matrix. -/
theorem iblk1_apply (c : Dev nD) (t : Fin cfg0.N) (k d : Fin 1024) :
    (Qkv.iblk V c 1 t : Vec Ideal S1024x1024 .f32) (ix2 k d) = (V c main_arg1 : S1024x1024.Idx → EReal) (ix2 k d) := by
  obtain ⟨-, ⟨e0, e1⟩, -⟩ := idx_facts t
  unfold Qkv.iblk
  rw [View.read_apply]
  show V c main_arg1 _ = V c main_arg1 _
  congr 1
  funext a
  apply Fin.ext
  match a with
  | ⟨0, _⟩ => show win0_1.index t 0 * 1024 + 1 * k.val = k.val; rw [e0]; omega
  | ⟨1, _⟩ => show win0_1.index t 1 * 1024 + 1 * d.val = d.val; rw [e1]; omega

/-- The second weight matrix's block is the matrix. -/
theorem iblk2_apply (c : Dev nD) (t : Fin cfg0.N) (k d : Fin 1024) :
    (Qkv.iblk V c 2 t : Vec Ideal S1024x1024 .f32) (ix2 k d) = (V c main_arg2 : S1024x1024.Idx → EReal) (ix2 k d) := by
  obtain ⟨-, -, ⟨e0, e1⟩, -⟩ := idx_facts t
  unfold Qkv.iblk
  rw [View.read_apply]
  show V c main_arg2 _ = V c main_arg2 _
  congr 1
  funext a
  apply Fin.ext
  match a with
  | ⟨0, _⟩ => show win0_2.index t 0 * 1024 + 1 * k.val = k.val; rw [e0]; omega
  | ⟨1, _⟩ => show win0_2.index t 1 * 1024 + 1 * d.val = d.val; rw [e1]; omega

/-- The third weight matrix's block is the matrix. -/
theorem iblk3_apply (c : Dev nD) (t : Fin cfg0.N) (k d : Fin 1024) :
    (Qkv.iblk V c 3 t : Vec Ideal S1024x1024 .f32) (ix2 k d) = (V c main_arg3 : S1024x1024.Idx → EReal) (ix2 k d) := by
  obtain ⟨-, -, -, ⟨e0, e1⟩, -⟩ := idx_facts t
  unfold Qkv.iblk
  rw [View.read_apply]
  show V c main_arg3 _ = V c main_arg3 _
  congr 1
  funext a
  apply Fin.ext
  match a with
  | ⟨0, _⟩ => show win0_3.index t 0 * 1024 + 1 * k.val = k.val; rw [e0]; omega
  | ⟨1, _⟩ => show win0_3.index t 1 * 1024 + 1 * d.val = d.val; rw [e1]; omega

/-- A block of products is a block of the whole product: the sum at row p, column d of block tv is the whole product's at
    row 512 tv + p, column d. Over variables of the literal types. -/
theorem block_eq (X : S8192x1024.Idx → EReal) (Wt : S1024x1024.Idx → EReal) (tv : Nat) (ht : tv < 16)
    (x : Vec Ideal S512x1024 .f32) (w : Vec Ideal S1024x1024 .f32)
    (hx : ∀ (p : Fin 512) (k : Fin 1024), x (ix2 p k) = X (ix2 ⟨512 * tv + p.val, by omega⟩ k))
    (hw : ∀ k d : Fin 1024, w (ix2 k d) = Wt (ix2 k d))
    (p : Fin 512) (d : Fin 1024) (i : S8192x1024.Idx) (hi0 : (i 0).val = 512 * tv + p.val) (hi1 : (i 1).val = d.val) :
    (∑ k : Fin 1024, x (ix2 p k) * w (ix2 k d)) = rowsTimes X Wt i := by
  unfold rowsTimes
  refine Finset.sum_congr rfl fun k _ => ?_
  rw [hx, hw]
  congr 2
  · funext a; apply Fin.ext; match a with
    | ⟨0, _⟩ => exact hi0.symm
    | ⟨1, _⟩ => rfl
  · funext a; apply Fin.ext; match a with
    | ⟨0, _⟩ => rfl
    | ⟨1, _⟩ => exact hi1.symm

/-- What point t writes back to the query array is block t of the flattened input times the first weight matrix. -/
theorem flushed4_eq (c : Dev nD) (t : Fin cfg0.N) :
    (Qkv.dat V c).flushed 4 t = ((cfg0.win 4).blk t).view.read (Elt Ideal) (rowsTimes (V c main_v0) (V c main_arg1)) := by
  show (cfg0.win 4).cut (grid0.coords t) ((Qkv.dat V c).after 4 t) = _
  rw [Qkv.after_4]
  obtain ⟨-, -, -, -, ⟨e0, e1⟩, -⟩ := idx_facts t
  funext j
  have hj : (cfg0.win 4).xinj (grid0.coords t) j = ix2 (⟨(j 0).val, (j 0).isLt⟩ : Fin 512) (⟨(j 1).val, (j 1).isLt⟩ : Fin 1024) := by
    funext a; match a with | ⟨0, _⟩ => rfl | ⟨1, _⟩ => rfl
  show Qkv.outQ (Qkv.iblk V c 0 t) (Qkv.iblk V c 1 t) ((cfg0.win 4).xinj (grid0.coords t) j)
    = rowsTimes (V c main_v0) (V c main_arg1) (((cfg0.win 4).blk t).view.emb j)
  refine (congrArg (Qkv.outQ (Qkv.iblk V c 0 t) (Qkv.iblk V c 1 t)) hj).trans ?_
  refine (outQ_apply (Qkv.iblk V c 0 t) (Qkv.iblk V c 1 t) ⟨(j 0).val, (j 0).isLt⟩ ⟨(j 1).val, (j 1).isLt⟩).trans ?_
  refine block_eq (V c main_v0) (V c main_arg1) t.val (t_lt t) (Qkv.iblk V c 0 t) (Qkv.iblk V c 1 t)
    (iblk0_apply V c t) (iblk1_apply V c t) ⟨(j 0).val, (j 0).isLt⟩ ⟨(j 1).val, (j 1).isLt⟩ (((cfg0.win 4).blk t).view.emb j) ?_ ?_
  · show win0_4.index t 0 * 512 + 1 * (j 0).val = 512 * t.val + (j 0).val; rw [e0]; omega
  · show win0_4.index t 1 * 1024 + 1 * (j 1).val = (j 1).val; rw [e1]; omega

/-- What point t writes back to the key array is block t of the flattened input times the second weight matrix. -/
theorem flushed5_eq (c : Dev nD) (t : Fin cfg0.N) :
    (Qkv.dat V c).flushed 5 t = ((cfg0.win 5).blk t).view.read (Elt Ideal) (rowsTimes (V c main_v0) (V c main_arg2)) := by
  show (cfg0.win 5).cut (grid0.coords t) ((Qkv.dat V c).after 5 t) = _
  rw [Qkv.after_5]
  obtain ⟨-, -, -, -, -, ⟨e0, e1⟩, -⟩ := idx_facts t
  funext j
  have hj : (cfg0.win 5).xinj (grid0.coords t) j = ix2 (⟨(j 0).val, (j 0).isLt⟩ : Fin 512) (⟨(j 1).val, (j 1).isLt⟩ : Fin 1024) := by
    funext a; match a with | ⟨0, _⟩ => rfl | ⟨1, _⟩ => rfl
  show Qkv.outK (Qkv.iblk V c 0 t) (Qkv.iblk V c 2 t) ((cfg0.win 5).xinj (grid0.coords t) j)
    = rowsTimes (V c main_v0) (V c main_arg2) (((cfg0.win 5).blk t).view.emb j)
  refine (congrArg (Qkv.outK (Qkv.iblk V c 0 t) (Qkv.iblk V c 2 t)) hj).trans ?_
  refine (outK_apply (Qkv.iblk V c 0 t) (Qkv.iblk V c 2 t) ⟨(j 0).val, (j 0).isLt⟩ ⟨(j 1).val, (j 1).isLt⟩).trans ?_
  refine block_eq (V c main_v0) (V c main_arg2) t.val (t_lt t) (Qkv.iblk V c 0 t) (Qkv.iblk V c 2 t)
    (iblk0_apply V c t) (iblk2_apply V c t) ⟨(j 0).val, (j 0).isLt⟩ ⟨(j 1).val, (j 1).isLt⟩ (((cfg0.win 5).blk t).view.emb j) ?_ ?_
  · show win0_5.index t 0 * 512 + 1 * (j 0).val = 512 * t.val + (j 0).val; rw [e0]; omega
  · show win0_5.index t 1 * 1024 + 1 * (j 1).val = (j 1).val; rw [e1]; omega

/-- What point t writes back to the value array is block t of the flattened input times the third weight matrix. -/
theorem flushed6_eq (c : Dev nD) (t : Fin cfg0.N) :
    (Qkv.dat V c).flushed 6 t = ((cfg0.win 6).blk t).view.read (Elt Ideal) (rowsTimes (V c main_v0) (V c main_arg3)) := by
  show (cfg0.win 6).cut (grid0.coords t) ((Qkv.dat V c).after 6 t) = _
  rw [Qkv.after_6]
  obtain ⟨-, -, -, -, -, -, ⟨e0, e1⟩⟩ := idx_facts t
  funext j
  have hj : (cfg0.win 6).xinj (grid0.coords t) j = ix2 (⟨(j 0).val, (j 0).isLt⟩ : Fin 512) (⟨(j 1).val, (j 1).isLt⟩ : Fin 1024) := by
    funext a; match a with | ⟨0, _⟩ => rfl | ⟨1, _⟩ => rfl
  show Qkv.outV (Qkv.iblk V c 0 t) (Qkv.iblk V c 3 t) ((cfg0.win 6).xinj (grid0.coords t) j)
    = rowsTimes (V c main_v0) (V c main_arg3) (((cfg0.win 6).blk t).view.emb j)
  refine (congrArg (Qkv.outV (Qkv.iblk V c 0 t) (Qkv.iblk V c 3 t)) hj).trans ?_
  refine (outV_apply (Qkv.iblk V c 0 t) (Qkv.iblk V c 3 t) ⟨(j 0).val, (j 0).isLt⟩ ⟨(j 1).val, (j 1).isLt⟩).trans ?_
  refine block_eq (V c main_v0) (V c main_arg3) t.val (t_lt t) (Qkv.iblk V c 0 t) (Qkv.iblk V c 3 t)
    (iblk0_apply V c t) (iblk3_apply V c t) ⟨(j 0).val, (j 0).isLt⟩ ⟨(j 1).val, (j 1).isLt⟩ (((cfg0.win 6).blk t).view.emb j) ?_ ?_
  · show win0_6.index t 0 * 512 + 1 * (j 0).val = 512 * t.val + (j 0).val; rw [e0]; omega
  · show win0_6.index t 1 * 1024 + 1 * (j 1).val = (j 1).val; rw [e1]; omega

/-- A row and column of the query array lie in point t's block when the row lies in rows 512 t .. 512 t + 511. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v1_0).slice (win0_4.rect t)).set ↔ _
  rw [View.set_slice_whole, Rect.mem_set_unit]
  exact Iff.rfl

/-- The query array after the region: the flattened input times the first weight matrix. Row r is written by
    point r / 512. -/
theorem final4 (c : Dev nD) : (Qkv.dat V c).arrAt 4 cfg0.N = rowsTimes (V c main_v0) (V c main_arg1) :=
  (Qkv.dat V c).arrAt_eq_of_cover 4 (rowsTimes (V c main_v0) (V c main_arg1)) (fun t _ => flushed4_eq V c t) fun i => by
    have hi0 : (i 0).val < 8192 := (i 0).isLt
    have hi1 : (i 1).val < 1024 := (i 1).isLt
    obtain ⟨t, ht⟩ : ∃ t : Fin cfg0.N, t.val = (i 0).val / 512 :=
      ⟨⟨(i 0).val / 512, lt_of_lt_of_eq (show (i 0).val / 512 < 16 by omega) N_0.symm⟩, rfl⟩
    obtain ⟨-, -, -, -, ⟨e0, e1⟩, -⟩ := idx_facts t
    refine ⟨t, flush0_4 t, ?_⟩
    rw [mem_blk4]
    intro a
    match a with
    | ⟨0, _⟩ => show win0_4.index t 0 * 512 ≤ (i 0).val ∧ (i 0).val < win0_4.index t 0 * 512 + 512; rw [e0]; omega
    | ⟨1, _⟩ => show win0_4.index t 1 * 1024 ≤ (i 1).val ∧ (i 1).val < win0_4.index t 1 * 1024 + 1024; rw [e1]; omega

/-- A row and column of the key array lie in point t's block when the row lies in rows 512 t .. 512 t + 511. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v1_1).slice (win0_5.rect t)).set ↔ _
  rw [View.set_slice_whole, Rect.mem_set_unit]
  exact Iff.rfl

/-- The key array after the region: the flattened input times the second weight matrix. Row r is written by
    point r / 512. -/
theorem final5 (c : Dev nD) : (Qkv.dat V c).arrAt 5 cfg0.N = rowsTimes (V c main_v0) (V c main_arg2) :=
  (Qkv.dat V c).arrAt_eq_of_cover 5 (rowsTimes (V c main_v0) (V c main_arg2)) (fun t _ => flushed5_eq V c t) fun i => by
    have hi0 : (i 0).val < 8192 := (i 0).isLt
    have hi1 : (i 1).val < 1024 := (i 1).isLt
    obtain ⟨t, ht⟩ : ∃ t : Fin cfg0.N, t.val = (i 0).val / 512 :=
      ⟨⟨(i 0).val / 512, lt_of_lt_of_eq (show (i 0).val / 512 < 16 by omega) N_0.symm⟩, rfl⟩
    obtain ⟨-, -, -, -, -, ⟨e0, e1⟩, -⟩ := idx_facts t
    refine ⟨t, flush0_5 t, ?_⟩
    rw [mem_blk5]
    intro a
    match a with
    | ⟨0, _⟩ => show win0_5.index t 0 * 512 ≤ (i 0).val ∧ (i 0).val < win0_5.index t 0 * 512 + 512; rw [e0]; omega
    | ⟨1, _⟩ => show win0_5.index t 1 * 1024 ≤ (i 1).val ∧ (i 1).val < win0_5.index t 1 * 1024 + 1024; rw [e1]; omega

/-- A row and column of the value array lie in point t's block when the row lies in rows 512 t .. 512 t + 511. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v1_2).slice (win0_6.rect t)).set ↔ _
  rw [View.set_slice_whole, Rect.mem_set_unit]
  exact Iff.rfl

/-- The value array after the region: the flattened input times the third weight matrix. Row r is written by
    point r / 512. -/
theorem final6 (c : Dev nD) : (Qkv.dat V c).arrAt 6 cfg0.N = rowsTimes (V c main_v0) (V c main_arg3) :=
  (Qkv.dat V c).arrAt_eq_of_cover 6 (rowsTimes (V c main_v0) (V c main_arg3)) (fun t _ => flushed6_eq V c t) fun i => by
    have hi0 : (i 0).val < 8192 := (i 0).isLt
    have hi1 : (i 1).val < 1024 := (i 1).isLt
    obtain ⟨t, ht⟩ : ∃ t : Fin cfg0.N, t.val = (i 0).val / 512 :=
      ⟨⟨(i 0).val / 512, lt_of_lt_of_eq (show (i 0).val / 512 < 16 by omega) N_0.symm⟩, rfl⟩
    obtain ⟨-, -, -, -, -, -, ⟨e0, e1⟩⟩ := idx_facts t
    refine ⟨t, flush0_6 t, ?_⟩
    rw [mem_blk6]
    intro a
    match a with
    | ⟨0, _⟩ => show win0_6.index t 0 * 512 ≤ (i 0).val ∧ (i 0).val < win0_6.index t 0 * 512 + 512; rw [e0]; omega
    | ⟨1, _⟩ => show win0_6.index t 1 * 1024 ≤ (i 1).val ∧ (i 1).val < win0_6.index t 1 * 1024 + 1024; rw [e1]; omega

/-! ## The host reshapes, read at an index -/

variable (m : (ℓ : Loc nD τ sig) → Buf (Elt Ideal) ℓ)

/-- The region is entered with the flattened input: row r is row r % 2048 of batch r / 2048. -/
theorem U1_main_v0 (c : Dev nD) (r : Fin 8192) (k : Fin 1024) :
    (Run.U1 (F := Ideal) m c main_v0 : S8192x1024.Idx → EReal) (ix2 r k)
      = (m ((c : Thread nD τ).loc main_arg0) : S4x2048x1024.Idx → EReal)
          (ix3 (⟨r.val / 2048, by have := r.isLt; omega⟩ : Fin 4) (⟨r.val % 2048, by omega⟩ : Fin 2048) k) := by
  have e : (Run.U1 (F := Ideal) m c main_v0 : S8192x1024.Idx → EReal)
      = shapeCast S8192x1024 (m ((c : Thread nD τ).loc main_arg0) : S4x2048x1024.Idx → EReal) shapeCasts_S4x2048x1024_S8192x1024 := by
    show StableHlo.after hostOps0 (Run.W0 m c) (Proc.devRef .tc main_v0) = _
    after_results
    rfl
  rw [e]
  refine shapeCast_apply (s := S4x2048x1024) (t := S8192x1024) _ _ _ _ ?_
  rw [Shape.rowMajor_val_two, Shape.rowMajor_val_three]
  show (r.val / 2048 * 2048 + r.val % 2048) * 1024 + k.val = r.val * 1024 + k.val
  have := r.isLt
  omega

/-- No host operation before the region writes the weight matrix main_arg1. -/
theorem U1_main_arg1 (c : Dev nD) : Run.U1 (F := Ideal) m c main_arg1 = m ((c : Thread nD τ).loc main_arg1) :=
  StableHlo.after_of_writes_sub hostOps0 _ hostOps0_writes (r := main_arg1) (by decide)

/-- No host operation before the region writes the weight matrix main_arg2. -/
theorem U1_main_arg2 (c : Dev nD) : Run.U1 (F := Ideal) m c main_arg2 = m ((c : Thread nD τ).loc main_arg2) :=
  StableHlo.after_of_writes_sub hostOps0 _ hostOps0_writes (r := main_arg2) (by decide)

/-- No host operation before the region writes the weight matrix main_arg3. -/
theorem U1_main_arg3 (c : Dev nD) : Run.U1 (F := Ideal) m c main_arg3 = m ((c : Thread nD τ).loc main_arg3) :=
  StableHlo.after_of_writes_sub hostOps0 _ hostOps0_writes (r := main_arg3) (by decide)

/-- The attention region is entered with the query array reshaped: batch b, row t is row 2048 b + t. -/
theorem U3_main_v2 (c : Dev nD) (b : Fin 4) (t : Fin 2048) (d : Fin 1024) :
    (Run.U3 (F := Ideal) m c main_v2 : S4x2048x1024.Idx → EReal) (ix3 b t d)
      = ((Qkv.dat (Run.U1 (F := Ideal) m) c).arrAt 4 cfg0.N : S8192x1024.Idx → EReal)
          (ix2 (⟨2048 * b.val + t.val, by have := b.isLt; have := t.isLt; omega⟩ : Fin 8192) d) := by
  have e : (Run.U3 (F := Ideal) m c main_v2 : S4x2048x1024.Idx → EReal)
      = shapeCast S4x2048x1024 (Run.W2 (F := Ideal) m c (Proc.devRef .tc main_v1_0) : S8192x1024.Idx → EReal) shapeCasts_S8192x1024_S4x2048x1024 := by
    show StableHlo.after hostOps1 (Run.W2 m c) (Proc.devRef .tc main_v2) = _
    after_results
    rfl
  rw [e, show Run.W2 (F := Ideal) m c (Proc.devRef .tc main_v1_0) = (Qkv.dat (Run.U1 (F := Ideal) m) c).arrAt 4 cfg0.N from Run.W2_arr m c 4]
  refine shapeCast_apply (s := S8192x1024) (t := S4x2048x1024) _ _ _ _ ?_
  rw [Shape.rowMajor_val_two, Shape.rowMajor_val_three]
  show (2048 * b.val + t.val) * 1024 + d.val = (b.val * 2048 + t.val) * 1024 + d.val
  omega

/-- The attention region is entered with the key array reshaped: batch b, row t is row 2048 b + t. -/
theorem U3_main_v3 (c : Dev nD) (b : Fin 4) (t : Fin 2048) (d : Fin 1024) :
    (Run.U3 (F := Ideal) m c main_v3 : S4x2048x1024.Idx → EReal) (ix3 b t d)
      = ((Qkv.dat (Run.U1 (F := Ideal) m) c).arrAt 5 cfg0.N : S8192x1024.Idx → EReal)
          (ix2 (⟨2048 * b.val + t.val, by have := b.isLt; have := t.isLt; omega⟩ : Fin 8192) d) := by
  have e : (Run.U3 (F := Ideal) m c main_v3 : S4x2048x1024.Idx → EReal)
      = shapeCast S4x2048x1024 (Run.W2 (F := Ideal) m c (Proc.devRef .tc main_v1_1) : S8192x1024.Idx → EReal) shapeCasts_S8192x1024_S4x2048x1024 := by
    show StableHlo.after hostOps1 (Run.W2 m c) (Proc.devRef .tc main_v3) = _
    after_results
    rfl
  rw [e, show Run.W2 (F := Ideal) m c (Proc.devRef .tc main_v1_1) = (Qkv.dat (Run.U1 (F := Ideal) m) c).arrAt 5 cfg0.N from Run.W2_arr m c 5]
  refine shapeCast_apply (s := S8192x1024) (t := S4x2048x1024) _ _ _ _ ?_
  rw [Shape.rowMajor_val_two, Shape.rowMajor_val_three]
  show (2048 * b.val + t.val) * 1024 + d.val = (b.val * 2048 + t.val) * 1024 + d.val
  omega

/-- The attention region is entered with the value array reshaped: batch b, row t is row 2048 b + t. -/
theorem U3_main_v4 (c : Dev nD) (b : Fin 4) (t : Fin 2048) (d : Fin 1024) :
    (Run.U3 (F := Ideal) m c main_v4 : S4x2048x1024.Idx → EReal) (ix3 b t d)
      = ((Qkv.dat (Run.U1 (F := Ideal) m) c).arrAt 6 cfg0.N : S8192x1024.Idx → EReal)
          (ix2 (⟨2048 * b.val + t.val, by have := b.isLt; have := t.isLt; omega⟩ : Fin 8192) d) := by
  have e : (Run.U3 (F := Ideal) m c main_v4 : S4x2048x1024.Idx → EReal)
      = shapeCast S4x2048x1024 (Run.W2 (F := Ideal) m c (Proc.devRef .tc main_v1_2) : S8192x1024.Idx → EReal) shapeCasts_S8192x1024_S4x2048x1024 := by
    show StableHlo.after hostOps1 (Run.W2 m c) (Proc.devRef .tc main_v4) = _
    after_results
    rfl
  rw [e, show Run.W2 (F := Ideal) m c (Proc.devRef .tc main_v1_2) = (Qkv.dat (Run.U1 (F := Ideal) m) c).arrAt 6 cfg0.N from Run.W2_arr m c 6]
  refine shapeCast_apply (s := S8192x1024) (t := S4x2048x1024) _ _ _ _ ?_
  rw [Shape.rowMajor_val_two, Shape.rowMajor_val_three]
  show (2048 * b.val + t.val) * 1024 + d.val = (b.val * 2048 + t.val) * 1024 + d.val
  omega

/-! ## The three arrays the attention region is entered with -/

/-- The query array the attention region is entered with is the projection of the launch input by the first weight matrix. -/
theorem q_eq (c : Dev nD) : Cert.KernelIdeal.Run.U3 (F := Ideal) m c main_v2 = fun i =>
    Cert.Spec.proj (m ((c : Thread nD τ).loc main_arg0)) (m ((c : Thread nD τ).loc main_arg1)) ⟨(i 0).val, (i 0).isLt⟩ ⟨(i 1).val, (i 1).isLt⟩ ⟨(i 2).val, (i 2).isLt⟩ := by
  funext i
  obtain ⟨b, t, d, rfl⟩ : ∃ (b : Fin 4) (t : Fin 2048) (d : Fin 1024), i = ix3 b t d := ⟨i 0, i 1, i 2, eq_ix3 i⟩
  refine (U3_main_v2 m c b t d).trans ?_
  rw [final4]
  show @Eq EReal _ _
  unfold rowsTimes Cert.Spec.proj
  refine Finset.sum_congr rfl fun k _ => ?_
  rw [U1_main_v0, U1_main_arg1]
  have hb := b.isLt
  have ht := t.isLt
  congr 2
  funext a; apply Fin.ext; match a with
    | ⟨0, _⟩ => show (2048 * b.val + t.val) / 2048 = b.val; omega
    | ⟨1, _⟩ => show (2048 * b.val + t.val) % 2048 = t.val; omega
    | ⟨2, _⟩ => rfl

/-- The key array is its projection by the second weight matrix. -/
theorem k_eq (c : Dev nD) : Cert.KernelIdeal.Run.U3 (F := Ideal) m c main_v3 = fun i =>
    Cert.Spec.proj (m ((c : Thread nD τ).loc main_arg0)) (m ((c : Thread nD τ).loc main_arg2)) ⟨(i 0).val, (i 0).isLt⟩ ⟨(i 1).val, (i 1).isLt⟩ ⟨(i 2).val, (i 2).isLt⟩ := by
  funext i
  obtain ⟨b, t, d, rfl⟩ : ∃ (b : Fin 4) (t : Fin 2048) (d : Fin 1024), i = ix3 b t d := ⟨i 0, i 1, i 2, eq_ix3 i⟩
  refine (U3_main_v3 m c b t d).trans ?_
  rw [final5]
  show @Eq EReal _ _
  unfold rowsTimes Cert.Spec.proj
  refine Finset.sum_congr rfl fun k _ => ?_
  rw [U1_main_v0, U1_main_arg2]
  have hb := b.isLt
  have ht := t.isLt
  congr 2
  funext a; apply Fin.ext; match a with
    | ⟨0, _⟩ => show (2048 * b.val + t.val) / 2048 = b.val; omega
    | ⟨1, _⟩ => show (2048 * b.val + t.val) % 2048 = t.val; omega
    | ⟨2, _⟩ => rfl

/-- The value array is its projection by the third weight matrix. -/
theorem v_eq (c : Dev nD) : Cert.KernelIdeal.Run.U3 (F := Ideal) m c main_v4 = fun i =>
    Cert.Spec.proj (m ((c : Thread nD τ).loc main_arg0)) (m ((c : Thread nD τ).loc main_arg3)) ⟨(i 0).val, (i 0).isLt⟩ ⟨(i 1).val, (i 1).isLt⟩ ⟨(i 2).val, (i 2).isLt⟩ := by
  funext i
  obtain ⟨b, t, d, rfl⟩ : ∃ (b : Fin 4) (t : Fin 2048) (d : Fin 1024), i = ix3 b t d := ⟨i 0, i 1, i 2, eq_ix3 i⟩
  refine (U3_main_v4 m c b t d).trans ?_
  rw [final6]
  show @Eq EReal _ _
  unfold rowsTimes Cert.Spec.proj
  refine Finset.sum_congr rfl fun k _ => ?_
  rw [U1_main_v0, U1_main_arg3]
  have hb := b.isLt
  have ht := t.isLt
  congr 2
  funext a; apply Fin.ext; match a with
    | ⟨0, _⟩ => show (2048 * b.val + t.val) / 2048 = b.val; omega
    | ⟨1, _⟩ => show (2048 * b.val + t.val) % 2048 = t.val; omega
    | ⟨2, _⟩ => rfl

end Cert.KernelIdeal.QkvValue

end
-- ==== Proof.AttnPieces.lean ====
/-
  One step of the streaming softmax as pure functions of the blocks and of the running maximum m, sum l and weighted
  sum acc (each a column or a block of a 512-row query tile): the reset (m = minus infinity, l = 0, acc = 0); a key
  tile accumulated (m' the larger of m and the tile's row maxima; l' = exp(m - m') l + the row sums of exp(s - m');
  acc' = exp(m - m') acc + exp(s - m') times the value block); a key tile of zero scores in closed form
  (m' = max m 0; l' = exp(m - m') l + 512 exp(-m'); acc' = exp(m - m') acc + exp(-m') times the column sums of the
  value block); and the quotient acc / l. What each case of the body leaves in each buffer is one of these.
-/
import proofs.«140165_j15401752723638_2_alg».proof.Proof.AttnRegion
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a whole block. -/
theorem hz3 : (![0, 0, 0] : Fin 3 → ℕ) = fun _ => 0 := by funext a; fin_cases a <;> rfl

/-! ## The steps -/

/-- A key tile accumulated: the new running maximum, -/
def mU (a1 a2 : BitVec 32) (q k : Vec F S1x512x1024 .bf16) (m : Vec F S1x512x1 .f32) : Vec F S1x512x1 .f32 :=
  k1_pay8 (k1_pay17 a1 a2 (k1_pay4 q) (k1_pay5 k) m)
/-- the new running sum, -/
def lU (a1 a2 : BitVec 32) (q k : Vec F S1x512x1024 .bf16) (m l : Vec F S1x512x1 .f32) : Vec F S1x512x1 .f32 :=
  k1_pay20 a1 a2 (k1_pay4 q) (k1_pay5 k) m m l
/-- and the new running weighted sum. -/
def aU (a1 a2 : BitVec 32) (q k v : Vec F S1x512x1024 .bf16) (m : Vec F S1x512x1 .f32) (acc : Vec F S1x512x1024 .f32) : Vec F S1x512x1024 .f32 :=
  k1_pay7 v (k1_pay21 a1 a2 (k1_pay4 q) (k1_pay5 k) m m acc) (k1_pay22 a1 a2 (k1_pay4 q) (k1_pay5 k) m) (constant S1x512x1024 .f32 0x00000000#32)
/-- A key tile of zero scores, in closed form: the new running maximum, -/
def mM (m : Vec F S1x512x1 .f32) : Vec F S1x512x1 .f32 := k1_pay15 m
/-- the new running sum, -/
def lM (m l : Vec F S1x512x1 .f32) : Vec F S1x512x1 .f32 := k1_pay13 m m l
/-- and the new running weighted sum. -/
def aM (v : Vec F S1x512x1024 .bf16) (m : Vec F S1x512x1 .f32) (acc : Vec F S1x512x1024 .f32) : Vec F S1x512x1024 .f32 :=
  k1_pay14 (k1_pay6 v) m m acc
/-- The quotient stored at the last key tile. -/
def quot (acc : Vec F S1x512x1024 .f32) (l : Vec F S1x512x1 .f32) : Vec F S1x512x1024 .f32 := k1_pay9 acc l

/-! ## What each case leaves is a step -/

theorem sout_A_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) :
    sout_A_0 c i arg3 harg3 arg4 harg4 arg5 harg5 arg6 harg6 arg7 harg7 arg8 harg8 arg9 harg9 hc0 hc1 hc2 hc3 x0 x1 x2 = mU (BitVec.ofNat 32 (i 1).val) (BitVec.ofNat 32 (i 2).val) x0 x1 k1_pay1 := by
  unfold sout_A_0
  rw [View.read_writes_eq_canon _ _ _ (scover_A_0 c i arg3 harg3 arg4 harg4 arg5 harg5 arg6 harg6 arg7 harg7 arg8 harg8 arg9 harg9 hc0 hc1 hc2 hc3 x0 x1 x2)]
  unfold runA
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_A_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) :
    sout_A_1 c i arg3 harg3 arg4 harg4 arg5 harg5 arg6 harg6 arg7 harg7 arg8 harg8 arg9 harg9 hc0 hc1 hc2 hc3 x0 x1 x2 = lU (BitVec.ofNat 32 (i 1).val) (BitVec.ofNat 32 (i 2).val) x0 x1 k1_pay1 k1_pay2 := by
  unfold sout_A_1
  rw [View.read_writes_eq_canon _ _ _ (scover_A_1 c i arg3 harg3 arg4 harg4 arg5 harg5 arg6 harg6 arg7 harg7 arg8 harg8 arg9 harg9 hc0 hc1 hc2 hc3 x0 x1 x2)]
  unfold runA
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_A_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond0 i) (hc1 : ¬cond1 i) (hc2 : cond2 i) (hc3 : ¬cond3 i)
    (x0 x1 x2 : Vec F S1x512x1024 .bf16) :
    sout_A_2 c i arg3 harg3 arg4 harg4 arg5 harg5 arg6 harg6 arg7 harg7 arg8 harg8 arg9 harg9 hc0 hc1 hc2 hc3 x0 x1 x2 = aU (BitVec.ofNat 32 (i 1).val) (BitVec.ofNat 32 (i 2).val) x0 x1 x2 k1_pay1 k1_pay3 := by
  unfold sout_A_2
  rw [View.read_writes_eq_canon _ _ _ (scover_A_2 c i arg3 harg3 arg4 harg4 arg5 harg5 arg6 harg6 arg7 harg7 arg8 harg8 arg9 harg9 hc0 hc1 hc2 hc3 x0 x1 x2)]
  unfold runA
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_B_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) :
    sout_B_0 c i arg3 harg3 arg4 harg4 arg5 harg5 arg6 harg6 arg7 harg7 arg8 harg8 arg9 harg9 hc0 hc1 hc2 hc3 x0 x1 x2 xs0 xs1 xs2 = mM xs0 := by
  unfold sout_B_0
  rw [View.read_writes_eq_canon _ _ _ (scover_B_0 c i arg3 harg3 arg4 harg4 arg5 harg5 arg6 harg6 arg7 harg7 arg8 harg8 arg9 harg9 hc0 hc1 hc2 hc3 x0 x1 x2 xs0 xs1 xs2)]
  unfold runB
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_B_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) :
    sout_B_1 c i arg3 harg3 arg4 harg4 arg5 harg5 arg6 harg6 arg7 harg7 arg8 harg8 arg9 harg9 hc0 hc1 hc2 hc3 x0 x1 x2 xs0 xs1 xs2 = lM xs0 xs1 := by
  unfold sout_B_1
  rw [View.read_writes_eq_canon _ _ _ (scover_B_1 c i arg3 harg3 arg4 harg4 arg5 harg5 arg6 harg6 arg7 harg7 arg8 harg8 arg9 harg9 hc0 hc1 hc2 hc3 x0 x1 x2 xs0 xs1 xs2)]
  unfold runB
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_B_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : ¬cond3 i)
    (x0 x1 x2 : Vec F S1x512x1024 .bf16) (xs0 : Vec F S1x512x1 .f32) (xs1 : Vec F S1x512x1 .f32) (xs2 : Vec F S1x512x1024 .f32) :
    sout_B_2 c i arg3 harg3 arg4 harg4 arg5 harg5 arg6 harg6 arg7 harg7 arg8 harg8 arg9 harg9 hc0 hc1 hc2 hc3 x0 x1 x2 xs0 xs1 xs2 = aM x2 xs0 xs2 := by
  unfold sout_B_2
  rw [View.read_writes_eq_canon _ _ _ (scover_B_2 c i arg3 harg3 arg4 harg4 arg5 harg5 arg6 harg6 arg7 harg7 arg8 harg8 arg9 harg9 hc0 hc1 hc2 hc3 x0 x1 x2 xs0 xs1 xs2)]
  unfold runB
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_C_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) :
    sout_C_0 c i arg3 harg3 arg4 harg4 arg5 harg5 arg6 harg6 arg7 harg7 arg8 harg8 arg9 harg9 hc0 hc1 hc2 hc3 x0 x1 x2 xs0 xs1 xs2 = mU (BitVec.ofNat 32 (i 1).val) (BitVec.ofNat 32 (i 2).val) x0 x1 xs0 := by
  unfold sout_C_0
  rw [View.read_writes_eq_canon _ _ _ (scover_C_0 c i arg3 harg3 arg4 harg4 arg5 harg5 arg6 harg6 arg7 harg7 arg8 harg8 arg9 harg9 hc0 hc1 hc2 hc3 x0 x1 x2 xs0 xs1 xs2)]
  unfold runC
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_C_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) :
    sout_C_1 c i arg3 harg3 arg4 harg4 arg5 harg5 arg6 harg6 arg7 harg7 arg8 harg8 arg9 harg9 hc0 hc1 hc2 hc3 x0 x1 x2 xs0 xs1 xs2 = lU (BitVec.ofNat 32 (i 1).val) (BitVec.ofNat 32 (i 2).val) x0 x1 xs0 xs1 := by
  unfold sout_C_1
  rw [View.read_writes_eq_canon _ _ _ (scover_C_1 c i arg3 harg3 arg4 harg4 arg5 harg5 arg6 harg6 arg7 harg7 arg8 harg8 arg9 harg9 hc0 hc1 hc2 hc3 x0 x1 x2 xs0 xs1 xs2)]
  unfold runC
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_C_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : ¬cond3 i)
    (x0 x1 x2 : Vec F S1x512x1024 .bf16) (xs0 : Vec F S1x512x1 .f32) (xs1 : Vec F S1x512x1 .f32) (xs2 : Vec F S1x512x1024 .f32) :
    sout_C_2 c i arg3 harg3 arg4 harg4 arg5 harg5 arg6 harg6 arg7 harg7 arg8 harg8 arg9 harg9 hc0 hc1 hc2 hc3 x0 x1 x2 xs0 xs1 xs2 = aU (BitVec.ofNat 32 (i 1).val) (BitVec.ofNat 32 (i 2).val) x0 x1 x2 xs0 xs2 := by
  unfold sout_C_2
  rw [View.read_writes_eq_canon _ _ _ (scover_C_2 c i arg3 harg3 arg4 harg4 arg5 harg5 arg6 harg6 arg7 harg7 arg8 harg8 arg9 harg9 hc0 hc1 hc2 hc3 x0 x1 x2 xs0 xs1 xs2)]
  unfold runC
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_D_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) :
    sout_D_0 c i arg3 harg3 arg4 harg4 arg5 harg5 arg6 harg6 arg7 harg7 arg8 harg8 arg9 harg9 hc0 hc1 hc2 hc3 x0 x1 x2 xs0 xs1 xs2 = mM xs0 := by
  unfold sout_D_0
  rw [View.read_writes_eq_canon _ _ _ (scover_D_0 c i arg3 harg3 arg4 harg4 arg5 harg5 arg6 harg6 arg7 harg7 arg8 harg8 arg9 harg9 hc0 hc1 hc2 hc3 x0 x1 x2 xs0 xs1 xs2)]
  unfold runD
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_D_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) :
    sout_D_1 c i arg3 harg3 arg4 harg4 arg5 harg5 arg6 harg6 arg7 harg7 arg8 harg8 arg9 harg9 hc0 hc1 hc2 hc3 x0 x1 x2 xs0 xs1 xs2 = lM xs0 xs1 := by
  unfold sout_D_1
  rw [View.read_writes_eq_canon _ _ _ (scover_D_1 c i arg3 harg3 arg4 harg4 arg5 harg5 arg6 harg6 arg7 harg7 arg8 harg8 arg9 harg9 hc0 hc1 hc2 hc3 x0 x1 x2 xs0 xs1 xs2)]
  unfold runD
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_D_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) :
    sout_D_2 c i arg3 harg3 arg4 harg4 arg5 harg5 arg6 harg6 arg7 harg7 arg8 harg8 arg9 harg9 hc0 hc1 hc2 hc3 x0 x1 x2 xs0 xs1 xs2 = aM x2 xs0 xs2 := by
  unfold sout_D_2
  rw [View.read_writes_eq_canon _ _ _ (scover_D_2 c i arg3 harg3 arg4 harg4 arg5 harg5 arg6 harg6 arg7 harg7 arg8 harg8 arg9 harg9 hc0 hc1 hc2 hc3 x0 x1 x2 xs0 xs1 xs2)]
  unfold runD
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem out_D_3_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : cond1 i) (hc2 : ¬cond2 i) (hc3 : cond3 i)
    (x0 x1 x2 : Vec F S1x512x1024 .bf16) (xs0 : Vec F S1x512x1 .f32) (xs1 : Vec F S1x512x1 .f32) (xs2 : Vec F S1x512x1024 .f32) :
    out_D_3 c i arg3 harg3 arg4 harg4 arg5 harg5 arg6 harg6 arg7 harg7 arg8 harg8 arg9 harg9 hc0 hc1 hc2 hc3 x0 x1 x2 xs0 xs1 xs2 = quot (aM x2 xs0 xs2) (lM xs0 xs1) := by
  unfold out_D_3
  rw [View.read_writes_eq_canon _ _ _ (cover_D_3 c i arg3 harg3 arg4 harg4 arg5 harg5 arg6 harg6 arg7 harg7 arg8 harg8 arg9 harg9 hc0 hc1 hc2 hc3 x0 x1 x2 xs0 xs1 xs2)]
  unfold runD
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_E_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) :
    sout_E_0 c i arg3 harg3 arg4 harg4 arg5 harg5 arg6 harg6 arg7 harg7 arg8 harg8 arg9 harg9 hc0 hc1 hc2 hc3 x0 x1 x2 xs0 xs1 xs2 = mU (BitVec.ofNat 32 (i 1).val) (BitVec.ofNat 32 (i 2).val) x0 x1 xs0 := by
  unfold sout_E_0
  rw [View.read_writes_eq_canon _ _ _ (scover_E_0 c i arg3 harg3 arg4 harg4 arg5 harg5 arg6 harg6 arg7 harg7 arg8 harg8 arg9 harg9 hc0 hc1 hc2 hc3 x0 x1 x2 xs0 xs1 xs2)]
  unfold runE
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_E_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) :
    sout_E_1 c i arg3 harg3 arg4 harg4 arg5 harg5 arg6 harg6 arg7 harg7 arg8 harg8 arg9 harg9 hc0 hc1 hc2 hc3 x0 x1 x2 xs0 xs1 xs2 = lU (BitVec.ofNat 32 (i 1).val) (BitVec.ofNat 32 (i 2).val) x0 x1 xs0 xs1 := by
  unfold sout_E_1
  rw [View.read_writes_eq_canon _ _ _ (scover_E_1 c i arg3 harg3 arg4 harg4 arg5 harg5 arg6 harg6 arg7 harg7 arg8 harg8 arg9 harg9 hc0 hc1 hc2 hc3 x0 x1 x2 xs0 xs1 xs2)]
  unfold runE
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem sout_E_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) :
    sout_E_2 c i arg3 harg3 arg4 harg4 arg5 harg5 arg6 harg6 arg7 harg7 arg8 harg8 arg9 harg9 hc0 hc1 hc2 hc3 x0 x1 x2 xs0 xs1 xs2 = aU (BitVec.ofNat 32 (i 1).val) (BitVec.ofNat 32 (i 2).val) x0 x1 x2 xs0 xs2 := by
  unfold sout_E_2
  rw [View.read_writes_eq_canon _ _ _ (scover_E_2 c i arg3 harg3 arg4 harg4 arg5 harg5 arg6 harg6 arg7 harg7 arg8 harg8 arg9 harg9 hc0 hc1 hc2 hc3 x0 x1 x2 xs0 xs1 xs2)]
  unfold runE
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl
theorem out_E_3_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond0 i) (hc1 : ¬cond1 i) (hc2 : cond2 i) (hc3 : cond3 i)
    (x0 x1 x2 : Vec F S1x512x1024 .bf16) (xs0 : Vec F S1x512x1 .f32) (xs1 : Vec F S1x512x1 .f32) (xs2 : Vec F S1x512x1024 .f32) :
    out_E_3 c i arg3 harg3 arg4 harg4 arg5 harg5 arg6 harg6 arg7 harg7 arg8 harg8 arg9 harg9 hc0 hc1 hc2 hc3 x0 x1 x2 xs0 xs1 xs2 = quot (aU (BitVec.ofNat 32 (i 1).val) (BitVec.ofNat 32 (i 2).val) x0 x1 x2 xs0 xs2) (lU (BitVec.ofNat 32 (i 1).val) (BitVec.ofNat 32 (i 2).val) x0 x1 xs0 xs1) := by
  unfold out_E_3
  rw [View.read_writes_eq_canon _ _ _ (cover_E_3 c i arg3 harg3 arg4 harg4 arg5 harg5 arg6 harg6 arg7 harg7 arg8 harg8 arg9 harg9 hc0 hc1 hc2 hc3 x0 x1 x2 xs0 xs1 xs2)]
  unfold runE
  dsimp only
  sl_unfold_run_names
  rw [View.canon_cons_unit_zero hz3]
  simp only [View.readAt_eq_ld, harg3.read_unread, harg4.read_unread, harg5.read_unread, harg6.read_unread, harg7.read_unread, harg8.read_unread, harg9.read_unread,
    View.ld_unit_zero (S := S1x512x1024) hz3, View.ld_unit_zero (S := S1x512x1) hz3,
    View.readCov_unit_zero (S := S1x512x1024) _ hz3, View.readCov_unit_zero (S := S1x512x1) _ hz3]
  rfl

end Cert.KernelIdeal.Attn

end
-- ==== Proof.AttnState.lean ====
/-
  The scratch after each grid point, through the steps of the streaming softmax: at key tile 0 the reset followed by
  the tile accumulated; at a later key tile the closed form or the accumulation of what the point before left; and at
  key tile 3 the result block is the quotient of the new weighted sum by the new sum.
-/
import proofs.«140165_j15401752723638_2_alg».proof.Proof.AttnPieces

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A point's query-tile and key-tile numbers, as the body's 32-bit words. -/
abbrev qiW (t : Fin cfg1.N) : BitVec 32 := BitVec.ofNat 32 ((grid1.coords t) 1).val
abbrev kiW (t : Fin cfg1.N) : BitVec 32 := BitVec.ofNat 32 ((grid1.coords t) 2).val
/-- What the point before left. -/
abbrev prev (c : Dev nD) (t : Fin cfg1.N) : Vec F S1x512x1024 .f32 × Vec F S1x512x1 .f32 × Vec F S1x512x1 .f32 × Vec F S1x512x1024 .f32 :=
  outsAt V c (t.val - 1) (Nat.lt_of_le_of_lt (Nat.sub_le _ _) t.isLt)

theorem state_A (c : Dev nD) (t : Fin cfg1.N) (h0 : t.val % 4 = 0) :
    (outsAt V c t.val t.isLt).2 = (mU (qiW t) (kiW t) (iblk V c 0 t) (iblk V c 1 t) k1_pay1, lU (qiW t) (kiW t) (iblk V c 0 t) (iblk V c 1 t) k1_pay1 k1_pay2, aU (qiW t) (kiW t) (iblk V c 0 t) (iblk V c 1 t) (iblk V c 2 t) k1_pay1 k1_pay3) := by
  rw [outsAt_A V c t h0]; unfold atA; dsimp only
  rw [sout_A_0_eq, sout_A_1_eq, sout_A_2_eq]
theorem state_B (c : Dev nD) (t : Fin cfg1.N) (h0 : ¬t.val % 4 = 0) (h3 : ¬t.val % 4 = 3) (h1 : (t.val / 4) % 4 < t.val % 4) :
    (outsAt V c t.val t.isLt).2 = (mM (prev V c t).2.1, lM (prev V c t).2.1 (prev V c t).2.2.1, aM (iblk V c 2 t) (prev V c t).2.1 (prev V c t).2.2.2) := by
  rw [outsAt_B V c t h0 h3 h1]; unfold atB; dsimp only
  rw [sout_B_0_eq, sout_B_1_eq, sout_B_2_eq]
theorem state_C (c : Dev nD) (t : Fin cfg1.N) (h0 : ¬t.val % 4 = 0) (h3 : ¬t.val % 4 = 3) (h1 : ¬(t.val / 4) % 4 < t.val % 4) :
    (outsAt V c t.val t.isLt).2 = (mU (qiW t) (kiW t) (iblk V c 0 t) (iblk V c 1 t) (prev V c t).2.1, lU (qiW t) (kiW t) (iblk V c 0 t) (iblk V c 1 t) (prev V c t).2.1 (prev V c t).2.2.1, aU (qiW t) (kiW t) (iblk V c 0 t) (iblk V c 1 t) (iblk V c 2 t) (prev V c t).2.1 (prev V c t).2.2.2) := by
  rw [outsAt_C V c t h0 h3 h1]; unfold atC; dsimp only
  rw [sout_C_0_eq, sout_C_1_eq, sout_C_2_eq]
theorem state_D (c : Dev nD) (t : Fin cfg1.N) (h0 : ¬t.val % 4 = 0) (h3 : t.val % 4 = 3) (h1 : (t.val / 4) % 4 < t.val % 4) :
    (outsAt V c t.val t.isLt).2 = (mM (prev V c t).2.1, lM (prev V c t).2.1 (prev V c t).2.2.1, aM (iblk V c 2 t) (prev V c t).2.1 (prev V c t).2.2.2) := by
  rw [outsAt_D V c t h0 h3 h1]; unfold atD; dsimp only
  rw [sout_D_0_eq, sout_D_1_eq, sout_D_2_eq]
theorem out_D (c : Dev nD) (t : Fin cfg1.N) (h0 : ¬t.val % 4 = 0) (h3 : t.val % 4 = 3) (h1 : (t.val / 4) % 4 < t.val % 4) :
    (outsAt V c t.val t.isLt).1 = quot (aM (iblk V c 2 t) (prev V c t).2.1 (prev V c t).2.2.2) (lM (prev V c t).2.1 (prev V c t).2.2.1) := by
  rw [outsAt_D V c t h0 h3 h1]; unfold atD; dsimp only
  rw [out_D_3_eq]
theorem state_E (c : Dev nD) (t : Fin cfg1.N) (h0 : ¬t.val % 4 = 0) (h3 : t.val % 4 = 3) (h1 : ¬(t.val / 4) % 4 < t.val % 4) :
    (outsAt V c t.val t.isLt).2 = (mU (qiW t) (kiW t) (iblk V c 0 t) (iblk V c 1 t) (prev V c t).2.1, lU (qiW t) (kiW t) (iblk V c 0 t) (iblk V c 1 t) (prev V c t).2.1 (prev V c t).2.2.1, aU (qiW t) (kiW t) (iblk V c 0 t) (iblk V c 1 t) (iblk V c 2 t) (prev V c t).2.1 (prev V c t).2.2.2) := by
  rw [outsAt_E V c t h0 h3 h1]; unfold atE; dsimp only
  rw [sout_E_0_eq, sout_E_1_eq, sout_E_2_eq]
theorem out_E (c : Dev nD) (t : Fin cfg1.N) (h0 : ¬t.val % 4 = 0) (h3 : t.val % 4 = 3) (h1 : ¬(t.val / 4) % 4 < t.val % 4) :
    (outsAt V c t.val t.isLt).1 = quot (aU (qiW t) (kiW t) (iblk V c 0 t) (iblk V c 1 t) (iblk V c 2 t) (prev V c t).2.1 (prev V c t).2.2.2) (lU (qiW t) (kiW t) (iblk V c 0 t) (iblk V c 1 t) (prev V c t).2.1 (prev V c t).2.2.1) := by
  rw [outsAt_E V c t h0 h3 h1]; unfold atE; dsimp only
  rw [out_E_3_eq]

end Cert.KernelIdeal.Attn

end
-- ==== Proof.LibLane3.lean ====
/-
  Rank-3 arrays read at an index by coordinates: the two ways a matrix becomes a rank-3 array with a unit axis
  (a column of rows [a, b] → [a, b, 1], a row of rows [a, b] → [a, 1, b]), the three broadcasts of a rank-3 array with
  one unit axis to the full box, and the reductions along the LAST axis (a fold of `max`, a sum) written over that
  axis's coordinate.  All shapes are literal-rank with variable extents, so the lemmas do not change with a tiling.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLane3

open Idealize.ShloMosaic Idealize.ShloMosaic.ValueIdx

variable {α : Type}

/-- An `[a, b]` array cast to `[a, b, 1]` reads, at `(i, j, u)`, the operand at `(i, j)`: both flatten to `i·b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one lane of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row at `(i, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Reducing `[a, b, c]` along its last axis: the index `(i, j)` of the result with the coordinate `k` put back is `(i, j, k)`. -/
theorem lift_last {a b c : ℕ} (h : (⟨3, ![a, b, c]⟩ : Shape).Reduces [(2 : Fin 3)] ⟨2, ![a, b]⟩) (i : Fin a) (j : Fin b) (k : Fin c) :
    h.lift (ix2 i j) k = ix3 i j k := by
  funext ax
  match ax with
  | ⟨0, _⟩ => exact Fin.ext rfl
  | ⟨1, _⟩ => exact Fin.ext rfl
  | ⟨2, _⟩ => exact Fin.ext rfl

variable {φ : FTy}

/-- The maximum along the last axis of an `[a, b, c]` array of extended reals, at `(i, j)`: the fold of `max` from the
    accumulator's value over the lane coordinate. -/
theorem laneMax_apply {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (j : Fin b) :
    multiReduction .maximumf [(2 : Fin 3)] ⟨2, ![a, b]⟩ src acc h hφ hacc (ix2 i j)
      = (Finset.univ : Finset (Fin c)).fold max (Ideal.ofBits φ acc) (fun k => src (ix3 i j k)) := by
  rw [Ideal.multiReduction_maximumf_single]
  have e : (src ∘ h.lift (ix2 i j)) = fun k => src (ix3 i j k) := funext fun k => congrArg src (lift_last h i j k)
  rw [e]
  rfl

/-- The sum along the last axis of an `[a, b, c]` array of extended reals, at `(i, j)`. -/
theorem laneSum_apply {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (j : Fin b) :
    multiReduction .add [(2 : Fin 3)] ⟨2, ![a, b]⟩ src acc h hφ hacc (ix2 i j) = ∑ k : Fin c, src (ix3 i j k) := by
  rw [Ideal.multiReduction_add_single]
  exact Finset.sum_congr rfl fun k _ => congrArg src (lift_last h i j k)

end Cert.LibLane3

end
-- ==== Proof.AttnRows.lean ====
/-
  The steps of the streaming softmax read row by row on extended reals. For query row r of a tile: the scaled, masked
  score against key row i of a key tile (the dot product over the width times 1/32 where the key's position does not
  exceed the query's, zero elsewhere); after a tile is accumulated the new maximum is the larger of the old one and
  the tile's scores, the old sum and weighted sum are rescaled by exp(old maximum - new maximum) and the tile's
  exp(score - new maximum), alone or times the value rows, are added; after a tile of zero scores the same with
  every score zero, in closed form (512 exp(-m'), exp(-m') times the column sums of the values); and the result is
  the weighted sum over the sum.
-/
import proofs.«140165_j15401752723638_2_alg».proof.Proof.AttnState
import proofs.«140165_j15401752723638_2_alg».proof.Proof.LibLane3
import Idealize.ShloMosaic.Lib.ValueIdx
import Idealize.ShloMosaic.Lib.Pipeline.Value
import Idealize.ShloMosaic.PureOps.Ideal.Laws
import Idealize.ShloMosaic.Lib.WordArith

set_option maxRecDepth 16384

noncomputable section

open scoped BigOperators

namespace Cert.KernelIdeal.Attn

open Cert.KernelIdeal Cert.KernelIdeal.Gen Cert.LibLane3
open Idealize.ShloMosaic Idealize.ShloMosaic.ValueIdx

/-! ## The two matrix products of a key tile, read at an entry -/

theorem lhs_qk_0 (j : S1x512x512.Idx) (q : dot_S1x512x1024_S1x512x1024_S1x512x512_2_2_1_1_0_0.contr.Idx) :
    (dot_S1x512x1024_S1x512x1024_S1x512x512_2_2_1_1_0_0.lhsIdx j q 0).val = (j 0).val := by
  unfold DotDims.lhsIdx
  rw [dif_pos (show (0 : Fin S1x512x1024.rank) ∈ dot_S1x512x1024_S1x512x1024_S1x512x512_2_2_1_1_0_0.lhsBatch by decide)]
  rfl
theorem lhs_qk_1 (j : S1x512x512.Idx) (q : dot_S1x512x1024_S1x512x1024_S1x512x512_2_2_1_1_0_0.contr.Idx) :
    (dot_S1x512x1024_S1x512x1024_S1x512x512_2_2_1_1_0_0.lhsIdx j q 1).val = (j 1).val := by
  unfold DotDims.lhsIdx
  rw [dif_neg (show ¬(1 : Fin S1x512x1024.rank) ∈ dot_S1x512x1024_S1x512x1024_S1x512x512_2_2_1_1_0_0.lhsBatch by decide), dif_pos (show (1 : Fin S1x512x1024.rank) ∈ dot_S1x512x1024_S1x512x1024_S1x512x512_2_2_1_1_0_0.lhsNonContracting by decide)]
  rfl
theorem lhs_qk_2 (j : S1x512x512.Idx) (q : dot_S1x512x1024_S1x512x1024_S1x512x512_2_2_1_1_0_0.contr.Idx) :
    (dot_S1x512x1024_S1x512x1024_S1x512x512_2_2_1_1_0_0.lhsIdx j q 2).val = (q ⟨0, by decide⟩).val :=
  dot_S1x512x1024_S1x512x1024_S1x512x512_2_2_1_1_0_0.lhsIdx_val_of_single rfl j q
theorem rhs_qk_0 (j : S1x512x512.Idx) (q : dot_S1x512x1024_S1x512x1024_S1x512x512_2_2_1_1_0_0.contr.Idx) :
    (dot_S1x512x1024_S1x512x1024_S1x512x512_2_2_1_1_0_0.rhsIdx j q 0).val = (j 0).val := by
  unfold DotDims.rhsIdx
  rw [dif_pos (show (0 : Fin S1x512x1024.rank) ∈ dot_S1x512x1024_S1x512x1024_S1x512x512_2_2_1_1_0_0.rhsBatch by decide)]
  rfl
theorem rhs_qk_1 (j : S1x512x512.Idx) (q : dot_S1x512x1024_S1x512x1024_S1x512x512_2_2_1_1_0_0.contr.Idx) :
    (dot_S1x512x1024_S1x512x1024_S1x512x512_2_2_1_1_0_0.rhsIdx j q 1).val = (j 2).val := by
  unfold DotDims.rhsIdx
  rw [dif_neg (show ¬(1 : Fin S1x512x1024.rank) ∈ dot_S1x512x1024_S1x512x1024_S1x512x512_2_2_1_1_0_0.rhsBatch by decide), dif_pos (show (1 : Fin S1x512x1024.rank) ∈ dot_S1x512x1024_S1x512x1024_S1x512x512_2_2_1_1_0_0.rhsNonContracting by decide)]
  rfl
theorem rhs_qk_2 (j : S1x512x512.Idx) (q : dot_S1x512x1024_S1x512x1024_S1x512x512_2_2_1_1_0_0.contr.Idx) :
    (dot_S1x512x1024_S1x512x1024_S1x512x512_2_2_1_1_0_0.rhsIdx j q 2).val = (q ⟨0, by decide⟩).val :=
  dot_S1x512x1024_S1x512x1024_S1x512x512_2_2_1_1_0_0.rhsIdx_val_of_single rfl j q

/-- Scores: query row r of the tile against key row i, contracted over the width. -/
theorem qk_apply (q k : FVec Ideal S1x512x1024 .bf16) (r i : Fin 512) :
    matmul dot_S1x512x1024_S1x512x1024_S1x512x512_2_2_1_1_0_0 none q k (constant S1x512x512 .f32 0x00000000#32) (ix3 (0 : Fin 1) r i)
      = ∑ e : Fin 1024, q (ix3 (0 : Fin 1) r e) * k (ix3 (0 : Fin 1) i e) := by
  simp only [matmul]
  rw [Ideal.matmul_constant_zero_apply, ← Equiv.sum_comp (ValueIdx.contrEquiv1 dot_S1x512x1024_S1x512x1024_S1x512x512_2_2_1_1_0_0 1024 rfl rfl).symm]
  refine Finset.sum_congr rfl fun e _ => ?_
  have hk := ValueIdx.contrEquiv1_symm_val dot_S1x512x1024_S1x512x1024_S1x512x512_2_2_1_1_0_0 1024 rfl rfl e
  have el : dot_S1x512x1024_S1x512x1024_S1x512x512_2_2_1_1_0_0.lhsIdx (ix3 (0 : Fin 1) r i) ((ValueIdx.contrEquiv1 dot_S1x512x1024_S1x512x1024_S1x512x512_2_2_1_1_0_0 1024 rfl rfl).symm e) = ix3 (0 : Fin 1) r e := funext fun a => Fin.ext (by
    match a with
    | ⟨0, _⟩ => exact lhs_qk_0 _ _
    | ⟨1, _⟩ => exact lhs_qk_1 _ _
    | ⟨2, _⟩ => exact (lhs_qk_2 _ _).trans hk)
  have er : dot_S1x512x1024_S1x512x1024_S1x512x512_2_2_1_1_0_0.rhsIdx (ix3 (0 : Fin 1) r i) ((ValueIdx.contrEquiv1 dot_S1x512x1024_S1x512x1024_S1x512x512_2_2_1_1_0_0 1024 rfl rfl).symm e) = ix3 (0 : Fin 1) i e := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_pv_0 (j : S1x512x1024.Idx) (q : dot_S1x512x512_S1x512x1024_S1x512x1024_2_1_1_2_0_0.contr.Idx) :
    (dot_S1x512x512_S1x512x1024_S1x512x1024_2_1_1_2_0_0.lhsIdx j q 0).val = (j 0).val := by
  unfold DotDims.lhsIdx
  rw [dif_pos (show (0 : Fin S1x512x512.rank) ∈ dot_S1x512x512_S1x512x1024_S1x512x1024_2_1_1_2_0_0.lhsBatch by decide)]
  rfl
theorem lhs_pv_1 (j : S1x512x1024.Idx) (q : dot_S1x512x512_S1x512x1024_S1x512x1024_2_1_1_2_0_0.contr.Idx) :
    (dot_S1x512x512_S1x512x1024_S1x512x1024_2_1_1_2_0_0.lhsIdx j q 1).val = (j 1).val := by
  unfold DotDims.lhsIdx
  rw [dif_neg (show ¬(1 : Fin S1x512x512.rank) ∈ dot_S1x512x512_S1x512x1024_S1x512x1024_2_1_1_2_0_0.lhsBatch by decide), dif_pos (show (1 : Fin S1x512x512.rank) ∈ dot_S1x512x512_S1x512x1024_S1x512x1024_2_1_1_2_0_0.lhsNonContracting by decide)]
  rfl
theorem lhs_pv_2 (j : S1x512x1024.Idx) (q : dot_S1x512x512_S1x512x1024_S1x512x1024_2_1_1_2_0_0.contr.Idx) :
    (dot_S1x512x512_S1x512x1024_S1x512x1024_2_1_1_2_0_0.lhsIdx j q 2).val = (q ⟨0, by decide⟩).val :=
  dot_S1x512x512_S1x512x1024_S1x512x1024_2_1_1_2_0_0.lhsIdx_val_of_single rfl j q
theorem rhs_pv_0 (j : S1x512x1024.Idx) (q : dot_S1x512x512_S1x512x1024_S1x512x1024_2_1_1_2_0_0.contr.Idx) :
    (dot_S1x512x512_S1x512x1024_S1x512x1024_2_1_1_2_0_0.rhsIdx j q 0).val = (j 0).val := by
  unfold DotDims.rhsIdx
  rw [dif_pos (show (0 : Fin S1x512x1024.rank) ∈ dot_S1x512x512_S1x512x1024_S1x512x1024_2_1_1_2_0_0.rhsBatch by decide)]
  rfl
theorem rhs_pv_1 (j : S1x512x1024.Idx) (q : dot_S1x512x512_S1x512x1024_S1x512x1024_2_1_1_2_0_0.contr.Idx) :
    (dot_S1x512x512_S1x512x1024_S1x512x1024_2_1_1_2_0_0.rhsIdx j q 1).val = (q ⟨0, by decide⟩).val :=
  dot_S1x512x512_S1x512x1024_S1x512x1024_2_1_1_2_0_0.rhsIdx_val_of_single rfl j q
theorem rhs_pv_2 (j : S1x512x1024.Idx) (q : dot_S1x512x512_S1x512x1024_S1x512x1024_2_1_1_2_0_0.contr.Idx) :
    (dot_S1x512x512_S1x512x1024_S1x512x1024_2_1_1_2_0_0.rhsIdx j q 2).val = (j 2).val := by
  unfold DotDims.rhsIdx
  rw [dif_neg (show ¬(2 : Fin S1x512x1024.rank) ∈ dot_S1x512x512_S1x512x1024_S1x512x1024_2_1_1_2_0_0.rhsBatch by decide), dif_pos (show (2 : Fin S1x512x1024.rank) ∈ dot_S1x512x512_S1x512x1024_S1x512x1024_2_1_1_2_0_0.rhsNonContracting by decide)]
  rfl

/-- Weighted values: row r of the weights against column d of the value tile, contracted over the tile's 512 key rows. -/
theorem pv_apply (p : FVec Ideal S1x512x512 .bf16) (v : FVec Ideal S1x512x1024 .bf16) (r : Fin 512) (d : Fin 1024) :
    matmul dot_S1x512x512_S1x512x1024_S1x512x1024_2_1_1_2_0_0 none p v (constant S1x512x1024 .f32 0x00000000#32) (ix3 (0 : Fin 1) r d)
      = ∑ i : Fin 512, p (ix3 (0 : Fin 1) r i) * v (ix3 (0 : Fin 1) i d) := by
  simp only [matmul]
  rw [Ideal.matmul_constant_zero_apply, ← Equiv.sum_comp (ValueIdx.contrEquiv1 dot_S1x512x512_S1x512x1024_S1x512x1024_2_1_1_2_0_0 512 rfl rfl).symm]
  refine Finset.sum_congr rfl fun e _ => ?_
  have hk := ValueIdx.contrEquiv1_symm_val dot_S1x512x512_S1x512x1024_S1x512x1024_2_1_1_2_0_0 512 rfl rfl e
  have el : dot_S1x512x512_S1x512x1024_S1x512x1024_2_1_1_2_0_0.lhsIdx (ix3 (0 : Fin 1) r d) ((ValueIdx.contrEquiv1 dot_S1x512x512_S1x512x1024_S1x512x1024_2_1_1_2_0_0 512 rfl rfl).symm e) = ix3 (0 : Fin 1) r e := funext fun a => Fin.ext (by
    match a with
    | ⟨0, _⟩ => exact lhs_pv_0 _ _
    | ⟨1, _⟩ => exact lhs_pv_1 _ _
    | ⟨2, _⟩ => exact (lhs_pv_2 _ _).trans hk)
  have er : dot_S1x512x512_S1x512x1024_S1x512x1024_2_1_1_2_0_0.rhsIdx (ix3 (0 : Fin 1) r d) ((ValueIdx.contrEquiv1 dot_S1x512x512_S1x512x1024_S1x512x1024_2_1_1_2_0_0 512 rfl rfl).symm e) = ix3 (0 : Fin 1) e d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-! ## The literals -/

theorem negInf_f32 : Ideal.ofBits .f32 0xFF800000#32 = (⊥ : EReal) := by
  simp [Ideal.ofBits, Ideal.ieee]
theorem gamma_f32 : Ideal.ofBits .f32 0x3D000000#32 = ((1 / 32 : ℝ) : EReal) := by
  simp [Ideal.ofBits, Ideal.ieee, -EReal.coe_mul]; norm_num
theorem c512_f32 : Ideal.ofBits .f32 0x44000000#32 = ((512 : ℝ) : EReal) := by
  simp [Ideal.ofBits, Ideal.ieee, -EReal.coe_mul]; norm_num

/-! ## The causal mask's bit -/

/-- Two small natural numbers compare as signed 32-bit words as they do as numbers. -/
theorem sle_ofNat_small (x y : ℕ) (hx : x < 2 ^ 31) (hy : y < 2 ^ 31) :
    (BitVec.ofNat 32 x).sle (BitVec.ofNat 32 y) = decide (x ≤ y) := by
  rw [Bool.eq_iff_iff, BitVec.sle_iff_toInt_le, WordArith.toInt_ofNat_small x hx, WordArith.toInt_ofNat_small y hy, decide_eq_true_iff]
  exact Int.ofNat_le

/-- Column 512 ki + i of the key axis against row 512 qi + r of the query axis. -/
theorem mask_bit (qi ki : ℕ) (hq : qi < 4) (hk : ki < 4) (r i : Fin 512) :
    IntOp.cmpi .sle (IntOp.addi (BitVec.ofNat 32 i.val) (Scalar.muli (BitVec.ofNat 32 ki) 512#32))
        (IntOp.addi (BitVec.ofNat 32 r.val) (Scalar.muli (BitVec.ofNat 32 qi) 512#32))
      = BitVec.ofBool (decide (i.val + ki * 512 ≤ r.val + qi * 512)) := by
  have e1 : IntOp.addi (BitVec.ofNat 32 i.val) (Scalar.muli (BitVec.ofNat 32 ki) 512#32) = BitVec.ofNat 32 (i.val + ki * 512) := by
    simp only [IntOp.addi, Scalar.muli, IntOp.muli]
    rw [show (512#32 : BitVec 32) = BitVec.ofNat 32 512 from rfl, ← BitVec.ofNat_mul, ← BitVec.ofNat_add]
  have e2 : IntOp.addi (BitVec.ofNat 32 r.val) (Scalar.muli (BitVec.ofNat 32 qi) 512#32) = BitVec.ofNat 32 (r.val + qi * 512) := by
    simp only [IntOp.addi, Scalar.muli, IntOp.muli]
    rw [show (512#32 : BitVec 32) = BitVec.ofNat 32 512 from rfl, ← BitVec.ofNat_mul, ← BitVec.ofNat_add]
  rw [e1, e2]
  simp only [IntOp.cmpi]
  rw [sle_ofNat_small _ _ (by have := i.isLt; omega) (by have := r.isLt; omega)]

/-! ## The scaled, masked score of a tile entry -/

/-- Query row r of the tile against key row i: the dot product over the width times 1/32 where the key's position
    does not exceed the query's, zero elsewhere. -/
def scAt (a1 a2 : BitVec 32) (q k : Vec Ideal S1x512x1024 .bf16) (r i : Fin 512) : EReal :=
  Scalar.select (IntOp.cmpi .sle (IntOp.addi (BitVec.ofNat 32 i.val) (Scalar.muli a2 512#32)) (IntOp.addi (BitVec.ofNat 32 r.val) (Scalar.muli a1 512#32)))
    ((∑ e : Fin 1024, q (ix3 (0 : Fin 1) r e) * k (ix3 (0 : Fin 1) i e)) * Ideal.ofBits .f32 0x3D000000#32) (Ideal.ofBits .f32 0x00000000#32)

theorem pay16_apply (a1 a2 : BitVec 32) (q k : Vec Ideal S1x512x1024 .bf16) (r i : Fin 512) :
    k1_pay16 a1 a2 (k1_pay4 q) (k1_pay5 k) (ix3 (0 : Fin 1) r i) = scAt a1 a2 q k r i := by
  unfold k1_pay16 k1_pay4 k1_pay5 scAt
  simp only [select_apply, mulf_apply, broadcast_apply, shapeCast_self, qk_apply]
  show Scalar.select (IntOp.cmpi .sle (IntOp.addi (iota .tc S1x512x512 32 [2] iota_S1x512x512_d2_w32 (ix3 (0 : Fin 1) r i)) (Scalar.muli a2 512#32))
      (IntOp.addi (iota .tc S1x512x512 32 [1] iota_S1x512x512_d1_w32 (ix3 (0 : Fin 1) r i)) (Scalar.muli a1 512#32))) _ _ = _
  rw [iota_single_apply, iota_single_apply]
  rfl

/-! ## The steps, row by row -/

/-- A fold of max from minus infinity is the supremum. -/
theorem fold_max_bot {ι : Type} [Fintype ι] (f : ι → EReal) :
    (Finset.univ : Finset ι).fold max (⊥ : EReal) f = Finset.univ.sup f := rfl

theorem pay1_apply (r : Fin 512) : (k1_pay1 (F := Ideal)) (ix3 (0 : Fin 1) r (0 : Fin 1)) = (⊥ : EReal) := by
  unfold k1_pay1; simp only [shapeCast_self, broadcast_apply]; exact negInf_f32
theorem pay2_apply (r : Fin 512) : (k1_pay2 (F := Ideal)) (ix3 (0 : Fin 1) r (0 : Fin 1)) = (0 : EReal) := by
  unfold k1_pay2; simp only [shapeCast_self, broadcast_apply]; exact Ideal.ofBits_zero_f32
theorem pay3_apply (r : Fin 512) (d : Fin 1024) : (k1_pay3 (F := Ideal)) (ix3 (0 : Fin 1) r d) = (0 : EReal) := by
  unfold k1_pay3; simp only [shapeCast_self, broadcast_apply]; exact Ideal.ofBits_zero_f32

theorem vexp_apply {s : Shape} {φ : FTy} (x : FVec Ideal s φ) (i : s.Idx) : exp x i = Ideal.exp (x i) := rfl

/-- The largest of the old maximum and the tile's row maximum. -/
theorem pay17_row (a1 a2 : BitVec 32) (q k : Vec Ideal S1x512x1024 .bf16) (m : Vec Ideal S1x512x1 .f32) (r : Fin 512) :
    k1_pay17 a1 a2 (k1_pay4 q) (k1_pay5 k) m (ix3 (0 : Fin 1) r (0 : Fin 1)) = (max (m (ix3 (0 : Fin 1) r (0 : Fin 1))) (Finset.univ.sup fun i : Fin 512 => scAt a1 a2 q k r i)) := by
  unfold k1_pay17
  simp only [maximumf_apply]
  refine congrArg (max _) ?_
  refine (shapeCast_ab_ab1_apply _ _ (0 : Fin 1) r (0 : Fin 1)).trans ?_
  refine (laneMax_apply _ _ _ _ _ (0 : Fin 1) r).trans ?_
  rw [negInf_f32, fold_max_bot]
  simp only [pay16_apply]

/-- The new running maximum of row r after a tile is accumulated. -/
theorem mU_row (a1 a2 : BitVec 32) (q k : Vec Ideal S1x512x1024 .bf16) (m : Vec Ideal S1x512x1 .f32) (r : Fin 512) :
    mU a1 a2 q k m (ix3 (0 : Fin 1) r (0 : Fin 1)) = (max (m (ix3 (0 : Fin 1) r (0 : Fin 1))) (Finset.univ.sup fun i : Fin 512 => scAt a1 a2 q k r i)) := by
  unfold mU k1_pay8
  simp only [shapeCast_self]
  exact pay17_row a1 a2 q k m r

/-- The rescaling factor of the old sums. -/
theorem pay18_row (a1 a2 : BitVec 32) (q k : Vec Ideal S1x512x1024 .bf16) (m : Vec Ideal S1x512x1 .f32) (r : Fin 512) :
    k1_pay18 a1 a2 (k1_pay4 q) (k1_pay5 k) m m (ix3 (0 : Fin 1) r (0 : Fin 1)) = Ideal.exp (m (ix3 (0 : Fin 1) r (0 : Fin 1)) - (max (m (ix3 (0 : Fin 1) r (0 : Fin 1))) (Finset.univ.sup fun i : Fin 512 => scAt a1 a2 q k r i))) := by
  unfold k1_pay18
  simp only [vexp_apply, subf_apply, pay17_row]

/-- The tile's unnormalised weights. -/
theorem pay19_apply (a1 a2 : BitVec 32) (q k : Vec Ideal S1x512x1024 .bf16) (m : Vec Ideal S1x512x1 .f32) (r i : Fin 512) :
    k1_pay19 a1 a2 (k1_pay4 q) (k1_pay5 k) m (ix3 (0 : Fin 1) r i) = Ideal.exp (scAt a1 a2 q k r i - (max (m (ix3 (0 : Fin 1) r (0 : Fin 1))) (Finset.univ.sup fun i : Fin 512 => scAt a1 a2 q k r i))) := by
  unfold k1_pay19
  simp only [vexp_apply, subf_apply, pay16_apply]
  refine congrArg (fun z => Ideal.exp (scAt a1 a2 q k r i - z)) ?_
  refine (broadcastTo_ab1_abc_apply _ _ (0 : Fin 1) r i).trans ?_
  exact pay17_row a1 a2 q k m r

/-- The new running sum of row r after a tile is accumulated. -/
theorem lU_row (a1 a2 : BitVec 32) (q k : Vec Ideal S1x512x1024 .bf16) (m l : Vec Ideal S1x512x1 .f32) (r : Fin 512) :
    lU a1 a2 q k m l (ix3 (0 : Fin 1) r (0 : Fin 1))
      = Ideal.exp (m (ix3 (0 : Fin 1) r (0 : Fin 1)) - (max (m (ix3 (0 : Fin 1) r (0 : Fin 1))) (Finset.univ.sup fun i : Fin 512 => scAt a1 a2 q k r i))) * l (ix3 (0 : Fin 1) r (0 : Fin 1)) + ∑ i : Fin 512, Ideal.exp (scAt a1 a2 q k r i - (max (m (ix3 (0 : Fin 1) r (0 : Fin 1))) (Finset.univ.sup fun i : Fin 512 => scAt a1 a2 q k r i))) := by
  unfold lU k1_pay20
  simp only [shapeCast_self, addf_apply, mulf_apply, pay18_row]
  refine congrArg (fun z => Ideal.exp (m (ix3 (0 : Fin 1) r (0 : Fin 1)) - (max (m (ix3 (0 : Fin 1) r (0 : Fin 1))) (Finset.univ.sup fun i : Fin 512 => scAt a1 a2 q k r i))) * l (ix3 (0 : Fin 1) r (0 : Fin 1)) + z) ?_
  refine (shapeCast_ab_ab1_apply _ _ (0 : Fin 1) r (0 : Fin 1)).trans ?_
  refine (laneSum_apply _ _ _ _ _ (0 : Fin 1) r).trans ?_
  exact Finset.sum_congr rfl fun i _ => pay19_apply a1 a2 q k m r i

/-- The new running weighted sum at row r, column d, after a tile is accumulated. -/
theorem aU_row (a1 a2 : BitVec 32) (q k v : Vec Ideal S1x512x1024 .bf16) (m : Vec Ideal S1x512x1 .f32) (acc : Vec Ideal S1x512x1024 .f32)
    (r : Fin 512) (d : Fin 1024) :
    aU a1 a2 q k v m acc (ix3 (0 : Fin 1) r d)
      = Ideal.exp (m (ix3 (0 : Fin 1) r (0 : Fin 1)) - (max (m (ix3 (0 : Fin 1) r (0 : Fin 1))) (Finset.univ.sup fun i : Fin 512 => scAt a1 a2 q k r i))) * acc (ix3 (0 : Fin 1) r d)
        + ∑ i : Fin 512, Ideal.exp (scAt a1 a2 q k r i - (max (m (ix3 (0 : Fin 1) r (0 : Fin 1))) (Finset.univ.sup fun i : Fin 512 => scAt a1 a2 q k r i))) * v (ix3 (0 : Fin 1) i d) := by
  unfold aU k1_pay7
  simp only [shapeCast_self, addf_apply, pv_apply]
  refine congrArg₂ (· + ·) ?_ ?_
  · unfold k1_pay21
    simp only [mulf_apply]
    refine congrArg (· * acc (ix3 (0 : Fin 1) r d)) ?_
    refine (broadcastTo_ab1_abc_apply _ _ (0 : Fin 1) r d).trans ?_
    exact pay18_row a1 a2 q k m r
  · refine Finset.sum_congr rfl fun i _ => ?_
    unfold k1_pay22 k1_pay6
    simp only [truncf_apply, shapeCast_self, pay19_apply]

/-! ### A tile of zero scores -/

theorem pay10_row (m : Vec Ideal S1x512x1 .f32) (r : Fin 512) : k1_pay10 m (ix3 (0 : Fin 1) r (0 : Fin 1)) = (max (m (ix3 (0 : Fin 1) r (0 : Fin 1))) (0 : EReal)) := by
  unfold k1_pay10
  simp only [maximumf_apply, broadcast_apply]
  exact congrArg (max _) Ideal.ofBits_zero_f32
theorem mM_row (m : Vec Ideal S1x512x1 .f32) (r : Fin 512) : mM m (ix3 (0 : Fin 1) r (0 : Fin 1)) = (max (m (ix3 (0 : Fin 1) r (0 : Fin 1))) (0 : EReal)) := by
  unfold mM k1_pay15
  simp only [shapeCast_self]
  exact pay10_row m r
theorem pay11_row (m : Vec Ideal S1x512x1 .f32) (r : Fin 512) : k1_pay11 m m (ix3 (0 : Fin 1) r (0 : Fin 1)) = Ideal.exp (m (ix3 (0 : Fin 1) r (0 : Fin 1)) - (max (m (ix3 (0 : Fin 1) r (0 : Fin 1))) (0 : EReal))) := by
  unfold k1_pay11
  simp only [vexp_apply, subf_apply, pay10_row]
theorem pay12_row (m : Vec Ideal S1x512x1 .f32) (r : Fin 512) : k1_pay12 m (ix3 (0 : Fin 1) r (0 : Fin 1)) = Ideal.exp ((0 : EReal) - (max (m (ix3 (0 : Fin 1) r (0 : Fin 1))) (0 : EReal))) := by
  unfold k1_pay12
  simp only [vexp_apply, subf_apply, broadcast_apply, pay10_row]
  exact congrArg (fun z => Ideal.exp (z - (max (m (ix3 (0 : Fin 1) r (0 : Fin 1))) (0 : EReal)))) Ideal.ofBits_zero_f32
theorem lM_row (m l : Vec Ideal S1x512x1 .f32) (r : Fin 512) :
    lM m l (ix3 (0 : Fin 1) r (0 : Fin 1)) = Ideal.exp (m (ix3 (0 : Fin 1) r (0 : Fin 1)) - (max (m (ix3 (0 : Fin 1) r (0 : Fin 1))) (0 : EReal))) * l (ix3 (0 : Fin 1) r (0 : Fin 1)) + ((512 : ℝ) : EReal) * Ideal.exp ((0 : EReal) - (max (m (ix3 (0 : Fin 1) r (0 : Fin 1))) (0 : EReal))) := by
  unfold lM k1_pay13
  simp only [shapeCast_self, addf_apply, mulf_apply, broadcast_apply, pay11_row, pay12_row]
  exact congrArg (fun z => Ideal.exp (m (ix3 (0 : Fin 1) r (0 : Fin 1)) - (max (m (ix3 (0 : Fin 1) r (0 : Fin 1))) (0 : EReal))) * l (ix3 (0 : Fin 1) r (0 : Fin 1)) + z * Ideal.exp ((0 : EReal) - (max (m (ix3 (0 : Fin 1) r (0 : Fin 1))) (0 : EReal)))) c512_f32

/-- Summing a [1, 512, 1024] block over its middle axis: the reduced index (0, d) with the coordinate i put back is (0, i, d). -/
theorem lift_mid (h : S1x512x1024.Reduces [(1 : Fin 3)] S1x1024) (d : Fin 1024) (i : Fin 512) :
    h.lift (ix2 (0 : Fin 1) d) i = ix3 (0 : Fin 1) i d := by
  funext ax
  match ax with
  | ⟨0, _⟩ => exact Fin.ext rfl
  | ⟨1, _⟩ => exact Fin.ext rfl
  | ⟨2, _⟩ => exact Fin.ext rfl

theorem aM_row (v : Vec Ideal S1x512x1024 .bf16) (m : Vec Ideal S1x512x1 .f32) (acc : Vec Ideal S1x512x1024 .f32) (r : Fin 512) (d : Fin 1024) :
    aM v m acc (ix3 (0 : Fin 1) r d)
      = Ideal.exp (m (ix3 (0 : Fin 1) r (0 : Fin 1)) - (max (m (ix3 (0 : Fin 1) r (0 : Fin 1))) (0 : EReal))) * acc (ix3 (0 : Fin 1) r d)
        + Ideal.exp ((0 : EReal) - (max (m (ix3 (0 : Fin 1) r (0 : Fin 1))) (0 : EReal))) * ∑ i : Fin 512, v (ix3 (0 : Fin 1) i d) := by
  unfold aM k1_pay14
  simp only [shapeCast_self, addf_apply, mulf_apply]
  refine congrArg₂ (· + ·) ?_ ?_
  · refine congrArg (· * acc (ix3 (0 : Fin 1) r d)) ?_
    refine (broadcastTo_ab1_abc_apply _ _ (0 : Fin 1) r d).trans ?_
    exact pay11_row m r
  · refine congrArg₂ (· * ·) ?_ ?_
    · refine (broadcastTo_ab1_abc_apply _ _ (0 : Fin 1) r d).trans ?_
      exact pay12_row m r
    · refine (broadcastTo_a1c_abc_apply _ _ (0 : Fin 1) r d).trans ?_
      refine (shapeCast_ab_a1b_apply _ _ (0 : Fin 1) (0 : Fin 1) d).trans ?_
      refine (Ideal.multiReduction_add_single _ _ _ _ _ (ix2 (0 : Fin 1) d)).trans ?_
      show ∑ i : Fin 512, _ = _
      refine Finset.sum_congr rfl fun i _ => ?_
      rw [lift_mid]
      unfold k1_pay6
      simp only [extf_apply, shapeCast_self]

/-- The quotient stored at the last key tile. -/
theorem quot_row (acc : Vec Ideal S1x512x1024 .f32) (l : Vec Ideal S1x512x1 .f32) (r : Fin 512) (d : Fin 1024) :
    quot acc l (ix3 (0 : Fin 1) r d) = Ideal.div (acc (ix3 (0 : Fin 1) r d)) (l (ix3 (0 : Fin 1) r (0 : Fin 1))) := by
  unfold quot k1_pay9
  simp only [divf_apply]
  refine congrArg (Ideal.div (acc (ix3 (0 : Fin 1) r d))) ?_
  exact broadcastTo_ab1_abc_apply _ _ (0 : Fin 1) r d

end Cert.KernelIdeal.Attn
end
-- ==== Proof.LibTiledSoftmax.lean ====
/-
  The streaming ("online") softmax over four key tiles, on the extended reals.

  A query row keeps a running maximum m, a running sum of exponentials l and a running weighted sum a. A key tile of
  N scores s_i and values v_i is ACCUMULATED by
      m' = max m (sup_i s_i),   l' = exp (m - m') * l + sum_i exp (s_i - m'),
      a' = exp (m - m') * a + sum_i exp (s_i - m') * v_i,
  and a tile whose scores are all zero may instead take the CLOSED FORM
      m' = max m 0,   l' = exp (m - m') * l + N * exp (0 - m'),   a' = exp (m - m') * a + exp (0 - m') * sum_i v_i.
  The theorem four_tiles: from (bot, 0, 0), over four tiles of N > 0 real scores and real values, the first tile
  accumulated and every tile taken in closed form having all its scores zero, the final quotient a / l is the
  softmax-weighted sum  sum_{j,i} (exp (s_ji - M) / Z) * v_ji  with M the largest of all 4 N scores and
  Z = sum_{j,i} exp (s_ji - M).

  How: after at least one tile the state is (c, sum exp (s - c), sum exp (s - c) * v) over the entries seen, all
  three REAL, for some real reference point c (which need not be named as the maximum: the quotient is the same at
  every reference point, since exp (s - c) = exp (s - d) * exp (d - c) scales numerator and denominator alike). The
  first step starts at m = bot with l = a = 0, where the rescaling factor multiplies zero. From a real state the
  closed form of a zero tile equals its accumulation: N * e = sum_i e, and e * sum_i v_i = sum_i e * v_i for real
  e and v_i (the extended reals do not distribute in general; reals do). The sum of exponentials is a positive real,
  so the final division is a multiplication by a real reciprocal.
-/
import Idealize.ShloMosaic.PureOps.Ideal

noncomputable section
open scoped BigOperators
namespace Cert.TiledSoftmax
open Idealize.ShloMosaic

/-- The running maximum, the running sum of exponentials and the running weighted sum of one query row. -/
structure St where
  m : EReal
  l : EReal
  a : EReal

/-- Before the first key tile. -/
def init : St := ⟨⊥, 0, 0⟩

/-- One key tile with scores `s` and values `v`, accumulated. -/
def stepU {N : ℕ} (s v : Fin N → EReal) (σ : St) : St :=
  let m' := max σ.m (Finset.univ.sup s)
  ⟨m', Ideal.exp (σ.m - m') * σ.l + ∑ i, Ideal.exp (s i - m'),
       Ideal.exp (σ.m - m') * σ.a + ∑ i, Ideal.exp (s i - m') * v i⟩

/-- One key tile all of whose scores are zero, in closed form. -/
def stepM {N : ℕ} (v : Fin N → EReal) (σ : St) : St :=
  let m' := max σ.m 0
  ⟨m', Ideal.exp (σ.m - m') * σ.l + (N : EReal) * Ideal.exp (0 - m'),
       Ideal.exp (σ.m - m') * σ.a + Ideal.exp (0 - m') * ∑ i, v i⟩

/-- A tile's step: the closed form where the tile is marked, the accumulation elsewhere. -/
def step {N : ℕ} (masked : Bool) (s v : Fin N → EReal) (σ : St) : St :=
  if masked then stepM v σ else stepU s v σ

/-- The coercion of a finite sum of reals is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The coercion of the larger of two reals. -/
theorem coe_max (a b : ℝ) : ((max a b : ℝ) : EReal) = max (a : EReal) (b : EReal) :=
  EReal.coe_strictMono.monotone.map_max

/-- The supremum of finitely many (at least one) coerced reals is a coerced real. -/
theorem sup_coe_real {N : ℕ} (hN : 0 < N) (s : Fin N → ℝ) :
    ∃ r : ℝ, (Finset.univ.sup fun i => ((s i : ℝ) : EReal)) = (r : EReal) := by
  obtain ⟨i, -, hi⟩ := Finset.exists_mem_eq_sup (Finset.univ : Finset (Fin N))
    ⟨⟨0, hN⟩, Finset.mem_univ _⟩ (fun i => ((s i : ℝ) : EReal))
  exact ⟨s i, hi⟩

/-- An accumulated tile of real scores and values, from a real state: the new state is real. -/
theorem stepU_real {N : ℕ} (hN : 0 < N) (s v : Fin N → ℝ) (m l a : ℝ) :
    ∃ m' : ℝ, stepU (fun i => ((s i : ℝ) : EReal)) (fun i => ((v i : ℝ) : EReal)) ⟨m, l, a⟩
      = ⟨(m' : ℝ), ((Real.exp (m - m') * l + ∑ i, Real.exp (s i - m') : ℝ) : EReal),
          ((Real.exp (m - m') * a + ∑ i, Real.exp (s i - m') * v i : ℝ) : EReal)⟩ := by
  obtain ⟨r, hr⟩ := sup_coe_real hN s
  refine ⟨max m r, ?_⟩
  simp only [stepU, hr]
  rw [← coe_max]
  simp only [← EReal.coe_sub, Ideal.exp_coe, ← EReal.coe_mul, ← coe_sum, ← EReal.coe_add]

/-- The first tile, from the initial state. -/
theorem stepU_init {N : ℕ} (hN : 0 < N) (s v : Fin N → ℝ) :
    ∃ m' : ℝ, stepU (fun i => ((s i : ℝ) : EReal)) (fun i => ((v i : ℝ) : EReal)) init
      = ⟨(m' : ℝ), ((∑ i, Real.exp (s i - m') : ℝ) : EReal),
          ((∑ i, Real.exp (s i - m') * v i : ℝ) : EReal)⟩ := by
  obtain ⟨r, hr⟩ := sup_coe_real hN s
  refine ⟨r, ?_⟩
  simp only [stepU, init, hr, mul_zero, zero_add, bot_le, max_eq_right]
  simp only [← EReal.coe_sub, Ideal.exp_coe, ← EReal.coe_mul, ← coe_sum]

/-- From a real state the closed form of a tile of zero scores is the accumulation of that tile. -/
theorem stepM_eq_stepU {N : ℕ} (hN : 0 < N) (v : Fin N → ℝ) (m l a : ℝ) :
    stepM (fun i => ((v i : ℝ) : EReal)) ⟨m, l, a⟩
      = stepU (fun _ => ((0 : ℝ) : EReal)) (fun i => ((v i : ℝ) : EReal)) ⟨m, l, a⟩ := by
  have hsup : (Finset.univ.sup fun _ : Fin N => ((0 : ℝ) : EReal)) = ((0 : ℝ) : EReal) :=
    Finset.sup_const ⟨⟨0, hN⟩, Finset.mem_univ _⟩ _
  simp only [stepM, stepU, hsup]
  rw [← EReal.coe_zero, ← coe_max]
  simp only [← EReal.coe_natCast, ← EReal.coe_sub, Ideal.exp_coe, ← EReal.coe_mul, ← coe_sum, ← EReal.coe_add]
  rw [Finset.mul_sum, Finset.sum_const, Finset.card_univ, Fintype.card_fin, nsmul_eq_mul]

/-- The state after the tiles in T, written with real sums relative to a real reference point c. -/
def realSt {J : Type*} {N : ℕ} (s v : J → Fin N → ℝ) (T : Finset J) (c : ℝ) : St :=
  ⟨(c : ℝ), ((∑ j ∈ T, ∑ i, Real.exp (s j i - c) : ℝ) : EReal),
    ((∑ j ∈ T, ∑ i, Real.exp (s j i - c) * v j i : ℝ) : EReal)⟩

/-- Accumulating one more tile keeps the shape of the state, at a new reference point. -/
theorem stepU_realSt {J : Type*} [DecidableEq J] {N : ℕ} (hN : 0 < N) (s v : J → Fin N → ℝ)
    (T : Finset J) (c : ℝ) (j : J) (hj : j ∉ T) :
    ∃ c' : ℝ, stepU (fun i => ((s j i : ℝ) : EReal)) (fun i => ((v j i : ℝ) : EReal)) (realSt s v T c)
      = realSt s v (insert j T) c' := by
  obtain ⟨c', h⟩ := stepU_real hN (s j) (v j) c (∑ j ∈ T, ∑ i, Real.exp (s j i - c))
    (∑ j ∈ T, ∑ i, Real.exp (s j i - c) * v j i)
  refine ⟨c', ?_⟩
  have e : ∀ x : ℝ, Real.exp (c - c') * Real.exp (x - c) = Real.exp (x - c') := by
    intro x; rw [← Real.exp_add]; congr 1; ring
  rw [realSt, h, realSt, Finset.sum_insert hj, Finset.sum_insert hj]
  have h1 : Real.exp (c - c') * ∑ j ∈ T, ∑ i, Real.exp (s j i - c) = ∑ j ∈ T, ∑ i, Real.exp (s j i - c') := by
    rw [Finset.mul_sum]; refine Finset.sum_congr rfl fun k _ => ?_
    rw [Finset.mul_sum]; exact Finset.sum_congr rfl fun i _ => e _
  have h2 : Real.exp (c - c') * ∑ j ∈ T, ∑ i, Real.exp (s j i - c) * v j i
      = ∑ j ∈ T, ∑ i, Real.exp (s j i - c') * v j i := by
    rw [Finset.mul_sum]; refine Finset.sum_congr rfl fun k _ => ?_
    rw [Finset.mul_sum]; refine Finset.sum_congr rfl fun i _ => ?_
    rw [← mul_assoc, e]
  rw [h1, h2, add_comm (∑ j ∈ T, ∑ i, Real.exp (s j i - c')), add_comm (∑ j ∈ T, ∑ i, Real.exp (s j i - c') * v j i)]

/-- A tile's step from such a state is the accumulation, whether or not the tile is marked, provided a marked
    tile's scores are all zero. -/
theorem step_realSt {J : Type*} {N : ℕ} (hN : 0 < N) (s v : J → Fin N → ℝ) (T : Finset J) (c : ℝ) (j : J)
    (b : Bool) (hz : b = true → ∀ i, s j i = 0) :
    step b (fun i => ((s j i : ℝ) : EReal)) (fun i => ((v j i : ℝ) : EReal)) (realSt s v T c)
      = stepU (fun i => ((s j i : ℝ) : EReal)) (fun i => ((v j i : ℝ) : EReal)) (realSt s v T c) := by
  cases b with
  | false => simp [step]
  | true =>
    have hs : (fun i => ((s j i : ℝ) : EReal)) = fun _ => ((0 : ℝ) : EReal) := by
      funext i; rw [hz rfl i]
    simp only [step, if_true, hs]
    exact stepM_eq_stepU hN (v j) _ _ _

/-- The quotient of such a state over all tiles does not depend on the reference point: it is the
    softmax-weighted sum, written at any real reference point d. -/
theorem quotient_realSt {J : Type*} [Fintype J] [Nonempty J] {N : ℕ} (hN : 0 < N) (s v : J → Fin N → ℝ) (c d : ℝ) :
    Ideal.div (realSt s v Finset.univ c).a (realSt s v Finset.univ c).l
      = ∑ j, ∑ i, Ideal.div (Ideal.exp (((s j i : ℝ) : EReal) - ((d : ℝ) : EReal)))
          (∑ j, ∑ i, Ideal.exp (((s j i : ℝ) : EReal) - ((d : ℝ) : EReal))) * ((v j i : ℝ) : EReal) := by
  haveI : Nonempty (Fin N) := ⟨⟨0, hN⟩⟩
  have hpos : ∀ x : ℝ, 0 < ∑ j, ∑ i, Real.exp (s j i - x) := fun x =>
    Finset.sum_pos (fun j _ => Finset.sum_pos (fun i _ => Real.exp_pos _) Finset.univ_nonempty) Finset.univ_nonempty
  have e : ∀ x : ℝ, Real.exp (x - c) = Real.exp (x - d) * Real.exp (d - c) := by
    intro x; rw [← Real.exp_add]; congr 1; ring
  have hE : ∑ j, ∑ i, Real.exp (s j i - c) = (∑ j, ∑ i, Real.exp (s j i - d)) * Real.exp (d - c) := by
    rw [Finset.sum_mul]; refine Finset.sum_congr rfl fun k _ => ?_
    rw [Finset.sum_mul]; exact Finset.sum_congr rfl fun i _ => e _
  have hA : ∑ j, ∑ i, Real.exp (s j i - c) * v j i
      = (∑ j, ∑ i, Real.exp (s j i - d) * v j i) * Real.exp (d - c) := by
    rw [Finset.sum_mul]; refine Finset.sum_congr rfl fun k _ => ?_
    rw [Finset.sum_mul]; refine Finset.sum_congr rfl fun i _ => ?_
    rw [e]; ring
  have hR : ∑ j, ∑ i, Real.exp (s j i - d) * (1 / ∑ j, ∑ i, Real.exp (s j i - d)) * v j i
      = (∑ j, ∑ i, Real.exp (s j i - d) * v j i) * (1 / ∑ j, ∑ i, Real.exp (s j i - d)) := by
    rw [Finset.sum_mul]; refine Finset.sum_congr rfl fun k _ => ?_
    rw [Finset.sum_mul]; refine Finset.sum_congr rfl fun i _ => ?_
    ring
  simp only [realSt, ← EReal.coe_sub, Ideal.exp_coe, ← coe_sum]
  simp only [Ideal.div_coe (hpos d).ne', Ideal.div_coe (hpos c).ne', ← EReal.coe_mul, ← coe_sum]
  rw [hR, hA, hE]
  congr 1
  have hd := (hpos d).ne'
  have hk := (Real.exp_pos (d - c)).ne'
  field_simp

/-- Four key tiles of N > 0 real scores and values, the first never marked, a marked tile's scores all zero:
    the quotient the recurrence ends with is the softmax-weighted sum over all 4 N entries. -/
theorem four_tiles {N : ℕ} (hN : 0 < N) (s v : Fin 4 → Fin N → ℝ) (msk : Fin 4 → Bool) (h0 : msk 0 = false)
    (hz : ∀ j, msk j = true → ∀ i, s j i = 0) :
    let S : Fin 4 → Fin N → EReal := fun j i => ((s j i : ℝ) : EReal)
    let V : Fin 4 → Fin N → EReal := fun j i => ((v j i : ℝ) : EReal)
    let σ := step (msk 3) (S 3) (V 3) (step (msk 2) (S 2) (V 2) (step (msk 1) (S 1) (V 1) (step (msk 0) (S 0) (V 0) init)))
    let M : EReal := Finset.univ.sup fun j : Fin 4 => Finset.univ.sup fun i : Fin N => S j i
    let Z : EReal := ∑ j : Fin 4, ∑ i : Fin N, Ideal.exp (S j i - M)
    Ideal.div σ.a σ.l = ∑ j : Fin 4, ∑ i : Fin N, Ideal.div (Ideal.exp (S j i - M)) Z * V j i := by
  intro S V σ M Z
  -- the overall maximum is a coerced real
  obtain ⟨j0, -, hj0⟩ := Finset.exists_mem_eq_sup (Finset.univ : Finset (Fin 4)) ⟨0, Finset.mem_univ _⟩
    (fun j : Fin 4 => Finset.univ.sup fun i : Fin N => S j i)
  obtain ⟨Mr, hMr⟩ := sup_coe_real hN (s j0)
  have hM : M = ((Mr : ℝ) : EReal) := hj0.trans hMr
  -- the four steps, each an accumulation
  obtain ⟨c0, h0'⟩ := stepU_init hN (s 0) (v 0)
  have e0 : step (msk 0) (S 0) (V 0) init = realSt s v {0} c0 := by
    have h : step (msk 0) (S 0) (V 0) init = stepU (S 0) (V 0) init := by rw [h0]; rfl
    rw [h]
    show stepU (fun i => ((s 0 i : ℝ) : EReal)) (fun i => ((v 0 i : ℝ) : EReal)) init = _
    rw [h0', realSt, Finset.sum_singleton, Finset.sum_singleton]
  obtain ⟨c1, h1⟩ := stepU_realSt hN s v {0} c0 1 (by decide)
  have e1 : step (msk 1) (S 1) (V 1) (realSt s v {0} c0) = realSt s v (insert 1 {0}) c1 :=
    (step_realSt hN s v {0} c0 1 (msk 1) (hz 1)).trans h1
  obtain ⟨c2, h2⟩ := stepU_realSt hN s v (insert 1 {0}) c1 2 (by decide)
  have e2 : step (msk 2) (S 2) (V 2) (realSt s v (insert 1 {0}) c1) = realSt s v (insert 2 (insert 1 {0})) c2 :=
    (step_realSt hN s v (insert 1 {0}) c1 2 (msk 2) (hz 2)).trans h2
  obtain ⟨c3, h3⟩ := stepU_realSt hN s v (insert 2 (insert 1 {0})) c2 3 (by decide)
  have e3 : step (msk 3) (S 3) (V 3) (realSt s v (insert 2 (insert 1 {0})) c2)
      = realSt s v (insert 3 (insert 2 (insert 1 {0}))) c3 :=
    (step_realSt hN s v (insert 2 (insert 1 {0})) c2 3 (msk 3) (hz 3)).trans h3
  have hU : (insert 3 (insert 2 (insert 1 {0})) : Finset (Fin 4)) = Finset.univ := by decide
  have hσ : σ = realSt s v Finset.univ c3 := by
    show step (msk 3) (S 3) (V 3) (step (msk 2) (S 2) (V 2) (step (msk 1) (S 1) (V 1)
      (step (msk 0) (S 0) (V 0) init))) = _
    rw [e0, e1, e2, e3, hU]
  have hZ : Z = ∑ j, ∑ i, Ideal.exp (((s j i : ℝ) : EReal) - ((Mr : ℝ) : EReal)) := by
    show (∑ j, ∑ i, Ideal.exp (S j i - M)) = _
    rw [hM]
  rw [hZ, hM, hσ]
  exact quotient_realSt hN s v c3 Mr

end Cert.TiledSoftmax
end
-- ==== Proof.AttnLaw.lean ====
/-
  One query row through the four key tiles. The row's running maximum, sum and weighted sum (at one column) after a
  point are one step of the streaming softmax applied to what the point before left: the accumulation where the key
  tile meets the diagonal or lies below it, the closed form where it lies wholly above; at key tile 0 the step starts
  from (minus infinity, 0, 0). So the quotient stored at key tile 3 is the quotient the four steps end with.
-/
import proofs.«140165_j15401752723638_2_alg».proof.Proof.AttnRows
import proofs.«140165_j15401752723638_2_alg».proof.Proof.LibTiledSoftmax

set_option maxRecDepth 16384

noncomputable section

open scoped BigOperators

namespace Cert.KernelIdeal.Attn

open Cert.KernelIdeal Cert.KernelIdeal.Gen Cert.TiledSoftmax
open Idealize.ShloMosaic Idealize.ShloMosaic.TcCoe Idealize.ShloMosaic.ValueIdx Idealize.SL.Sem

/-- Row r's running maximum and sum and, at column d, its running weighted sum. -/
def rowSt (m l : Vec Ideal S1x512x1 .f32) (acc : Vec Ideal S1x512x1024 .f32) (r : Fin 512) (d : Fin 1024) : St :=
  ⟨m (ix3 (0 : Fin 1) r (0 : Fin 1)), l (ix3 (0 : Fin 1) r (0 : Fin 1)), acc (ix3 (0 : Fin 1) r d)⟩

theorem rowSt_init (r : Fin 512) (d : Fin 1024) : rowSt (k1_pay1 (F := Ideal)) (k1_pay2 (F := Ideal)) (k1_pay3 (F := Ideal)) r d = init := by
  unfold rowSt init
  rw [pay1_apply, pay2_apply, pay3_apply]

theorem rowSt_U (a1 a2 : BitVec 32) (q k v : Vec Ideal S1x512x1024 .bf16) (m l : Vec Ideal S1x512x1 .f32) (acc : Vec Ideal S1x512x1024 .f32)
    (r : Fin 512) (d : Fin 1024) :
    rowSt (mU a1 a2 q k m) (lU a1 a2 q k m l) (aU a1 a2 q k v m acc) r d
      = stepU (fun i : Fin 512 => scAt a1 a2 q k r i) (fun i : Fin 512 => v (ix3 (0 : Fin 1) i d)) (rowSt m l acc r d) := by
  unfold rowSt stepU
  rw [mU_row, lU_row, aU_row]

theorem c512_cast : ((512 : ℝ) : EReal) = ((512 : ℕ) : EReal) := by norm_cast

theorem rowSt_M (v : Vec Ideal S1x512x1024 .bf16) (m l : Vec Ideal S1x512x1 .f32) (acc : Vec Ideal S1x512x1024 .f32) (r : Fin 512) (d : Fin 1024) :
    rowSt (mM m) (lM m l) (aM v m acc) r d
      = stepM (fun i : Fin 512 => v (ix3 (0 : Fin 1) i d)) (rowSt m l acc r d) := by
  unfold rowSt stepM
  rw [mM_row, lM_row, aM_row, c512_cast]

variable (V : (c : Dev nD) → (b : Ref sig .tc) → Buf (Elt Ideal) ((c : Thread nD τ).loc b))

/-- The point before. -/
def predPt (t : Fin cfg1.N) : Fin cfg1.N := ⟨t.val - 1, Nat.lt_of_le_of_lt (Nat.sub_le _ _) t.isLt⟩

theorem prev_eq (c : Dev nD) (t : Fin cfg1.N) : prev V c t = outsAt V c (predPt t).val (predPt t).isLt := rfl

/-- At key tile 0 the row starts afresh. -/
theorem rowSt_first (c : Dev nD) (t : Fin cfg1.N) (h0 : t.val % 4 = 0) (r : Fin 512) (d : Fin 1024) :
    rowSt (outsAt V c t.val t.isLt).2.1 (outsAt V c t.val t.isLt).2.2.1 (outsAt V c t.val t.isLt).2.2.2 r d = stepU (fun i : Fin 512 => scAt (qiW t) (kiW t) (iblk V c 0 t) (iblk V c 1 t) r i) (fun i : Fin 512 => iblk V c 2 t (ix3 (0 : Fin 1) i d)) init := by
  rw [state_A V c t h0]
  dsimp only
  rw [rowSt_U, rowSt_init]

/-- At a later key tile the row takes one step from what the point before left: the closed form where the key tile's
    number exceeds the query tile's, the accumulation elsewhere. -/
theorem rowSt_next (c : Dev nD) (t : Fin cfg1.N) (h0 : ¬t.val % 4 = 0) (r : Fin 512) (d : Fin 1024) :
    rowSt (outsAt V c t.val t.isLt).2.1 (outsAt V c t.val t.isLt).2.2.1 (outsAt V c t.val t.isLt).2.2.2 r d = step (decide ((t.val / 4) % 4 < t.val % 4)) (fun i : Fin 512 => scAt (qiW t) (kiW t) (iblk V c 0 t) (iblk V c 1 t) r i) (fun i : Fin 512 => iblk V c 2 t (ix3 (0 : Fin 1) i d)) (rowSt (outsAt V c (predPt t).val (predPt t).isLt).2.1 (outsAt V c (predPt t).val (predPt t).isLt).2.2.1 (outsAt V c (predPt t).val (predPt t).isLt).2.2.2 r d) := by
  rw [← prev_eq]
  by_cases h3 : t.val % 4 = 3
  · by_cases h1 : (t.val / 4) % 4 < t.val % 4
    · rw [state_D V c t h0 h3 h1, decide_eq_true h1]; dsimp only; unfold step; rw [if_pos rfl, rowSt_M]
    · rw [state_E V c t h0 h3 h1, decide_eq_false h1]; dsimp only; unfold step; rw [if_neg Bool.false_ne_true, rowSt_U]
  · by_cases h1 : (t.val / 4) % 4 < t.val % 4
    · rw [state_B V c t h0 h3 h1, decide_eq_true h1]; dsimp only; unfold step; rw [if_pos rfl, rowSt_M]
    · rw [state_C V c t h0 h3 h1, decide_eq_false h1]; dsimp only; unfold step; rw [if_neg Bool.false_ne_true, rowSt_U]

/-- At key tile 3 the stored entry is the row's weighted sum over its sum. -/
theorem out_entry (c : Dev nD) (t : Fin cfg1.N) (h3 : t.val % 4 = 3) (r : Fin 512) (d : Fin 1024) :
    (outsAt V c t.val t.isLt).1 (ix3 (0 : Fin 1) r d) = Ideal.div (rowSt (outsAt V c t.val t.isLt).2.1 (outsAt V c t.val t.isLt).2.2.1 (outsAt V c t.val t.isLt).2.2.2 r d).a (rowSt (outsAt V c t.val t.isLt).2.1 (outsAt V c t.val t.isLt).2.2.1 (outsAt V c t.val t.isLt).2.2.2 r d).l := by
  have h0 : ¬t.val % 4 = 0 := by omega
  by_cases h1 : (t.val / 4) % 4 < t.val % 4
  · rw [out_D V c t h0 h3 h1, state_D V c t h0 h3 h1]; dsimp only; unfold rowSt; exact quot_row _ _ r d
  · rw [out_E V c t h0 h3 h1, state_E V c t h0 h3 h1]; dsimp only; unfold rowSt; exact quot_row _ _ r d

end Cert.KernelIdeal.Attn

end
-- ==== Proof.AttnBlocks.lean ====
/-
  The attention region's three input blocks read off the entry arrays, and a point's grid coordinates. At the point
  t = 16 b + 4 qi + ki of the 4 x 4 x 4 grid the query window's block is rows 512 qi .. 512 qi + 511 of batch b of the
  query array, the key and value windows' blocks rows 512 ki .. 512 ki + 511 of batch b of theirs, each over all 1024
  columns: an element of a block is the array's element at the block's offset plus the element's own coordinates.
-/
import proofs.«140165_j15401752723638_2_alg».proof.Proof.AttnCases
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## A point's grid coordinates -/

/-- The point t = 16 b + 4 qi + ki has coordinates (b, qi, ki) (decided over the 64 points). -/
theorem coords_facts : ∀ t : Fin cfg1.N, ((grid1.coords t) 0).val = t.val / 16
    ∧ ((grid1.coords t) 1).val = (t.val / 4) % 4
    ∧ ((grid1.coords t) 2).val = t.val % 4 :=
  (by decide +kernel : ∀ t : Fin grid1.N, ((grid1.coords t) 0).val = t.val / 16
    ∧ ((grid1.coords t) 1).val = (t.val / 4) % 4
    ∧ ((grid1.coords t) 2).val = t.val % 4)

theorem coords_qi (t : Fin cfg1.N) : ((grid1.coords t) 1).val = (t.val / 4) % 4 := (coords_facts t).2.1
theorem coords_ki (t : Fin cfg1.N) : ((grid1.coords t) 2).val = t.val % 4 := (coords_facts t).2.2

/-! ## The input windows' block indices -/

/-- The query window's block index at the point t = 16 b + 4 qi + ki is (b, qi, 0). -/
theorem idx_facts_0 : ∀ t : Fin cfg1.N, win1_0.index t (0 : Fin 3) = t.val / 16
    ∧ win1_0.index t (1 : Fin 3) = (t.val / 4) % 4
    ∧ win1_0.index t (2 : Fin 3) = 0 :=
  (by decide +kernel : ∀ t : Fin grid1.N, win1_0.index t (0 : Fin 3) = t.val / 16
    ∧ win1_0.index t (1 : Fin 3) = (t.val / 4) % 4
    ∧ win1_0.index t (2 : Fin 3) = 0)

/-- The key window's block index there is (b, ki, 0). -/
theorem idx_facts_1 : ∀ t : Fin cfg1.N, win1_1.index t (0 : Fin 3) = t.val / 16
    ∧ win1_1.index t (1 : Fin 3) = t.val % 4
    ∧ win1_1.index t (2 : Fin 3) = 0 :=
  (by decide +kernel : ∀ t : Fin grid1.N, win1_1.index t (0 : Fin 3) = t.val / 16
    ∧ win1_1.index t (1 : Fin 3) = t.val % 4
    ∧ win1_1.index t (2 : Fin 3) = 0)

/-- The value window's block index there is (b, ki, 0). -/
theorem idx_facts_2 : ∀ t : Fin cfg1.N, win1_2.index t (0 : Fin 3) = t.val / 16
    ∧ win1_2.index t (1 : Fin 3) = t.val % 4
    ∧ win1_2.index t (2 : Fin 3) = 0 :=
  (by decide +kernel : ∀ t : Fin grid1.N, win1_2.index t (0 : Fin 3) = t.val / 16
    ∧ win1_2.index t (1 : Fin 3) = t.val % 4
    ∧ win1_2.index t (2 : Fin 3) = 0)

/-! ## The blocks read off the entry arrays -/

/-- Row r of the query block at the point t = 16 b + 4 qi + ki is row 512 qi + r of batch b of the query array. -/
theorem iblk_q (c : Dev nD) (t : Fin cfg1.N) (r : Fin 512) (e : Fin 1024) :
    iblk V c 0 t (ValueIdx.ix3 (0 : Fin 1) r e) = V c main_v2 (ValueIdx.ix3 (⟨t.val / 16, by have := t.isLt; have : cfg1.N = 64 := N_1; omega⟩ : Fin 4) (⟨512 * ((t.val / 4) % 4) + r.val, by omega⟩ : Fin 2048) e) := by
  obtain ⟨e0, e1, e2⟩ := idx_facts_0 t
  show V c main_v2 (((cfg1.win 0).blk t).view.emb (ValueIdx.ix3 (0 : Fin 1) r e)) = V c main_v2 _
  refine congrArg (V c main_v2) ?_
  funext a; apply Fin.ext
  have hr : r.val < 512 := r.isLt
  match a with
  | ⟨0, _⟩ => show win1_0.index t (0 : Fin 3) * 1 + 1 * 0 = t.val / 16; omega
  | ⟨1, _⟩ => show win1_0.index t (1 : Fin 3) * 512 + 1 * r.val = 512 * ((t.val / 4) % 4) + r.val; omega
  | ⟨2, _⟩ => show win1_0.index t (2 : Fin 3) * 1024 + 1 * e.val = e.val; omega

/-- Row i of the key block there is row 512 ki + i of batch b of the key array. -/
theorem iblk_k (c : Dev nD) (t : Fin cfg1.N) (i : Fin 512) (e : Fin 1024) :
    iblk V c 1 t (ValueIdx.ix3 (0 : Fin 1) i e) = V c main_v3 (ValueIdx.ix3 (⟨t.val / 16, by have := t.isLt; have : cfg1.N = 64 := N_1; omega⟩ : Fin 4) (⟨512 * (t.val % 4) + i.val, by omega⟩ : Fin 2048) e) := by
  obtain ⟨e0, e1, e2⟩ := idx_facts_1 t
  show V c main_v3 (((cfg1.win 1).blk t).view.emb (ValueIdx.ix3 (0 : Fin 1) i e)) = V c main_v3 _
  refine congrArg (V c main_v3) ?_
  funext a; apply Fin.ext
  have hi : i.val < 512 := i.isLt
  match a with
  | ⟨0, _⟩ => show win1_1.index t (0 : Fin 3) * 1 + 1 * 0 = t.val / 16; omega
  | ⟨1, _⟩ => show win1_1.index t (1 : Fin 3) * 512 + 1 * i.val = 512 * (t.val % 4) + i.val; omega
  | ⟨2, _⟩ => show win1_1.index t (2 : Fin 3) * 1024 + 1 * e.val = e.val; omega

/-- Row i of the value block there is row 512 ki + i of batch b of the value array. -/
theorem iblk_v (c : Dev nD) (t : Fin cfg1.N) (i : Fin 512) (e : Fin 1024) :
    iblk V c 2 t (ValueIdx.ix3 (0 : Fin 1) i e) = V c main_v4 (ValueIdx.ix3 (⟨t.val / 16, by have := t.isLt; have : cfg1.N = 64 := N_1; omega⟩ : Fin 4) (⟨512 * (t.val % 4) + i.val, by omega⟩ : Fin 2048) e) := by
  obtain ⟨e0, e1, e2⟩ := idx_facts_2 t
  show V c main_v4 (((cfg1.win 2).blk t).view.emb (ValueIdx.ix3 (0 : Fin 1) i e)) = V c main_v4 _
  refine congrArg (V c main_v4) ?_
  funext a; apply Fin.ext
  have hi : i.val < 512 := i.isLt
  match a with
  | ⟨0, _⟩ => show win1_2.index t (0 : Fin 3) * 1 + 1 * 0 = t.val / 16; omega
  | ⟨1, _⟩ => show win1_2.index t (1 : Fin 3) * 512 + 1 * i.val = 512 * (t.val % 4) + i.val; omega
  | ⟨2, _⟩ => show win1_2.index t (2 : Fin 3) * 1024 + 1 * e.val = e.val; omega

end Cert.KernelIdeal.Attn
end
-- ==== Proof.AttnCover.lean ====
/-
  From blocks to the array, for the attention region's result. The region's result window is the [1, 512, 1024] block at
  block index (b, qi, 0) of the [4, 2048, 1024] result array, written back at the last key tile of each (b, qi). Those
  sixteen blocks tile the array, so the array after the region is determined block by block by what the last key tile's
  point leaves in the block: if each is the matching part of one array, the result array is that array.
-/
import proofs.«140165_j15401752723638_2_alg».proof.Proof.AttnRegion
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## From blocks to the array, for the result window

The result window's block at the point t = 16 b + 4 qi + ki is the [1, 512, 1024] block at block index (b, qi, 0) of the
[4, 2048, 1024] array: rows 512 qi .. 512 qi + 511 of batch b, all 1024 columns. It is written back exactly at the
points with ki = 3, and those sixteen blocks tile the array: the index (b, q, d) lies in the block of the point
16 b + 4 (q / 512) + 3. So if what each such point leaves in the block is the matching part of one array, the result
array ends holding that array. -/

/-- The result window's block index at the point t = 16 b + 4 qi + ki is (b, qi, 0) (decided over the 64 points). -/
theorem idx_facts_3 : ∀ t : Fin cfg1.N, win1_3.index t (0 : Fin 3) = t.val / 16
    ∧ win1_3.index t (1 : Fin 3) = (t.val / 4) % 4
    ∧ win1_3.index t (2 : Fin 3) = 0 :=
  (by decide +kernel : ∀ t : Fin grid1.N, win1_3.index t (0 : Fin 3) = t.val / 16
    ∧ win1_3.index t (1 : Fin 3) = (t.val / 4) % 4
    ∧ win1_3.index t (2 : Fin 3) = 0)

/-- An index of the array is in point `t`'s block iff each coordinate is in the block's range on its axis. -/
theorem mem_blk_3 (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v5).slice (win1_3.rect t)).set ↔ _
  rw [View.set_slice_whole, Rect.mem_set_unit]
  exact Iff.rfl

theorem arrAt_of_blocks (c : Dev nD) (Gout : S4x2048x1024.Idx → Elt F .f32)
    (h : ∀ (t : Fin cfg1.N), t.val % 4 = 3 → ∀ (r : Fin 512) (d : Fin 1024),
       (outsAt V c t.val t.isLt).1 (ValueIdx.ix3 (0 : Fin 1) r d) = Gout (ValueIdx.ix3 (⟨t.val / 16, by have := t.isLt; have : cfg1.N = 64 := N_1; omega⟩ : Fin 4) (⟨512 * ((t.val / 4) % 4) + r.val, by omega⟩ : Fin 2048) d)) :
    (dat V c).arrAt 3 cfg1.N = Gout := by
  refine (dat V c).arrAt_eq_of_cover 3 Gout ?_ ?_
  · -- what a flushing point writes back is its block of `Gout`
    intro t hf
    have h3 : t.val % 4 = 3 := (flush1_3 t).mp hf
    have hlt : t.val < 64 := lt_of_lt_of_eq t.isLt (show cfg1.N = 64 from N_1)
    obtain ⟨e0, e1, e2⟩ := idx_facts_3 t
    show (cfg1.win 3).cut (grid1.coords t) ((dat V c).after 3 t) = _
    rw [after_3]
    funext j
    have hj0 : (j 0).val < 1 := (j 0).isLt
    have hj1 : (j 1).val < 512 := (j 1).isLt
    have hj2 : (j 2).val < 1024 := (j 2).isLt
    show (outsAt V c t.val t.isLt).1 ((cfg1.win 3).xinj (grid1.coords t) j) = Gout (((cfg1.win 3).blk t).view.emb j)
    have hL : (cfg1.win 3).xinj (grid1.coords t) j = ValueIdx.ix3 (0 : Fin 1) (⟨(j 1).val, hj1⟩ : Fin 512) (⟨(j 2).val, hj2⟩ : Fin 1024) := by
      funext a; apply Fin.ext
      match a with
      | ⟨0, _⟩ => show (j 0).val = 0; omega
      | ⟨1, _⟩ => rfl
      | ⟨2, _⟩ => rfl
    have hR : ((cfg1.win 3).blk t).view.emb j = ValueIdx.ix3 (⟨t.val / 16, by omega⟩ : Fin 4) (⟨512 * ((t.val / 4) % 4) + (j 1).val, by omega⟩ : Fin 2048) (⟨(j 2).val, hj2⟩ : Fin 1024) := by
      funext a; apply Fin.ext
      match a with
      | ⟨0, _⟩ => show win1_3.index t (0 : Fin 3) * 1 + 1 * (j 0).val = t.val / 16; omega
      | ⟨1, _⟩ => show win1_3.index t (1 : Fin 3) * 512 + 1 * (j 1).val = 512 * ((t.val / 4) % 4) + (j 1).val; omega
      | ⟨2, _⟩ => show win1_3.index t (2 : Fin 3) * 1024 + 1 * (j 2).val = (j 2).val; omega
    rw [hL, hR]
    exact h t h3 _ _
  · -- the flushed blocks cover the array
    intro i
    have hi0 : (i 0).val < 4 := (i 0).isLt
    have hi1 : (i 1).val < 2048 := (i 1).isLt
    have hi2 : (i 2).val < 1024 := (i 2).isLt
    have hN : cfg1.N = 64 := N_1
    let t : Fin cfg1.N := ⟨16 * (i 0).val + 4 * ((i 1).val / 512) + 3, by omega⟩
    have ht : t.val = 16 * (i 0).val + 4 * ((i 1).val / 512) + 3 := rfl
    obtain ⟨e0, e1, e2⟩ := idx_facts_3 t
    refine ⟨t, (flush1_3 t).mpr (by omega), ?_⟩
    rw [mem_blk_3]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 512 ≤ (i 1).val ∧ (i 1).val < win1_3.index t (1 : Fin 3) * 512 + 512; omega
    | ⟨2, _⟩ => show win1_3.index t (2 : Fin 3) * 1024 ≤ (i 2).val ∧ (i 2).val < win1_3.index t (2 : Fin 3) * 1024 + 1024; omega

end Cert.KernelIdeal.Attn
end
-- ==== Proof.SpecReal.lean ====
/-
  The specification on real inputs, and re-tiled.

  On arrays of coerced reals nothing leaves the reals: a projection is the coercion of the real projection (the
  coercion passes through products and finite sums), and a score - the dot product of two projections, times 1/32,
  times the mask 1 or 0 - is the coercion of the real number that is that scaled dot product on or below the
  diagonal and zero above it.

  For ANY extended-real arrays the result at one query row - a sum over the 2048 key rows t of
  exp (score t - rowMax) / rowSum times the value projection at t, with rowMax the supremum of the scores and rowSum
  the sum of the exponentials - is the same expression written over four tiles of 512 key rows: sums over
  (j, i) in Fin 4 x Fin 512 at key row 512 j + i, and the supremum as the supremum over j of the suprema over i. This
  is re-indexing along the bijection (j, i) |-> 512 j + i of Fin 4 x Fin 512 with Fin 2048 (inverse
  t |-> (t / 512, t % 512)): a finite sum over a type is invariant under a bijection and a sum over a product is an
  iterated sum; for the supremum each side is bounded by the other, entry by entry.
-/
import proofs.«140165_j15401752723638_2_alg».proof.Proof.AttnSpec
import proofs.«140165_j15401752723638_2_alg».proof.Proof.LibTiledSoftmax
noncomputable section
open scoped BigOperators
namespace Cert.Spec
open Idealize.ShloMosaic Idealize.ShloMosaic.ValueIdx

/-- The projection on real inputs. -/
def rproj (x : SX.Idx → ℝ) (w : SW.Idx → ℝ) (b : Fin 4) (t : Fin 2048) (d : Fin 1024) : ℝ :=
  ∑ k : Fin 1024, x (ix3 b t k) * w (ix2 k d)

/-- The scaled, masked score on real inputs. -/
def rscore (x : SX.Idx → ℝ) (wq wk : SW.Idx → ℝ) (b : Fin 4) (q t : Fin 2048) : ℝ :=
  if t.val ≤ q.val then (∑ d : Fin 1024, rproj x wq b q d * rproj x wk b t d) * (1 / 32) else 0

theorem proj_coe (x : SX.Idx → ℝ) (w : SW.Idx → ℝ) (b : Fin 4) (t : Fin 2048) (d : Fin 1024) :
    proj (fun i => ((x i : ℝ) : EReal)) (fun i => ((w i : ℝ) : EReal)) b t d = ((rproj x w b t d : ℝ) : EReal) := by
  simp only [proj, rproj, Cert.TiledSoftmax.coe_sum, EReal.coe_mul]

theorem score_coe (x : SX.Idx → ℝ) (wq wk : SW.Idx → ℝ) (b : Fin 4) (q t : Fin 2048) :
    score (fun i => ((x i : ℝ) : EReal)) (fun i => ((wq i : ℝ) : EReal)) (fun i => ((wk i : ℝ) : EReal)) b q t
      = ((rscore x wq wk b q t : ℝ) : EReal) := by
  simp only [score, rscore, gamma, proj_coe, ← EReal.coe_mul, ← Cert.TiledSoftmax.coe_sum]
  by_cases h : t.val ≤ q.val
  · rw [if_pos h, if_pos h, mul_one]
  · rw [if_neg h, if_neg h, mul_zero, EReal.coe_zero]

/-- Key row 512 j + i. -/
def keyRow (j : Fin 4) (i : Fin 512) : Fin 2048 := ⟨512 * j.val + i.val, by have := j.isLt; have := i.isLt; omega⟩

/-- The bijection of tile and offset with key row: (j, i) to 512 j + i, back by quotient and remainder. -/
def keyEquiv : Fin 4 × Fin 512 ≃ Fin 2048 where
  toFun p := keyRow p.1 p.2
  invFun t := (⟨t.val / 512, by have := t.isLt; omega⟩, ⟨t.val % 512, by omega⟩)
  left_inv p := by
    obtain ⟨j, i⟩ := p
    have hj := j.isLt
    have hi := i.isLt
    apply Prod.ext
    · apply Fin.ext; simp only [keyRow]; omega
    · apply Fin.ext; simp only [keyRow]; omega
  right_inv t := by
    apply Fin.ext; simp only [keyRow]; omega

/-- A sum over the 2048 key rows is the sum over the four tiles of the sums over their 512 rows. -/
theorem sum_tiles (f : Fin 2048 → EReal) : ∑ t, f t = ∑ j : Fin 4, ∑ i : Fin 512, f (keyRow j i) := by
  rw [← Fintype.sum_prod_type' (fun j i => f (keyRow j i))]
  exact (Equiv.sum_comp keyEquiv f).symm

/-- A supremum over the 2048 key rows is the supremum over the four tiles of the suprema over their 512 rows. -/
theorem sup_tiles (f : Fin 2048 → EReal) :
    Finset.univ.sup f = Finset.univ.sup fun j : Fin 4 => Finset.univ.sup fun i : Fin 512 => f (keyRow j i) := by
  apply le_antisymm
  · apply Finset.sup_le
    intro t _
    rw [← keyEquiv.apply_symm_apply t]
    exact le_trans
      (Finset.le_sup (f := fun i : Fin 512 => f (keyRow (keyEquiv.symm t).1 i)) (Finset.mem_univ (keyEquiv.symm t).2))
      (Finset.le_sup (f := fun j : Fin 4 => Finset.univ.sup fun i : Fin 512 => f (keyRow j i))
        (Finset.mem_univ (keyEquiv.symm t).1))
  · apply Finset.sup_le
    intro j _
    apply Finset.sup_le
    intro i _
    exact Finset.le_sup (Finset.mem_univ _)

/-- The result re-tiled: the sum over the 2048 key rows as four tiles of 512, the row maximum and the row sum likewise. -/
theorem attn_tiled (x : SX.Idx → EReal) (wq wk wv : SW.Idx → EReal) (b : Fin 4) (q : Fin 2048) (d : Fin 1024) :
    let S : Fin 4 → Fin 512 → EReal := fun j i => score x wq wk b q (keyRow j i)
    let M : EReal := Finset.univ.sup fun j : Fin 4 => Finset.univ.sup fun i : Fin 512 => S j i
    let Z : EReal := ∑ j : Fin 4, ∑ i : Fin 512, Ideal.exp (S j i - M)
    attn x wq wk wv b q d = ∑ j : Fin 4, ∑ i : Fin 512, Ideal.div (Ideal.exp (S j i - M)) Z * proj x wv b (keyRow j i) d := by
  intro S M Z
  have hM : rowMax x wq wk b q = M := sup_tiles _
  have hZ : rowSum x wq wk b q = Z := by
    unfold rowSum weight
    rw [hM]
    exact sum_tiles (fun t => Ideal.exp (score x wq wk b q t - M))
  unfold attn weight
  rw [hZ, hM]
  exact sum_tiles (fun t => Ideal.div (Ideal.exp (score x wq wk b q t - M)) Z * proj x wv b t d)

end Cert.Spec
end
-- ==== Proof.AttnValue.lean ====
/-
  The attention region's result array is the specification. Entered with the three projections of real inputs as
  its query, key and value arrays, the region stores at row 512 qi + r of batch b, column d, the quotient its four
  key-tile steps end with for that row. Tile j's scores are the specification's scores at key rows 512 j + i (the
  mask compares 512 j + i with 512 qi + r; a tile with j > qi lies wholly above the diagonal and all its scores are
  zero, which is where the closed form applies), its values the value projection's rows 512 j + i. The law of the
  streaming softmax then gives the softmax-weighted sum over the four tiles, which is the specification re-tiled.
-/
import proofs.«140165_j15401752723638_2_alg».proof.Proof.AttnLaw
import proofs.«140165_j15401752723638_2_alg».proof.Proof.AttnBlocks
import proofs.«140165_j15401752723638_2_alg».proof.Proof.AttnCover
import proofs.«140165_j15401752723638_2_alg».proof.Proof.SpecReal

set_option maxRecDepth 16384

noncomputable section

open scoped BigOperators

namespace Cert.KernelIdeal.Attn

open Cert.KernelIdeal Cert.KernelIdeal.Gen Cert.TiledSoftmax
open Idealize.ShloMosaic Idealize.ShloMosaic.TcCoe Idealize.ShloMosaic.ValueIdx Idealize.SL.Sem

/-- A select on a decided bit. -/
theorem select_ofBool {α : Type} (p : Bool) (a b : α) : Scalar.select (BitVec.ofBool p) a b = if p then a else b := by
  cases p <;> rfl

/-- The grid point of batch b, query tile qi, key tile j. -/
def pt (b qi j : Fin 4) : Fin cfg1.N :=
  ⟨16 * b.val + 4 * qi.val + j.val, by have := b.isLt; have := qi.isLt; have := j.isLt; have : cfg1.N = 64 := N_1; omega⟩

theorem pt_val (b qi j : Fin 4) : (pt b qi j).val = 16 * b.val + 4 * qi.val + j.val := rfl
theorem pt_mod (b qi j : Fin 4) : (pt b qi j).val % 4 = j.val := by have := j.isLt; rw [pt_val]; omega
theorem pt_qi (b qi j : Fin 4) : ((pt b qi j).val / 4) % 4 = qi.val := by have := qi.isLt; have := j.isLt; rw [pt_val]; omega
theorem pt_b (b qi j : Fin 4) : (pt b qi j).val / 16 = b.val := by have := qi.isLt; have := j.isLt; rw [pt_val]; omega
theorem pred_pt1 (b qi : Fin 4) : predPt (pt b qi 1) = pt b qi 0 := Fin.ext (by simp only [predPt, pt_val]; rfl)
theorem pred_pt2 (b qi : Fin 4) : predPt (pt b qi 2) = pt b qi 1 := Fin.ext (by simp only [predPt, pt_val]; rfl)
theorem pred_pt3 (b qi : Fin 4) : predPt (pt b qi 3) = pt b qi 2 := Fin.ext (by simp only [predPt, pt_val]; rfl)

variable (V : (c : Dev nD) → (b : Ref sig .tc) → Buf (Elt Ideal) ((c : Thread nD τ).loc b))
variable (xr : Cert.Spec.SX.Idx → ℝ) (wqr wkr wvr : Cert.Spec.SW.Idx → ℝ)

/-- The query row of batch b at position 512 qi + r. -/
def qRow (qi : Fin 4) (r : Fin 512) : Fin 2048 := ⟨512 * qi.val + r.val, by have := qi.isLt; have := r.isLt; omega⟩

section Entry

variable (c : Dev nD)
  (hQ : ∀ (b : Fin 4) (t : Fin 2048) (d : Fin 1024), V c main_v2 (ix3 b t d) = ((Cert.Spec.rproj xr wqr b t d : ℝ) : EReal))
  (hK : ∀ (b : Fin 4) (t : Fin 2048) (d : Fin 1024), V c main_v3 (ix3 b t d) = ((Cert.Spec.rproj xr wkr b t d : ℝ) : EReal))
  (hV : ∀ (b : Fin 4) (t : Fin 2048) (d : Fin 1024), V c main_v4 (ix3 b t d) = ((Cert.Spec.rproj xr wvr b t d : ℝ) : EReal))

include hQ hK in
/-- Tile j's score of query row r against its key row i is the specification's score at key row 512 j + i. -/
theorem tile_score (b qi j : Fin 4) (r i : Fin 512) :
    scAt (qiW (pt b qi j)) (kiW (pt b qi j)) (iblk V c 0 (pt b qi j)) (iblk V c 1 (pt b qi j)) r i
      = ((Cert.Spec.rscore xr wqr wkr b (qRow qi r) (Cert.Spec.keyRow j i) : ℝ) : EReal) := by
  unfold scAt qiW kiW
  rw [coords_qi, coords_ki, pt_qi, pt_mod, mask_bit qi.val j.val qi.isLt j.isLt r i, select_ofBool]
  unfold Cert.Spec.rscore
  have hcond : (i.val + j.val * 512 ≤ r.val + qi.val * 512) ↔ ((Cert.Spec.keyRow j i).val ≤ (qRow qi r).val) := by
    unfold Cert.Spec.keyRow qRow; constructor <;> intro h <;> simp only at h ⊢ <;> omega
  by_cases hle : i.val + j.val * 512 ≤ r.val + qi.val * 512
  · rw [if_pos (decide_eq_true hle), if_pos (hcond.mp hle), gamma_f32, EReal.coe_mul, Cert.TiledSoftmax.coe_sum]
    refine congrArg (· * (((1 / 32 : ℝ) : ℝ) : EReal)) ?_
    refine Finset.sum_congr rfl fun e _ => ?_
    rw [iblk_q, iblk_k, EReal.coe_mul]
    refine congrArg₂ (· * ·) ?_ ?_
    · refine (hQ _ _ e).trans ?_
      refine congrArg (fun z : ℝ => (z : EReal)) ?_
      refine congrArg₂ (fun (bb : Fin 4) (tt : Fin 2048) => Cert.Spec.rproj xr wqr bb tt e) (Fin.ext (pt_b b qi j)) (Fin.ext ?_)
      show 512 * (((pt b qi j).val / 4) % 4) + r.val = 512 * qi.val + r.val
      rw [pt_qi]
    · refine (hK _ _ e).trans ?_
      refine congrArg (fun z : ℝ => (z : EReal)) ?_
      refine congrArg₂ (fun (bb : Fin 4) (tt : Fin 2048) => Cert.Spec.rproj xr wkr bb tt e) (Fin.ext (pt_b b qi j)) (Fin.ext ?_)
      show 512 * ((pt b qi j).val % 4) + i.val = 512 * j.val + i.val
      rw [pt_mod]
  · rw [if_neg (by simpa using hle), if_neg (fun h => hle (hcond.mpr h)), Ideal.ofBits_zero_f32, EReal.coe_zero]

include hV in
/-- Tile j's value at its key row i, column d, is the value projection at key row 512 j + i. -/
theorem tile_value (b qi j : Fin 4) (i : Fin 512) (d : Fin 1024) :
    iblk V c 2 (pt b qi j) (ix3 (0 : Fin 1) i d) = ((Cert.Spec.rproj xr wvr b (Cert.Spec.keyRow j i) d : ℝ) : EReal) := by
  rw [iblk_v]
  refine (hV _ _ d).trans ?_
  refine congrArg (fun z : ℝ => (z : EReal)) ?_
  refine congrArg₂ (fun (bb : Fin 4) (tt : Fin 2048) => Cert.Spec.rproj xr wvr bb tt d) (Fin.ext (pt_b b qi j)) (Fin.ext ?_)
  show 512 * ((pt b qi j).val % 4) + i.val = 512 * j.val + i.val
  rw [pt_mod]

include hQ hK hV in
/-- The entry stored for query row 512 qi + r of batch b, column d, is the specification's. -/
theorem block_entry (b qi : Fin 4) (r : Fin 512) (d : Fin 1024) :
    (outsAt V c (pt b qi 3).val (pt b qi 3).isLt).1 (ix3 (0 : Fin 1) r d)
      = Cert.Spec.attn (fun i => ((xr i : ℝ) : EReal)) (fun i => ((wqr i : ℝ) : EReal)) (fun i => ((wkr i : ℝ) : EReal)) (fun i => ((wvr i : ℝ) : EReal))
          b (qRow qi r) d := by
  -- the four steps of the row
  rw [out_entry V c (pt b qi 3) (pt_mod b qi 3) r d,
    rowSt_next V c (pt b qi 3) (by rw [pt_mod]; decide) r d, pred_pt3,
    rowSt_next V c (pt b qi 2) (by rw [pt_mod]; decide) r d, pred_pt2,
    rowSt_next V c (pt b qi 1) (by rw [pt_mod]; decide) r d, pred_pt1,
    rowSt_first V c (pt b qi 0) (pt_mod b qi 0) r d]
  -- each tile's scores and values are the specification's at key rows 512 j + i
  have hS : ∀ j : Fin 4, (fun i : Fin 512 => scAt (qiW (pt b qi j)) (kiW (pt b qi j)) (iblk V c 0 (pt b qi j)) (iblk V c 1 (pt b qi j)) r i)
      = fun i : Fin 512 => ((Cert.Spec.rscore xr wqr wkr b (qRow qi r) (Cert.Spec.keyRow j i) : ℝ) : EReal) :=
    fun j => funext fun i => tile_score V xr wqr wkr c hQ hK b qi j r i
  have hW : ∀ j : Fin 4, (fun i : Fin 512 => iblk V c 2 (pt b qi j) (ix3 (0 : Fin 1) i d))
      = fun i : Fin 512 => ((Cert.Spec.rproj xr wvr b (Cert.Spec.keyRow j i) d : ℝ) : EReal) :=
    fun j => funext fun i => tile_value V xr wvr c hV b qi j i d
  rw [hS 0, hS 1, hS 2, hS 3, hW 0, hW 1, hW 2, hW 3]
  simp only [pt_qi, pt_mod]
  -- the law
  have hlaw := four_tiles (N := 512) (by decide)
    (fun j i => Cert.Spec.rscore xr wqr wkr b (qRow qi r) (Cert.Spec.keyRow j i))
    (fun j i => Cert.Spec.rproj xr wvr b (Cert.Spec.keyRow j i) d)
    (fun j => decide (qi.val < j.val)) (by simp)
    (fun j hj i => by
      have hlt : qi.val < j.val := of_decide_eq_true hj
      unfold Cert.Spec.rscore
      rw [if_neg]
      unfold Cert.Spec.keyRow qRow
      simp only
      have := r.isLt
      omega)
  dsimp only at hlaw
  have hstart : stepU (fun i : Fin 512 => ((Cert.Spec.rscore xr wqr wkr b (qRow qi r) (Cert.Spec.keyRow 0 i) : ℝ) : EReal))
      (fun i : Fin 512 => ((Cert.Spec.rproj xr wvr b (Cert.Spec.keyRow 0 i) d : ℝ) : EReal)) init
      = step (decide (qi.val < (0 : Fin 4).val)) (fun i : Fin 512 => ((Cert.Spec.rscore xr wqr wkr b (qRow qi r) (Cert.Spec.keyRow 0 i) : ℝ) : EReal))
      (fun i : Fin 512 => ((Cert.Spec.rproj xr wvr b (Cert.Spec.keyRow 0 i) d : ℝ) : EReal)) init := by
    unfold step; rw [if_neg (by simp)]
  rw [hstart]
  refine hlaw.trans ?_
  -- the specification, re-tiled
  have htile := Cert.Spec.attn_tiled (fun i => ((xr i : ℝ) : EReal)) (fun i => ((wqr i : ℝ) : EReal)) (fun i => ((wkr i : ℝ) : EReal)) (fun i => ((wvr i : ℝ) : EReal)) b (qRow qi r) d
  dsimp only at htile
  rw [htile]
  simp only [Cert.Spec.score_coe, Cert.Spec.proj_coe]

end Entry

/-- The attention region's result array: the specification of the real inputs. -/
theorem result_eq (c : Dev nD)
    (hQ : ∀ (b : Fin 4) (t : Fin 2048) (d : Fin 1024), V c main_v2 (ix3 b t d) = ((Cert.Spec.rproj xr wqr b t d : ℝ) : EReal))
    (hK : ∀ (b : Fin 4) (t : Fin 2048) (d : Fin 1024), V c main_v3 (ix3 b t d) = ((Cert.Spec.rproj xr wkr b t d : ℝ) : EReal))
    (hV : ∀ (b : Fin 4) (t : Fin 2048) (d : Fin 1024), V c main_v4 (ix3 b t d) = ((Cert.Spec.rproj xr wvr b t d : ℝ) : EReal)) :
    (dat V c).arrAt 3 cfg1.N
      = Cert.Spec.G (fun i => ((xr i : ℝ) : EReal)) (fun i => ((wqr i : ℝ) : EReal)) (fun i => ((wkr i : ℝ) : EReal)) (fun i => ((wvr i : ℝ) : EReal)) := by
  refine arrAt_of_blocks V c _ fun t h3 r d => ?_
  have hN : t.val < 64 := lt_of_lt_of_eq t.isLt (show cfg1.N = 64 from N_1)
  obtain ⟨b, qi, rfl⟩ : ∃ (b qi : Fin 4), t = pt b qi 3 :=
    ⟨⟨t.val / 16, by omega⟩, ⟨(t.val / 4) % 4, by omega⟩, Fin.ext (by simp only [pt_val]; show t.val = 16 * (t.val / 16) + 4 * ((t.val / 4) % 4) + 3; omega)⟩
  rw [block_entry V xr wqr wkr wvr c hQ hK hV b qi r d]
  unfold Cert.Spec.G
  refine congrArg₂ (fun (bb : Fin 4) (tt : Fin 2048) => Cert.Spec.attn _ _ _ _ bb tt d) (Fin.ext ?_) (Fin.ext ?_)
  · show b.val = (pt b qi 3).val / 16
    rw [pt_b]
  · show 512 * qi.val + r.val = 512 * (((pt b qi 3).val / 4) % 4) + r.val
    rw [pt_qi]

end Cert.KernelIdeal.Attn

end
-- ==== Proof.FiniteInputs.lean ====
/-
  The inputs are real numbers. The precondition says that, of each of the four argument arrays, every entry has
  an absolute value strictly below plus infinity (an `and` over all entries of the comparison `|x| < +∞`, the four
  results and-ed together). On the extended reals that excludes exactly the two infinities: each entry is the
  coercion of a real number.
-/
import proofs.«140165_j15401752723638_2_alg».proof.Defs
import proofs.«140165_j15401752723638_2_alg».proof.Proof.Gen.Pre_finite_inputs
import Idealize.ShloMosaic.Lib.ReduceAll
import Idealize.ShloMosaic.Lib.ValueIdx
noncomputable section
namespace Cert.Proof.Finite
open Idealize.ShloMosaic Idealize.ShloMosaic.TcCoe Idealize.SL.Sem

/-- The rank-0 shape has one index. -/
instance : Subsingleton Cert.Pre_finite_inputs.S_.Idx := ⟨fun a b => funext fun d => d.elim0⟩

/-- An extended real whose absolute value `max x (-x)` lies strictly below plus infinity (the f32 word
    `0x7F800000`) is a real number: at `⊤` and at `⊥` the absolute value is `⊤`, which is not below `⊤`. -/
theorem real_of_abs_lt (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- Every entry of each of the four argument arrays is (the coercion of) a real number. -/
theorem real_inputs (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal))
    ∧ (∀ i, ∃ r : ℝ, m ((c.tc : Thread Cert.KernelIdeal.nD Cert.KernelIdeal.τ).loc Cert.KernelIdeal.main_arg2) i = ((r : ℝ) : EReal))
    ∧ (∀ i, ∃ r : ℝ, m ((c.tc : Thread Cert.KernelIdeal.nD Cert.KernelIdeal.τ).loc Cert.KernelIdeal.main_arg3) i = ((r : ℝ) : EReal)) := by
  -- the predicate's one result word is 1
  have e := congrFun (h c) ValueIdx.ix0
  dsimp only [Cert.Pre_finite_inputs.fn, Cert.Pre_finite_inputs.fn_part1] at e
  -- it is the conjunction ((all₀ ∧ all₁) ∧ all₂) ∧ all₃ of the four arrays' `all`s
  change IntOp.andi (IntOp.andi (IntOp.andi _ _) _) _ = 1#1 at e
  obtain ⟨e012, e3⟩ := IntOp.andi_eq_one.1 e
  obtain ⟨e01, e2⟩ := IntOp.andi_eq_one.1 e012
  obtain ⟨e0, e1⟩ := IntOp.andi_eq_one.1 e01
  -- an `all` that is 1 has a 1 at every entry: there `|x| < +∞` holds, and the entry is real
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i)⟩
end Cert.Proof.Finite
end
-- ==== Proof.RefIsSpec.lean ====
/-
  The reference program, read one operation at a time, is the specification: the three projections are the
  contracted sums; the scale the host computes, one over the square root of 1024, is the real 1/32; the triangular
  mask is one where the key row is at or before the query row and zero after it; a score is the contracted product
  of the projections times the scale times the mask; the row's maximum, a fold of max from minus infinity over the
  2048 key rows, is their supremum; the weights, their sum, the quotients and the last contraction are then the
  specification's, term by term. No finiteness is used: every step is a reading, none an algebraic law.
-/
import proofs.«140165_j15401752723638_2_alg».proof.Proof.Gen.ReferenceIdeal.Read
import proofs.«140165_j15401752723638_2_alg».proof.Proof.AttnSpec
import Idealize.ShloMosaic.Lib.ValueIdx
import Idealize.ShloMosaic.PureOps.Ideal.Laws
import Idealize.ShloMosaic.Lib.Affine

noncomputable section

open scoped BigOperators

namespace Cert.ReferenceIdeal.RefValue

open Cert.ReferenceIdeal Cert.ReferenceIdeal.Gen Cert.ReferenceIdeal.Read Idealize.ShloMosaic Idealize.ShloMosaic.ValueIdx

/-- An array of the input's shape. -/
abbrev XT := (⟨S4x2048x1024, .f32⟩ : BufTy).Contents (Elt Ideal)
/-- A weight matrix. -/
abbrev WT := (⟨S1024x1024, .f32⟩ : BufTy).Contents (Elt Ideal)

/-! ## The three projections -/

/-- The first projection at (b, t, d) is the contracted sum. -/
theorem v0_at (x : XT) (w : WT) (b : Fin 4) (t : Fin 2048) (d : Fin 1024) :
    val_main_v0 (F := Ideal) x w (ix3 b t d) = Cert.Spec.proj x w b t d := by
  rw [val_main_v0_apply]
  unfold Cert.Spec.proj
  refine Finset.sum_congr rfl fun k _ => ?_
  have el : lidx_main_v0 (ix3 b t d) k = ix3 b t k :=
    funext fun a => Fin.ext (by match a with | ⟨0, _⟩ => rfl | ⟨1, _⟩ => rfl | ⟨2, _⟩ => rfl)
  have er : ridx_main_v0 (ix3 b t d) k = ix2 k d :=
    funext fun a => Fin.ext (by match a with | ⟨0, _⟩ => rfl | ⟨1, _⟩ => rfl)
  rw [el, er]

/-- The second projection likewise. -/
theorem v1_at (x : XT) (w : WT) (b : Fin 4) (t : Fin 2048) (d : Fin 1024) :
    val_main_v1 (F := Ideal) x w (ix3 b t d) = Cert.Spec.proj x w b t d := by
  rw [val_main_v1_apply]
  unfold Cert.Spec.proj
  refine Finset.sum_congr rfl fun k _ => ?_
  have el : lidx_main_v1 (ix3 b t d) k = ix3 b t k :=
    funext fun a => Fin.ext (by match a with | ⟨0, _⟩ => rfl | ⟨1, _⟩ => rfl | ⟨2, _⟩ => rfl)
  have er : ridx_main_v1 (ix3 b t d) k = ix2 k d :=
    funext fun a => Fin.ext (by match a with | ⟨0, _⟩ => rfl | ⟨1, _⟩ => rfl)
  rw [el, er]

/-- The third projection likewise. -/
theorem v2_at (x : XT) (w : WT) (b : Fin 4) (t : Fin 2048) (d : Fin 1024) :
    val_main_v2 (F := Ideal) x w (ix3 b t d) = Cert.Spec.proj x w b t d := by
  rw [val_main_v2_apply]
  unfold Cert.Spec.proj
  refine Finset.sum_congr rfl fun k _ => ?_
  have el : lidx_main_v2 (ix3 b t d) k = ix3 b t k :=
    funext fun a => Fin.ext (by match a with | ⟨0, _⟩ => rfl | ⟨1, _⟩ => rfl | ⟨2, _⟩ => rfl)
  have er : ridx_main_v2 (ix3 b t d) k = ix2 k d :=
    funext fun a => Fin.ext (by match a with | ⟨0, _⟩ => rfl | ⟨1, _⟩ => rfl)
  rw [el, er]

/-! ## The constants -/

/-- The word 0x3F800000 is one. -/
theorem one_word : Ideal.ofBits .f32 0x3F800000#32 = (1 : EReal) := by
  simp [Ideal.ofBits, Ideal.ieee, -EReal.coe_mul]
  norm_num

/-- The word 0x44800000 is 1024. -/
theorem w1024_word : Ideal.ofBits .f32 0x44800000#32 = ((1024 : ℝ) : EReal) := by
  simp [Ideal.ofBits, Ideal.ieee, -EReal.coe_mul]
  norm_num

/-- The word 0xFF800000 is minus infinity. -/
theorem bot_word : Ideal.ofBits .f32 0xFF800000#32 = (⊥ : EReal) := by
  simp [Ideal.ofBits, Ideal.ieee]

/-- The scale: one over the square root of 1024 is 1/32. -/
theorem v4_at (j : S_.Idx) : val_main_v4 (F := Ideal) j = Cert.Spec.gamma := by
  rw [val_main_v4_apply, val_main_v3_apply, val_main_cst_0_apply, val_main_cst_apply]
  simp only [Ideal.hostDivf_def, Ideal.hostUnary_sqrt_def, Ideal.ofBits_def]
  rw [one_word, w1024_word, Ideal.sqrt_coe, if_neg (by norm_num)]
  have h32 : Real.sqrt 1024 = 32 := by
    rw [show (1024 : ℝ) = 32 ^ 2 by norm_num]; exact Real.sqrt_sq (by norm_num)
  rw [h32, Ideal.div_coe (by norm_num), one_mul]
  rfl

/-! ## The triangular mask -/

/-- A number below 2048 read as a signed 32-bit word is itself. -/
theorem toInt_ofNat_small (n : Nat) (h : n < 2048) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- The mask at (q, t): one where the key row t is at or before the query row q, zero after it. -/
theorem v6_at (q t : Fin 2048) :
    val_main_v6 (F := Ideal) (ix2 q t) = if t.val ≤ q.val then (1 : EReal) else 0 := by
  rw [val_main_v6_apply, val_main_call0_v4_apply, val_main_call0_v2_apply, val_main_call0_v0_apply,
    val_main_call0_v1_apply, val_main_call0_c_apply, val_main_call0_v3_apply, val_main_v5_apply,
    val_main_cst_1_apply, val_main_call0_v5_apply, val_main_call0_cst_apply]
  simp only [Ideal.ofBits_def]
  rw [one_word, Ideal.ofBits_zero_f32]
  have hc : IntOp.cmpi .sge (IntOp.addi (BitVec.ofNat 32 ((ix2 q t) 0).val) 0#32) (BitVec.ofNat 32 ((ix2 q t) 1).val) = 1#1
      ↔ t.val ≤ q.val := by
    rw [IntOp.cmpi_sge]
    show (BitVec.ofNat 32 t.val).toInt ≤ (BitVec.ofNat 32 q.val + 0#32).toInt ↔ _
    rw [BitVec.add_zero, toInt_ofNat_small _ t.isLt, toInt_ofNat_small _ q.isLt]
    omega
  by_cases h : t.val ≤ q.val
  · rw [hc.mpr h, select_one, if_pos h]
  · rw [eq_zero_of_ne_one (fun e => h (hc.mp e)), select_zero, if_neg h]

/-! ## The scores -/

/-- The scaled, masked score at (b, q, t). -/
theorem v12_at (x : XT) (wq wk : WT) (b : Fin 4) (q t : Fin 2048) :
    val_main_v12 (F := Ideal) x wq wk (ix3 b q t) = Cert.Spec.score x wq wk b q t := by
  rw [val_main_v12_apply, val_main_v9_apply, val_main_v7_apply, val_main_v8_apply, v4_at,
    val_main_v11_apply, val_main_v10_apply]
  have em : idx_main_v10 (idx_main_v11 (ix3 b q t)) = ix2 q t :=
    funext fun a => Fin.ext (by match a with | ⟨0, _⟩ => rfl | ⟨1, _⟩ => rfl)
  rw [em, v6_at]
  simp only [Ideal.mulf_def]
  unfold Cert.Spec.score
  refine congrArg (fun s => s * Cert.Spec.gamma * (if t.val ≤ q.val then (1 : EReal) else 0)) ?_
  refine Finset.sum_congr rfl fun k _ => ?_
  have el : lidx_main_v7 (ix3 b q t) k = ix3 b q k :=
    funext fun a => Fin.ext (by match a with | ⟨0, _⟩ => rfl | ⟨1, _⟩ => rfl | ⟨2, _⟩ => rfl)
  have er : ridx_main_v7 (ix3 b q t) k = ix3 b t k :=
    funext fun a => Fin.ext (by match a with | ⟨0, _⟩ => rfl | ⟨1, _⟩ => rfl | ⟨2, _⟩ => rfl)
  rw [el, er, v0_at, v1_at]

/-! ## The row maximum -/

/-- A fold of max from minus infinity is the supremum. -/
theorem fold_max_bot_eq_sup {ι : Type} (s : Finset ι) (f : ι → EReal) :
    s.fold max (⊥ : EReal) f = s.sup f := by
  classical
  induction s using Finset.induction_on with
  | empty => rw [Finset.fold_empty, Finset.sup_empty]
  | insert a s ha ih => rw [Finset.fold_insert ha, Finset.sup_insert, ih]

/-- The reduced index (b, q) with key row k put back on the last axis is (b, q, k). -/
theorem lift_at (h : S4x2048x2048.Reduces [2] S4x2048) (b : Fin 4) (q : Fin 2048) (k : Fin (S4x2048x2048.size 2)) :
    h.lift (ix2 b q) k = ix3 b q (⟨k.val, k.isLt⟩ : Fin 2048) :=
  funext fun a => Fin.ext (by match a with | ⟨0, _⟩ => rfl | ⟨1, _⟩ => rfl | ⟨2, _⟩ => rfl)

/-- The max-reduce over the key rows, from minus infinity, is the row's supremum of the scores. -/
theorem v13_at (x : XT) (wq wk : WT) (b : Fin 4) (q : Fin 2048) :
    val_main_v13 (F := Ideal) x wq wk (ix2 b q) = Cert.Spec.rowMax x wq wk b q := by
  have hred : S4x2048x2048.Reduces [2] S4x2048 := by decide
  unfold val_main_v13
  rw [Host.reduce_eq_fold_single FloatOps.maximumf _ _ reducesTo_S4x2048x2048_S4x2048_d2 hred h_S_,
    val_main_cst_2_apply]
  have hf : (val_main_v12 (F := Ideal) x wq wk ∘ hred.lift (ix2 b q))
      = fun k : Fin 2048 => Cert.Spec.score x wq wk b q k :=
    funext fun k => by
      show val_main_v12 (F := Ideal) x wq wk (hred.lift (ix2 b q) k) = _
      rw [lift_at, v12_at]
      rfl
  rw [hf]
  unfold Cert.Spec.rowMax
  show Finset.fold max (Ideal.ofBits .f32 0xFF800000#32) (fun k : Fin 2048 => Cert.Spec.score x wq wk b q k) Finset.univ = _
  rw [bot_word, fold_max_bot_eq_sup]

/-- Taking the maximum with minus infinity once more changes nothing. -/
theorem v15_at (x : XT) (wq wk : WT) (b : Fin 4) (q : Fin 2048) :
    val_main_v15 (F := Ideal) x wq wk (ix2 b q) = Cert.Spec.rowMax x wq wk b q := by
  rw [val_main_v15_apply, val_main_v14_apply, val_main_cst_3_apply, v13_at]
  simp only [Ideal.maximumf_def, Ideal.ofBits_def]
  rw [bot_word]
  exact max_bot_left _

/-! ## The weights, their sum, the quotients -/

/-- The unnormalised weight at (b, q, t). -/
theorem v19_at (x : XT) (wq wk : WT) (b : Fin 4) (q t : Fin 2048) :
    val_main_v19 (F := Ideal) x wq wk (ix3 b q t) = Cert.Spec.weight x wq wk b q t := by
  rw [val_main_v19_apply, val_main_v18_apply, val_main_v17_apply, val_main_v16_apply, v12_at]
  have e : idx_main_v16 (idx_main_v17 (ix3 b q t)) = ix2 b q :=
    funext fun a => Fin.ext (by match a with | ⟨0, _⟩ => rfl | ⟨1, _⟩ => rfl)
  rw [e, v15_at]
  simp only [Ideal.hostUnary_exp_def, Ideal.subf_def]
  rfl

/-- The sum of the weights over the key rows, from zero. -/
theorem v20_at (x : XT) (wq wk : WT) (b : Fin 4) (q : Fin 2048) :
    val_main_v20 (F := Ideal) x wq wk (ix2 b q) = Cert.Spec.rowSum x wq wk b q := by
  rw [val_main_v20_apply, val_main_cst_4_apply]
  simp only [Ideal.ofBits_def]
  rw [Ideal.ofBits_zero_f32, zero_add]
  unfold Cert.Spec.rowSum
  refine Finset.sum_congr rfl fun k _ => ?_
  have e : idx_main_v20 (ix2 b q) k = ix3 b q k :=
    funext fun a => Fin.ext (by match a with | ⟨0, _⟩ => rfl | ⟨1, _⟩ => rfl | ⟨2, _⟩ => rfl)
  rw [e, v19_at]

/-- The normalised weight at (b, q, t). -/
theorem v23_at (x : XT) (wq wk : WT) (b : Fin 4) (q t : Fin 2048) :
    val_main_v23 (F := Ideal) x wq wk (ix3 b q t)
      = Ideal.div (Cert.Spec.weight x wq wk b q t) (Cert.Spec.rowSum x wq wk b q) := by
  rw [val_main_v23_apply, v19_at, val_main_v22_apply, val_main_v21_apply]
  have e : idx_main_v21 (idx_main_v22 (ix3 b q t)) = ix2 b q :=
    funext fun a => Fin.ext (by match a with | ⟨0, _⟩ => rfl | ⟨1, _⟩ => rfl)
  rw [e, v20_at]
  rfl

/-! ## The result -/

/-- The reference's result is the specification's array. -/
theorem ref_eq_spec (x : (⟨S4x2048x1024, .f32⟩ : BufTy).Contents (Elt Ideal)) (wq wk wv : (⟨S1024x1024, .f32⟩ : BufTy).Contents (Elt Ideal)) :
    Cert.ReferenceIdeal.Read.val_main_v24 (F := Ideal) x wq wk wv = Cert.Spec.G x wq wk wv := by
  funext i
  obtain ⟨b, q, d, rfl⟩ : ∃ (b : Fin 4) (q : Fin 2048) (d : Fin 1024), i = ix3 b q d := ⟨i 0, i 1, i 2, eq_ix3 i⟩
  rw [val_main_v24_apply]
  show _ = Cert.Spec.attn x wq wk wv b q d
  unfold Cert.Spec.attn
  refine Finset.sum_congr rfl fun k _ => ?_
  have el : lidx_main_v24 (ix3 b q d) k = ix3 b q k :=
    funext fun a => Fin.ext (by match a with | ⟨0, _⟩ => rfl | ⟨1, _⟩ => rfl | ⟨2, _⟩ => rfl)
  have er : ridx_main_v24 (ix3 b q d) k = ix3 b k d :=
    funext fun a => Fin.ext (by match a with | ⟨0, _⟩ => rfl | ⟨1, _⟩ => rfl | ⟨2, _⟩ => rfl)
  rw [el, er, v23_at, v2_at]

end Cert.ReferenceIdeal.RefValue

end
-- ==== Proof.Algebraic.lean ====
/-
  The two programs, read on extended reals from memories that agree on the arguments, end with equal results. Under
  the precondition every input entry is a real number, so the kernel's three projections are real, the streaming
  softmax of each query row meets the row softmax of the specification, and the kernel's result array is the
  specification of the launch inputs; the reference's composed term is the same specification operation by operation.
-/
import proofs.«140165_j15401752723638_2_alg».proof.Defs
import proofs.«140165_j15401752723638_2_alg».proof.Proof.IdealRun
import proofs.«140165_j15401752723638_2_alg».proof.Proof.QkvValue
import proofs.«140165_j15401752723638_2_alg».proof.Proof.AttnValue
import proofs.«140165_j15401752723638_2_alg».proof.Proof.FiniteInputs
import proofs.«140165_j15401752723638_2_alg».proof.Proof.RefIsSpec
import proofs.«140165_j15401752723638_2_alg».proof.Proof.RefFrame

set_option maxRecDepth 16384

noncomputable section

open Idealize.ShloMosaic Idealize.ShloMosaic.TcCoe Idealize.ShloMosaic.ValueIdx Idealize.SL.Sem

namespace Cert.Proof.Algebraic

open Cert.KernelIdeal

/-- The kernel's result array, from real inputs, is the specification. -/
theorem kernel_result (m : (ℓ : Loc nD τ sig) → Buf (Elt Ideal) ℓ) (c : Dev nD)
    (xr : Cert.Spec.SX.Idx → ℝ) (wqr wkr wvr : Cert.Spec.SW.Idx → ℝ)
    (e0 : m ((c : Thread nD τ).loc main_arg0) = fun i => ((xr i : ℝ) : EReal))
    (e1 : m ((c : Thread nD τ).loc main_arg1) = fun i => ((wqr i : ℝ) : EReal))
    (e2 : m ((c : Thread nD τ).loc main_arg2) = fun i => ((wkr i : ℝ) : EReal))
    (e3 : m ((c : Thread nD τ).loc main_arg3) = fun i => ((wvr i : ℝ) : EReal)) :
    (Cert.KernelIdeal.Attn.dat (Cert.KernelIdeal.Run.U3 (F := Ideal) m) c).arrAt 3 cfg1.N
      = Cert.Spec.G (fun i => ((xr i : ℝ) : EReal)) (fun i => ((wqr i : ℝ) : EReal)) (fun i => ((wkr i : ℝ) : EReal)) (fun i => ((wvr i : ℝ) : EReal)) := by
  refine Cert.KernelIdeal.Attn.result_eq (Cert.KernelIdeal.Run.U3 (F := Ideal) m) xr wqr wkr wvr c ?_ ?_ ?_
  · intro b t d
    have h := congrFun (Cert.KernelIdeal.QkvValue.q_eq m c) (ix3 b t d)
    rw [e0, e1] at h
    exact h.trans (Cert.Spec.proj_coe xr wqr b t d)
  · intro b t d
    have h := congrFun (Cert.KernelIdeal.QkvValue.k_eq m c) (ix3 b t d)
    rw [e0, e2] at h
    exact h.trans (Cert.Spec.proj_coe xr wkr b t d)
  · intro b t d
    have h := congrFun (Cert.KernelIdeal.QkvValue.v_eq m c) (ix3 b t d)
    rw [e0, e3] at h
    exact h.trans (Cert.Spec.proj_coe xr wvr b t d)

theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Run.run_result (F := Ideal) m ρ)
    obtain ⟨h0, h1, h2, h3⟩ := Cert.Proof.Finite.real_inputs m hpre c
    choose xr hx using h0
    choose wqr hwq using h1
    choose wkr hwk using h2
    choose wvr hwv using h3
    have e0 : m ((c.tc : Thread Cert.KernelIdeal.nD Cert.KernelIdeal.τ).loc Cert.KernelIdeal.main_arg0) = fun i => ((xr i : ℝ) : EReal) := funext hx
    have e1 : m ((c.tc : Thread Cert.KernelIdeal.nD Cert.KernelIdeal.τ).loc Cert.KernelIdeal.main_arg1) = fun i => ((wqr i : ℝ) : EReal) := funext hwq
    have e2 : m ((c.tc : Thread Cert.KernelIdeal.nD Cert.KernelIdeal.τ).loc Cert.KernelIdeal.main_arg2) = fun i => ((wkr i : ℝ) : EReal) := funext hwk
    have e3 : m ((c.tc : Thread Cert.KernelIdeal.nD Cert.KernelIdeal.τ).loc Cert.KernelIdeal.main_arg3) = fun i => ((wvr i : ℝ) : EReal) := funext hwv
    show _ = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    rw [e0, e1, e2, e3]
    exact kernel_result m c xr wqr wkr wvr e0 e1 e2 e3
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v24_eq, Cert.ReferenceIdeal.RefValue.ref_eq_spec,
      (hagree c).1, (hagree c).2.1, (hagree c).2.2.1, (hagree c).2.2.2]

end Cert.Proof.Algebraic

end
-- ==== Proof.lean ====
/-
  A fused attention kernel against its reference: a projection region (queries, keys and values from one input and
  three weight matrices) followed by a tiled attention region with a multiplicative causal mask, whose key tiles
  wholly above the diagonal are taken in closed form. The three programs run to their ends leaving their arguments
  unchanged; the idealized kernel is the printed kernel read on extended reals (nothing was rewritten); and on
  extended reals, from finite inputs, kernel and reference end with equal results: both compute the row softmax of
  the scaled, masked scores times the value projection.
-/
import proofs.«140165_j15401752723638_2_alg».proof.Defs
import proofs.«140165_j15401752723638_2_alg».proof.Proof.Gen.Kernel
import proofs.«140165_j15401752723638_2_alg».proof.Proof.Gen.KernelIdeal
import proofs.«140165_j15401752723638_2_alg».proof.Proof.Gen.ReferenceIdeal
import proofs.«140165_j15401752723638_2_alg».proof.Proof.Gen.Pre_finite_inputs
import proofs.«140165_j15401752723638_2_alg».proof.Proof.Frames
import proofs.«140165_j15401752723638_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_p, Cert.Proof.Frames.frame_pi, Cert.Proof.Frames.frame_ri, Cert.Proof.Frames.preserves,
    Cert.Proof.Algebraic.algebraic⟩

end Cert.Proof

end
